-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1000000 : Shape := ⟨1, ![1000000]⟩
abbrev S1000000x16 : Shape := ⟨2, ![1000000, 16]⟩
abbrev S_ : Shape := ⟨0, ![]⟩
abbrev S16384 : Shape := ⟨1, ![16384]⟩
abbrev S16384x16 : Shape := ⟨2, ![16384, 16]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S16384 : S_.BroadcastsInDim S16384 (![] : Fin 0 → Fin S16384.rank)
  reducesTo_S16384_S_d0 : S16384.ReducesTo [0] S_
  bcast_S_S1000000x16 : S_.BroadcastsInDim S1000000x16 (![] : Fin 0 → Fin S1000000x16.rank)
  reducesTo_S1000000x16_S_d0_1 : S1000000x16.ReducesTo [0, 1] S_
  reducesTo_S_S_d : S_.ReducesTo [] S_
  bcast_S_S16384x16 : S_.BroadcastsInDim S16384x16 (![] : Fin 0 → Fin S16384x16.rank)
  reducesTo_S16384x16_S_d0_1 : S16384x16.ReducesTo [0, 1] S_

variable [Facts]

def fn_part2 {F : FTy → Type} [FloatOps F] (main_arg5 : IVec S16384x16 32) (main_v27 : IVec S_ 1) (main_v32 : IVec S16384 1) : IVec S_ 1 :=
  let main_c_13 : IVec S_ 1 := constantI S_ 1 1#1
  let main_v33 : IVec S_ 1 := (fun x v => Host.reduce IntOp.andi x v reducesTo_S16384_S_d0 h_S_) main_v32 main_c_13
  let main_v34 : IVec S_ 1 := andi main_v27 main_v33
  let main_c_14 : IVec S_ 32 := constantI S_ 32 0#32
  let main_v35 : IVec S16384x16 32 := broadcastInDim S16384x16 ![] bcast_S_S16384x16 main_c_14
  let main_v36 : IVec S16384x16 1 := cmpi .sge main_arg5 main_v35
  let main_c_15 : IVec S_ 32 := constantI S_ 32 9999#32
  let main_v37 : IVec S16384x16 32 := broadcastInDim S16384x16 ![] bcast_S_S16384x16 main_c_15
  let main_v38 : IVec S16384x16 1 := cmpi .sle main_arg5 main_v37
  let main_v39 : IVec S16384x16 1 := andi main_v36 main_v38
  let main_c_16 : IVec S_ 1 := constantI S_ 1 1#1
  let main_v40 : IVec S_ 1 := (fun x v => Host.reduce IntOp.andi x v reducesTo_S16384x16_S_d0_1 h_S_) main_v39 main_c_16
  let main_v41 : IVec S_ 1 := andi main_v34 main_v40
  main_v41

def fn_part1 {F : FTy → Type} [FloatOps F] (main_arg1 : IVec S1000000x16 32) (main_arg3 : IVec S_ 32) (main_arg4 : IVec S16384 32) (main_arg5 : IVec S16384x16 32) (main_v15 : IVec S_ 1) (main_c_5 : IVec S_ 32) : IVec S_ 1 :=
  let main_v16 : IVec S1000000x16 32 := broadcastInDim S1000000x16 ![] bcast_S_S1000000x16 main_c_5
  let main_v17 : IVec S1000000x16 1 := cmpi .sge main_arg1 main_v16
  let main_c_6 : IVec S_ 32 := constantI S_ 32 9999#32
  let main_v18 : IVec S1000000x16 32 := broadcastInDim S1000000x16 ![] bcast_S_S1000000x16 main_c_6
  let main_v19 : IVec S1000000x16 1 := cmpi .sle main_arg1 main_v18
  let main_v20 : IVec S1000000x16 1 := andi main_v17 main_v19
  let main_c_7 : IVec S_ 1 := constantI S_ 1 1#1
  let main_v21 : IVec S_ 1 := (fun x v => Host.reduce IntOp.andi x v reducesTo_S1000000x16_S_d0_1 h_S_) main_v20 main_c_7
  let main_v22 : IVec S_ 1 := andi main_v15 main_v21
  let main_c_8 : IVec S_ 32 := constantI S_ 32 0#32
  let main_v23 : IVec S_ 1 := cmpi .sge main_arg3 main_c_8
  let main_c_9 : IVec S_ 32 := constantI S_ 32 0#32
  let main_v24 : IVec S_ 1 := cmpi .sle main_arg3 main_c_9
  let main_v25 : IVec S_ 1 := andi main_v23 main_v24
  let main_c_10 : IVec S_ 1 := constantI S_ 1 1#1
  let main_v26 : IVec S_ 1 := (fun x v => Host.reduce IntOp.andi x v reducesTo_S_S_d h_S_) main_v25 main_c_10
  let main_v27 : IVec S_ 1 := andi main_v22 main_v26
  let main_c_11 : IVec S_ 32 := constantI S_ 32 0#32
  let main_v28 : IVec S16384 32 := broadcastInDim S16384 ![] bcast_S_S16384 main_c_11
  let main_v29 : IVec S16384 1 := cmpi .sge main_arg4 main_v28
  let main_c_12 : IVec S_ 32 := constantI S_ 32 999999#32
  let main_v30 : IVec S16384 32 := broadcastInDim S16384 ![] bcast_S_S16384 main_c_12
  let main_v31 : IVec S16384 1 := cmpi .sle main_arg4 main_v30
  let main_v32 : IVec S16384 1 := andi main_v29 main_v31
  fn_part2 (F := F) main_arg5 main_v27 main_v32

def fn {F : FTy → Type} [FloatOps F] (main_arg0 : IVec S1000000 32) (main_arg1 : IVec S1000000x16 32) (main_arg2 : FVec F S1000000 .f32) (main_arg3 : IVec S_ 32) (main_arg4 : IVec S16384 32) (main_arg5 : IVec S16384x16 32) (main_arg6 : FVec F S16384 .f32) : IVec S_ 1 :=
  let main_v0 : FVec F S1000000 .f32 := Host.absf main_arg2
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S16384 .f32 := Host.absf main_arg6
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg0 main_v9
  let main_c_3 : IVec S_ 32 := constantI S_ 32 999999#32
  let main_v11 : IVec S1000000 32 := broadcastInDim S1000000 ![] bcast_S_S1000000 main_c_3
  let main_v12 : IVec S1000000 1 := cmpi .sle main_arg0 main_v11
  let main_v13 : IVec S1000000 1 := andi main_v10 main_v12
  let main_c_4 : IVec S_ 1 := constantI S_ 1 1#1
  let main_v14 : IVec S_ 1 := (fun x v => Host.reduce IntOp.andi x v reducesTo_S1000000_S_d0 h_S_) main_v13 main_c_4
  let main_v15 : IVec S_ 1 := andi main_v8 main_v14
  let main_c_5 : IVec S_ 32 := constantI S_ 32 0#32
  fn_part1 (F := F) main_arg1 main_arg3 main_arg4 main_arg5 main_v15 main_c_5
-- ==== Kernel.lean ====
abbrev S1000000 : Shape := ⟨1, ![1000000]⟩
abbrev S1000000x16 : Shape := ⟨2, ![1000000, 16]⟩
abbrev S_ : Shape := ⟨0, ![]⟩
abbrev S16384 : Shape := ⟨1, ![16384]⟩
abbrev S16384x16 : Shape := ⟨2, ![16384, 16]⟩
abbrev S512 : Shape := ⟨1, ![512]⟩
abbrev S16x16384 : Shape := ⟨2, ![16, 16384]⟩
abbrev S16x1000000 : Shape := ⟨2, ![16, 1000000]⟩

abbrev nBuf : Table → Nat
  | .hbm => 15
  | .local .tc .vmem => 2
  | _ => 0

abbrev bufTy : (tb : Table) → Fin (nBuf tb) → BufTy
  | .hbm, ⟨0, _⟩ => ⟨S1000000, .i32⟩
  | .hbm, ⟨1, _⟩ => ⟨S1000000x16, .i32⟩
  | .hbm, ⟨2, _⟩ => ⟨S1000000, .f32⟩
  | .hbm, ⟨3, _⟩ => ⟨S_, .i32⟩
  | .hbm, ⟨4, _⟩ => ⟨S16384, .i32⟩
  | .hbm, ⟨5, _⟩ => ⟨S16384x16, .i32⟩
  | .hbm, ⟨6, _⟩ => ⟨S16384, .f32⟩
  | .hbm, ⟨7, _⟩ => ⟨S1000000, .i32⟩
  | .hbm, ⟨8, _⟩ => ⟨S1000000, .f32⟩
  | .hbm, ⟨9, _⟩ => ⟨S16x16384, .i32⟩
  | .hbm, ⟨10, _⟩ => ⟨S16x1000000, .i32⟩
  | .hbm, ⟨11, _⟩ => ⟨S16x1000000, .i32⟩
  | .hbm, ⟨12, _⟩ => ⟨S_, .i32⟩
  | .hbm, ⟨13, _⟩ => ⟨S_, .i32⟩
  | .hbm, ⟨14, _⟩ => ⟨S1000000x16, .i32⟩
  | .local .tc .vmem, ⟨0, _⟩ => ⟨S16x16384, .i32⟩
  | .local .tc .vmem, ⟨1, _⟩ => ⟨S16x16384, .i32⟩
  | _, _ => ⟨S1000000, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => true
  | ⟨3, _⟩ => true
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_arg4_scv : Ref sig .scVector := ⟨.hbm, 4, rfl⟩
abbrev main_arg6_scv : Ref sig .scVector := ⟨.hbm, 6, rfl⟩
abbrev main_v0_0_scv : Ref sig .scVector := ⟨.hbm, 7, rfl⟩
abbrev main_v0_1_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_sem0_0 : DmaSem sig := 2
abbrev cc1_sem1_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  v2
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  ![v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  ![v3.toNat]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x16384 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x16384 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x16_S16x16384_1_0 : S16384x16.Transposes [1, 0] S16x16384
  transposes_S1000000x16_S16x1000000_1_0 : S1000000x16.Transposes [1, 0] S16x1000000
  inb_S16x16384_S16x16384_0_0 : ∀ a, (![0, 0] : Fin 2 → Nat) a + S16x16384.size a ≤ S16x16384.size a
  h_S16x16384 : 0 < S16x16384.numel
  shapeCasts_S16x16384_S16x16384 : S16x16384.ShapeCasts S16x16384
  transposes_S16x1000000_S1000000x16_1_0 : S16x1000000.Transposes [1, 0] S1000000x16
  hcc0_scoped0 : 0 + S_.numel ≤ 4
  hcc0_scoped1 : 1 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 512 ∣ (k0_mult1 i).toNat
  k0_off1_inb : ∀ i : grid0.Coords, ∀ a, (k0_off1 i) a + S512.size a ≤ S1000000.size a
  k0_off2_inb : ∀ i : grid0.Coords, ∀ a, (k0_off2 i) a + S512.size a ≤ S16384.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x16384.size a ≤ S16x16384.size a
  hwx1_0 : ∀ i : grid1.Coords, EltTy.bits .i32 = 32 ∨ (Rect.block (s := S16x16384) S16x16384.size (cc1_transform_0 i) (hinb1_0 i)).WholeWords (EltTy.packing .i32)
  hstage1_1 : ∀ j, (stage1_1 j).IsWhole
  nbuf1_1 : grid1.bufCount reads1_1 false = 1
  hreads1_1 : ∀ i i' : grid1.Coords, (∀ a, reads1_1 a = true → i a = i' a) → cc1_transform_2 i = cc1_transform_2 i'
  hstart1_1 : ∀ (i : grid1.Coords) a, cc1_transform_2 i a * S16x16384.size a < S16x1000000.size a
  hwx1_1 : ∀ i : grid1.Coords, EltTy.bits .i32 = 32 ∨ (Rect.unit (s := S16x1000000) (fun a => cc1_transform_2 i a * S16x16384.size a) (fun a => (Pipeline.Clip.of (cc1_transform_2 i a) (S16x16384.size a) (S16x1000000.size a)).extent (S16x16384.size a)) fun a => Pipeline.Clip.inb (Pipeline.Clip.ok_of (hstart1_1 i a))).WholeWords (EltTy.packing .i32)
  hwxs1_1 : ∀ i : grid1.Coords, EltTy.bits .i32 = 32 ∨ (Rect.unit (s := S16x16384) (fun _ => 0) (fun a => (Pipeline.Clip.of (cc1_transform_2 i a) (S16x16384.size a) (S16x1000000.size a)).extent (S16x16384.size a)) fun a => (Nat.zero_add _).trans_le (Pipeline.Clip.extent_le (Pipeline.Clip.ok_of (hstart1_1 i a)))).WholeWords (EltTy.packing .i32)

variable [Facts₀]

abbrev cc0_scoped0 : DmaSems sig S_ := SemArray.consecutive 0 S_ hcc0_scoped0
abbrev cc0_scoped1 : DmaSems sig S_ := SemArray.consecutive 1 S_ hcc0_scoped1

abbrev win1_0 : Pipeline.Window sig grid1 :=
  Pipeline.Window.ofSpec (Memref.whole main_v1) S16x16384.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_v3) S16x16384.size cc1_transform_2 reads1_1 true false 1 stage1_1 sem1_1
    hrank1 hreads1_1 hstart1_1 nbuf1_1 (Memref.isWhole_whole _) hwx1_1 hwxs1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1000000 : Shape := ⟨1, ![1000000]⟩
abbrev S1000000x16 : Shape := ⟨2, ![1000000, 16]⟩
abbrev S_ : Shape := ⟨0, ![]⟩
abbrev S16384 : Shape := ⟨1, ![16384]⟩
abbrev S16384x16 : Shape := ⟨2, ![16384, 16]⟩
abbrev S16384x1 : Shape := ⟨2, ![16384, 1]⟩

abbrev nBuf : Space → Nat
  | .hbm => 61
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000x16, .i32⟩
  | .hbm, ⟨2, _⟩ => ⟨S1000000, .f32⟩
  | .hbm, ⟨3, _⟩ => ⟨S_, .i32⟩
  | .hbm, ⟨4, _⟩ => ⟨S16384, .i32⟩
  | .hbm, ⟨5, _⟩ => ⟨S16384x16, .i32⟩
  | .hbm, ⟨6, _⟩ => ⟨S16384, .f32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S_, .i1⟩
  | .hbm, ⟨26, _⟩ => ⟨S16384, .i1⟩
  | .hbm, ⟨27, _⟩ => ⟨S16384, .i1⟩
  | .hbm, ⟨28, _⟩ => ⟨S16384, .i1⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S1000000, .i32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S1000000x16, .i32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .i32⟩
  | .hbm, ⟨57, _⟩ => ⟨S16384x1, .i32⟩
  | .hbm, ⟨58, _⟩ => ⟨S1000000, .f32⟩
  | .hbm, ⟨59, _⟩ => ⟨S_, .i32⟩
  | .hbm, ⟨60, _⟩ => ⟨S_, .i32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_c_1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_2 : Ref sig .tc := ⟨.hbm, 41, rfl⟩
abbrev main_v11 : Ref sig .tc := ⟨.hbm, 42, rfl⟩
abbrev main_v12 : Ref sig .tc := ⟨.hbm, 43, rfl⟩
abbrev main_c_3 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_4 : Ref sig .tc := ⟨.hbm, 50, rfl⟩
abbrev main_v18 : Ref sig .tc := ⟨.hbm, 51, rfl⟩
abbrev main_v19 : Ref sig .tc := ⟨.hbm, 52, rfl⟩
abbrev main_c_5 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_6 : Ref sig .tc := ⟨.hbm, 59, rfl⟩
abbrev main_v25 : Ref sig .tc := ⟨.hbm, 60, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  scatter_S1000000_S16384x1_S16384_n_0_0_1_wf : ScatterDims.WF S1000000 S16384x1 S16384 [] [0] [0] 1
  scatter_S1000000x16_S16384x1_S16384x16_1_0_0_1_wf : ScatterDims.WF S1000000x16 S16384x1 S16384x16 [1] [0] [0] 1

variable [Facts₀]

def scatter_S1000000_S16384x1_S16384_n_0_0_1 : ScatterDims S1000000 S16384x1 S16384 where
  updateWindowDims := []
  insertedWindowDims := [0]
  scatterDimsToOperandDims := [0]
  indexVectorDim := 1
  wf := scatter_S1000000_S16384x1_S16384_n_0_0_1_wf
def scatter_S1000000x16_S16384x1_S16384x16_1_0_0_1 : ScatterDims S1000000x16 S16384x1 S16384x16 where
  updateWindowDims := [1]
  insertedWindowDims := [0]
  scatterDimsToOperandDims := [0]
  indexVectorDim := 1
  wf := scatter_S1000000x16_S16384x1_S16384x16_1_0_0_1_wf

class Facts : Prop extends Facts₀ where

variable [Facts]
-- ==== Proof.Spec.lean ====
/-
  The result of one ring-buffer append at write position 0, as whole-array functions of the arguments.

  A memory of 1000000 rows receives a batch of 16384 rows at rows 0 … 16383: row `r` of the new memory is row `r` of the
  batch when `r < 16384` and row `r` of the old memory otherwise. The same function serves the keys (one word a row), the
  rewards (one number a row) and the candidate table (sixteen words a row); the counter moves on by the batch size.
  Nothing here computes on an element: every result element is one argument element, so the functions are stated for
  an arbitrary element type and the two programs' results are compared by position only.
-/
import Idealize.ShloMosaic.PureOps
import Idealize.ShloMosaic.Lib.ValueIdx

noncomputable section

namespace Cert.Spec

open Idealize.ShloMosaic Idealize.ShloMosaic.ValueIdx

/-- Rows `0 … 16383` of a one-column memory replaced by the batch, the rest kept. -/
def over1 {α : Type} (old : (⟨1, ![1000000]⟩ : Shape).Idx → α) (new : (⟨1, ![16384]⟩ : Shape).Idx → α) :
    (⟨1, ![1000000]⟩ : Shape).Idx → α :=
  fun i => if h : (i 0).val < 16384 then new (ix1 (⟨(i 0).val, h⟩ : Fin 16384)) else old i

/-- Rows `0 … 16383` of a sixteen-column memory replaced by the batch's rows, column by column, the rest kept. -/
def over2 {α : Type} (old : (⟨2, ![1000000, 16]⟩ : Shape).Idx → α) (new : (⟨2, ![16384, 16]⟩ : Shape).Idx → α) :
    (⟨2, ![1000000, 16]⟩ : Shape).Idx → α :=
  fun i => if h : (i 0).val < 16384 then new (ix2 (⟨(i 0).val, h⟩ : Fin 16384) (⟨(i 1).val, (i 1).isLt⟩ : Fin 16)) else old i

/-- The counter after the append: the old counter plus the batch size, as 32-bit words. -/
def bump (cnt : IVec (⟨0, ![]⟩ : Shape) 32) : IVec (⟨0, ![]⟩ : Shape) 32 :=
  addi cnt (constantI (⟨0, ![]⟩ : Shape) 32 16384#32)

theorem over1_lt {α : Type} (old : (⟨1, ![1000000]⟩ : Shape).Idx → α) (new : (⟨1, ![16384]⟩ : Shape).Idx → α)
    (i : (⟨1, ![1000000]⟩ : Shape).Idx) (h : (i 0).val < 16384) :
    over1 old new i = new (ix1 (⟨(i 0).val, h⟩ : Fin 16384)) := by
  unfold over1; rw [dif_pos h]

theorem over1_ge {α : Type} (old : (⟨1, ![1000000]⟩ : Shape).Idx → α) (new : (⟨1, ![16384]⟩ : Shape).Idx → α)
    (i : (⟨1, ![1000000]⟩ : Shape).Idx) (h : ¬ (i 0).val < 16384) :
    over1 old new i = old i := by
  unfold over1; rw [dif_neg h]

theorem over2_lt {α : Type} (old : (⟨2, ![1000000, 16]⟩ : Shape).Idx → α) (new : (⟨2, ![16384, 16]⟩ : Shape).Idx → α)
    (i : (⟨2, ![1000000, 16]⟩ : Shape).Idx) (h : (i 0).val < 16384) :
    over2 old new i = new (ix2 (⟨(i 0).val, h⟩ : Fin 16384) (⟨(i 1).val, (i 1).isLt⟩ : Fin 16)) := by
  unfold over2; rw [dif_pos h]

theorem over2_ge {α : Type} (old : (⟨2, ![1000000, 16]⟩ : Shape).Idx → α) (new : (⟨2, ![16384, 16]⟩ : Shape).Idx → α)
    (i : (⟨2, ![1000000, 16]⟩ : Shape).Idx) (h : ¬ (i 0).val < 16384) :
    over2 old new i = old i := by
  unfold over2; rw [dif_neg h]

end Cert.Spec

end
-- ==== Proof.K.Base.lean ====
/-
  The kernel program, as printed, as the SparseCore launch theorem reads it, and the vocabulary of its frame proof.

  The program: on the TensorCore, two whole-array copies (keys and rewards into result buffers of their own), one
  SparseCore call in which each of the 32 vector subcores copies rows [512·w, 512·w + 512) of the batch's keys and rewards
  onto the same rows of those result buffers (w = 2·subcore + core, so the 32 row ranges tile rows 0 … 16383), then three
  transposes and one pipelined TensorCore kernel of a single grid point that overwrites columns 0 … 16383 of the
  transposed candidate table by the transposed batch, and the counter's addition.
  Ghost state: the launch handshakes' rounds, the TensorCore pipeline's staging cells, and plain transfer counters for
  the subcores' own copies (each copy is issued and waited for on a semaphore of its own, nothing else touching it).
-/
import proofs.«210822_g55980603736083_cont_9to1_m_1082_22_alg».proof.Proof.Gen.Kernel
import proofs.«210822_g55980603736083_cont_9to1_m_1082_22_alg».proof.Proof.Gen.Kernel.Skeleton
import proofs.«210822_g55980603736083_cont_9to1_m_1082_22_alg».proof.Proof.Gen.Kernel.Launch
import proofs.«210822_g55980603736083_cont_9to1_m_1082_22_alg».proof.Proof.Gen.Kernel.Points
import proofs.«210822_g55980603736083_cont_9to1_m_1082_22_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshake rounds, the pipeline's staging cells, transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-! ## Locations -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev a5Loc (d : Dev nD) : Loc nD τ sig := (SparseCore.T d).loc main_arg5
abbrev a6Loc (d : Dev nD) : Loc nD τ sig := (SparseCore.T d).loc main_arg6
abbrev rKLoc (d : Dev nD) : Loc nD τ sig := (SparseCore.T d).loc main_v0_0
abbrev rWLoc (d : Dev nD) : Loc nD τ sig := (SparseCore.T d).loc main_v0_1

end Cert.Kernel.Hand

end
-- ==== Proof.K.Tile.lean ====
/-
  One vector subcore's task: two copies of 512 rows, and what they leave.

  The subcore at grid position (core c, subcore s) owns rows [r, r + 512) with r = 1024·s + 512·c of the batch's keys and
  rewards (which it only reads) and the same rows of the two result buffers (which it overwrites). Each copy is issued
  on a semaphore of its own and waited for before the next is issued, and nothing else touches its source or
  destination meanwhile. After the task the destination rows hold, element by element, the batch's rows: on those rows
  this is the append's function `Spec.over1 old batch` (row r of the result is row r of the batch for r < 16384), since
  r + 511 ≤ 16383 for every subcore.
-/
import proofs.«210822_g55980603736083_cont_9to1_m_1082_22_alg».proof.Proof.K.Base

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## Row ranges -/

/-- The 512 rows from row `o` on, of a one-column array of `N` rows. -/
def rows512 (N o : ℕ) : Finset (⟨1, ![N]⟩ : Shape).Idx := Finset.univ.filter fun j => o ≤ (j 0).val ∧ (j 0).val < o + 512

theorem mem_rows512 {N o : ℕ} (j : (⟨1, ![N]⟩ : Shape).Idx) : j ∈ rows512 N o ↔ o ≤ (j 0).val ∧ (j 0).val < o + 512 := by
  unfold rows512; rw [Finset.mem_filter]; exact ⟨fun h => h.2, fun h => ⟨Finset.mem_univ _, h⟩⟩

/-- The first row of the subcore at grid position `L`: `512 · (2 · subcore + core)`. -/
def rowOf (L : grid0.Coords) : ℕ := 1024 * (L 1).val + 512 * (L 0).val

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0

abbrev a4W : Memref sig .scVector .hbm S16384 .i32 := Memref.whole main_arg4_scv
abbrev a6W : Memref sig .scVector .hbm S16384 .f32 := Memref.whole main_arg6_scv
abbrev rKW : Memref sig .scVector .hbm S1000000 .i32 := Memref.whole main_v0_0_scv
abbrev rWW : Memref sig .scVector .hbm S1000000 .f32 := Memref.whole main_v0_1_scv

abbrev srcK (L : grid0.Coords) : Memref sig .scVector .hbm S512 .i32 := (a4W).slice (Rect.unit (s := S16384) (k0_off2 L) S512.size (k0_off2_inb L)) (fun _ => rfl)
abbrev dstK (L : grid0.Coords) : Memref sig .scVector .hbm S512 .i32 := (rKW).slice (Rect.unit (s := S1000000) (k0_off1 L) S512.size (k0_off1_inb L)) (fun _ => rfl)
abbrev srcW (L : grid0.Coords) : Memref sig .scVector .hbm S512 .f32 := (a6W).slice (Rect.unit (s := S16384) (k0_off2 L) S512.size (k0_off2_inb L)) (fun _ => rfl)
abbrev dstW (L : grid0.Coords) : Memref sig .scVector .hbm S512 .f32 := (rWW).slice (Rect.unit (s := S1000000) (k0_off1 L) S512.size (k0_off1_inb L)) (fun _ => rfl)

theorem set_srcK : (srcK L).view.set = rows512 16384 (rowOf L) := by
  ext j
  show j ∈ ((View.whole main_arg4_scv).slice (Rect.unit (s := S16384) (k0_off2 L) S512.size (k0_off2_inb L))).set ↔ _
  rw [View.set_slice_whole, Rect.mem_set_unit, mem_rows512, k0_off2_eq]
  exact ⟨fun h => h 0, fun h a => by match a with | ⟨0, _⟩ => exact h⟩
theorem set_srcW : (srcW L).view.set = rows512 16384 (rowOf L) := by
  ext j
  show j ∈ ((View.whole main_arg6_scv).slice (Rect.unit (s := S16384) (k0_off2 L) S512.size (k0_off2_inb L))).set ↔ _
  rw [View.set_slice_whole, Rect.mem_set_unit, mem_rows512, k0_off2_eq]
  exact ⟨fun h => h 0, fun h a => by match a with | ⟨0, _⟩ => exact h⟩
theorem set_dstK : (dstK L).view.set = rows512 1000000 (rowOf L) := by
  ext j
  show j ∈ ((View.whole main_v0_0_scv).slice (Rect.unit (s := S1000000) (k0_off1 L) S512.size (k0_off1_inb L))).set ↔ _
  rw [View.set_slice_whole, Rect.mem_set_unit, mem_rows512, k0_off1_eq]
  exact ⟨fun h => h 0, fun h a => by match a with | ⟨0, _⟩ => exact h⟩
theorem set_dstW : (dstW L).view.set = rows512 1000000 (rowOf L) := by
  ext j
  show j ∈ ((View.whole main_v0_1_scv).slice (Rect.unit (s := S1000000) (k0_off1 L) S512.size (k0_off1_inb L))).set ↔ _
  rw [View.set_slice_whole, Rect.mem_set_unit, mem_rows512, k0_off1_eq]
  exact ⟨fun h => h 0, fun h a => by match a with | ⟨0, _⟩ => exact h⟩

theorem pts_srcK (f : Buf (Elt F) (a4Loc d)) :
    ((srcK L).view.loc (V d (cV L) (jV L)) ↦[(srcK L).view.set]{fullShare} f : sProp 𝕄) = a4Loc d ↦[rows512 16384 (rowOf L)]{fullShare} f := by
  rw [set_srcK]
theorem pts_srcW (f : Buf (Elt F) (a6Loc d)) :
    ((srcW L).view.loc (V d (cV L) (jV L)) ↦[(srcW L).view.set]{fullShare} f : sProp 𝕄) = a6Loc d ↦[rows512 16384 (rowOf L)]{fullShare} f := by
  rw [set_srcW]
theorem pts_dstK (f : Buf (Elt F) (rKLoc d)) :
    ((dstK L).view.loc (V d (cV L) (jV L)) ↦[(dstK L).view.set]{fullShare} f : sProp 𝕄) = rKLoc d ↦[rows512 1000000 (rowOf L)]{fullShare} f := by
  rw [set_dstK]
theorem pts_dstW (f : Buf (Elt F) (rWLoc d)) :
    ((dstW L).view.loc (V d (cV L) (jV L)) ↦[(dstW L).view.set]{fullShare} f : sProp 𝕄) = rWLoc d ↦[rows512 1000000 (rowOf L)]{fullShare} f := by
  rw [set_dstW]

abbrev c0cell (d : Dev nD) (L : grid0.Coords) : GSem nD τ sig := (V d (cV L) (jV L), .dma cc0_scoped0.sem)
abbrev c1cell (d : Dev nD) (L : grid0.Coords) : GSem nD τ sig := (V d (cV L) (jV L), .dma cc0_scoped1.sem)

theorem ownSems0_V :
    (ownSems0 (V d (cV L) (jV L)) : sProp 𝕄)
      = iprop(semVal (c0cell d L) 0 ∗ semVal (c1cell d L) 0
          ∗ bigSep (((ownCells (V d (cV L) (jV L))).erase (c0cell d L)).erase (c1cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩)]

theorem rowOf_lt (y : S512.Idx) : rowOf L + (y 0).val < 16384 := by
  have h0 : (L 0).val < 2 := (L 0).isLt
  have h1 : (L 1).val < 16 := (L 1).isLt
  have h2 : (y 0).val < 512 := (y 0).isLt
  unfold rowOf; omega

/-- On its 512 destination rows, what the copy landed is the append's function: row `r` of the batch at row `r`. -/
theorem landedK (f : Buf (Elt F) (rKLoc d)) :
    ∀ i ∈ (dstK L).view.set,
      (dstK L).view.writes (Elt F) f [⟨Rect.whole S512, ReadAs.same.apply ((srcK L).view.read (Elt F) (m (a4Loc d)))⟩] i
        = (Spec.over1 (m (a0Loc d)) (m (a4Loc d)) : Buf (Elt F) (rKLoc d)) i := by
  intro i hi
  obtain ⟨y, -, rfl⟩ := Finset.mem_map.mp hi
  rw [View.writes_singleton]
  have e : (dstK L).view.emb y = ((dstK L).view.slice (Rect.whole S512)).emb y := by
    show _ = (dstK L).view.emb ((Rect.whole S512).emb y)
    rw [Rect.emb_whole_apply]
  have hrow : (((dstK L).view.emb y) 0).val = rowOf L + (y 0).val := by
    show (k0_off1 L) 0 + 1 * (y 0).val = _
    rw [k0_off1_eq]; unfold rowOf; simp
  rw [Spec.over1_lt _ _ _ (by rw [hrow]; exact rowOf_lt L y)]
  conv_lhs => rw [e]
  rw [View.write_emb_of_mem _ _ (Finset.mem_univ _)]
  show m (a4Loc d) ((srcK L).view.emb y) = _
  congr 1
  funext a
  match a with
  | ⟨0, _⟩ =>
    apply Fin.ext
    show (k0_off2 L) 0 + 1 * (y 0).val = ((dstK L).view.emb y 0).val
    rw [hrow, k0_off2_eq]; unfold rowOf; simp

/-- On its 512 destination rows, what the copy landed is the append's function: row `r` of the batch at row `r`. -/
theorem landedW (f : Buf (Elt F) (rWLoc d)) :
    ∀ i ∈ (dstW L).view.set,
      (dstW L).view.writes (Elt F) f [⟨Rect.whole S512, ReadAs.same.apply ((srcW L).view.read (Elt F) (m (a6Loc d)))⟩] i
        = (Spec.over1 (m (a2Loc d)) (m (a6Loc d)) : Buf (Elt F) (rWLoc d)) i := by
  intro i hi
  obtain ⟨y, -, rfl⟩ := Finset.mem_map.mp hi
  rw [View.writes_singleton]
  have e : (dstW L).view.emb y = ((dstW L).view.slice (Rect.whole S512)).emb y := by
    show _ = (dstW L).view.emb ((Rect.whole S512).emb y)
    rw [Rect.emb_whole_apply]
  have hrow : (((dstW L).view.emb y) 0).val = rowOf L + (y 0).val := by
    show (k0_off1 L) 0 + 1 * (y 0).val = _
    rw [k0_off1_eq]; unfold rowOf; simp
  rw [Spec.over1_lt _ _ _ (by rw [hrow]; exact rowOf_lt L y)]
  conv_lhs => rw [e]
  rw [View.write_emb_of_mem _ _ (Finset.mem_univ _)]
  show m (a6Loc d) ((srcW L).view.emb y) = _
  congr 1
  funext a
  match a with
  | ⟨0, _⟩ =>
    apply Fin.ext
    show (k0_off2 L) 0 + 1 * (y 0).val = ((dstW L).view.emb y 0).val
    rw [hrow, k0_off2_eq]; unfold rowOf; simp

/-! ## The task -/

/-- What the launch hands the subcore that starts at row `r`: those rows of the batch's keys and rewards, and of the
    two result buffers, the latter still at the old memory's contents. -/
def goRes (r : ℕ) : sProp 𝕄 :=
  iprop((a4Loc d ↦[rows512 16384 r]{fullShare} m (a4Loc d))
    ∗ (rKLoc d ↦[rows512 1000000 r]{fullShare} (m (a0Loc d) : Buf (Elt F) (rKLoc d)))
    ∗ (a6Loc d ↦[rows512 16384 r]{fullShare} m (a6Loc d))
    ∗ (rWLoc d ↦[rows512 1000000 r]{fullShare} (m (a2Loc d) : Buf (Elt F) (rWLoc d))))

/-- What it hands back: the same rows, the result buffers' at the append's function. -/
def tdRes (r : ℕ) : sProp 𝕄 :=
  iprop((a4Loc d ↦[rows512 16384 r]{fullShare} m (a4Loc d))
    ∗ (rKLoc d ↦[rows512 1000000 r]{fullShare} (Spec.over1 (m (a0Loc d)) (m (a4Loc d)) : Buf (Elt F) (rKLoc d)))
    ∗ (a6Loc d ↦[rows512 16384 r]{fullShare} m (a6Loc d))
    ∗ (rWLoc d ↦[rows512 1000000 r]{fullShare} (Spec.over1 (m (a2Loc d)) (m (a6Loc d)) : Buf (Elt F) (rWLoc d))))

instance goRes_storable (r : ℕ) : BI.Storable (upEmb : UEmb _ 𝕄) (goRes m d r) := by unfold goRes; infer_instance
instance tdRes_storable (r : ℕ) : BI.Storable (upEmb : UEmb _ 𝕄) (tdRes m d r) := by unfold tdRes; infer_instance

/-- The task on the vector subcore at grid position `L`: the keys' copy and its wait, the rewards' copy and its wait. -/
theorem tile_body [FloatOps F] (O : CellTallies nD τ sig (HIx 1)) (W : Waits sig (HIx 1)) (hO : ∀ g, O g none = 0) :
    (iprop(levAts (K (F := F)).L (K (F := F)).lev ∗ emp ∗ goRes m d (rowOf L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__scatter_small L a4W (Memref.isWhole_whole _) a6W (Memref.isWhole_whole _) rKW (Memref.isWhole_whole _) rWW (Memref.isWhole_whole _)
            rKW (Memref.isWhole_whole _) rWW (Memref.isWhole_whole _) cc0_scoped0 cc0_scoped1)
          fun _ => iprop(tdRes m d (rowOf L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__scatter_small_eq_skeleton]; unfold cc0__scatter_small_skel
  rw [SparseCore.Cfg.scopedSems0_V (Val := Elt F) d (cV L) (jV L), ownSems0_V]
  unfold goRes tdRes
  iintro ⟨#Hlv, -, ⟨HsK, HdK, HsW, HdW⟩, Hsb, ⟨Hsem0, Hsem1, Hsems⟩, HO⟩
  ihave Hmw := ((K (F := F)).mayWaits_none (thr := V d (cV L) (jV L)) hO) $$ Hlv
  ihave HsK' := (Entails.of_eq (pts_srcK (F := F) d L _).symm) $$ HsK
  ihave HdK' := (Entails.of_eq (pts_dstK (F := F) d L _).symm) $$ HdK
  ihave HsW' := (Entails.of_eq (pts_srcW (F := F) d L _).symm) $$ HsW
  ihave HdW' := (Entails.of_eq (pts_dstW (F := F) d L _).symm) $$ HdW
  sl_exec
  sl_unfold_run_names
  sl_step
  isplitl [HsK' HdK' HsW' HdW']
  · isplitl [HsK']
    · iapply (Entails.of_eq (pts_srcK (F := F) d L _)); iexact HsK'
    isplitl [HdK']
    · iapply (Entails.of_eq (pts_dstK (F := F) d L _))
      iapply (Entails.of_eq (pointsTo_congr (landedK m d L _))); iexact HdK'
    isplitl [HsW']
    · iapply (Entails.of_eq (pts_srcW (F := F) d L _)); iexact HsW'
    · iapply (Entails.of_eq (pts_dstW (F := F) d L _))
      iapply (Entails.of_eq (pointsTo_congr (landedW m d L _))); iexact HdW'
  isplitl [Hsb]; · iexact Hsb
  isplitl [Hsem0 Hsem1 Hsems]
  · isplitl [Hsem0]; · iexact Hsem0
    isplitl [Hsem1]; · iexact Hsem1
    iexact Hsems
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Cert.Kernel.Hand

end
-- ==== Proof.K.Split.lean ====
/-
  What the one SparseCore call carries, and each subcore's obligation.

  The call hands SparseCore c, for each of its sixteen subcores s, the 512 rows starting at row 1024·s + 512·c of the
  batch's keys and rewards and of the two result buffers, and takes the same rows back with the result buffers' rows at
  the append's function. A SparseCore's share is, by definition, the sixteen subcores' shares side by side, so dealing
  it to the tasks and collecting it again moves nothing.
-/
import proofs.«210822_g55980603736083_cont_9to1_m_1082_22_alg».proof.Proof.K.Tile

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

/-- The first row of subcore `i` of SparseCore `c`. -/
def rowCI (c i : ℕ) : ℕ := 1024 * i + 512 * c

/-- The one call: per SparseCore the sixteen tasks' rows, per task its rows. -/
def P : (K (F := F)).Pay (nD := nD) (Val := Elt F) (Name := ℕ) (U := UU) where
  st := fun _ d c => bigSep Finset.univ fun i : Fin 16 => goRes m d (rowCI c.val i.val)
  dn := fun _ d c => bigSep Finset.univ fun i : Fin 16 => tdRes m d (rowCI c.val i.val)
  go := fun _ d c i => goRes m d (rowCI c.val i.val)
  td := fun _ d c i => tdRes m d (rowCI c.val i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- A SparseCore's share is its tasks' shares: dealt and collected as it stands. -/
theorem vecSplit : (K (F := F)).VecSplit' (P m) 0 := by
  intro d c
  show (bigSep Finset.univ fun i : Fin 16 => goRes m d (rowCI c.val i.val)) ⊢ |={Set.univ}=> iprop(
      (bigSep Finset.univ fun i : Fin 16 => goRes m d (rowCI c.val i.val))
      ∗ ((bigSep Finset.univ fun i : Fin 16 => tdRes m d (rowCI c.val i.val))
          -∗ (bigSep Finset.univ fun i : Fin 16 => tdRes m d (rowCI c.val i.val))))
  iintro H; imodintro
  isplitl [H]; · iexact H
  iintro H; iexact H

/-! ## The launch theorem's obligation for a task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__scatter_small (coordsV c s)
          a4W (Memref.isWhole_whole _) a6W (Memref.isWhole_whole _) rKW (Memref.isWhole_whole _) rWW (Memref.isWhole_whole _)
          rKW (Memref.isWhole_whole _) rWW (Memref.isWhole_whole _) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

end Cert.Kernel.Hand

end
-- ==== Proof.K.Rows.lean ====
/-
  The thirty-two row ranges.

  Subcore i of SparseCore c owns rows [512·(2i + c), 512·(2i + c) + 512): thirty-two consecutive ranges of 512 rows,
  pairwise disjoint, that together are rows 0 … 16383 — all of a batch array, and the low part of a memory array. A
  whole array held is therefore the ranges held one by one (and, for a memory array, the rows from 16384 on beside them).
-/
import proofs.«210822_g55980603736083_cont_9to1_m_1082_22_alg».proof.Proof.K.Split

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (d : Dev nD)

theorem rows_disjoint (N : ℕ) : ∀ t ∈ (Finset.univ : Finset (Fin 2 × Fin 16)), ∀ t' ∈ (Finset.univ : Finset (Fin 2 × Fin 16)), t ≠ t' →
    Disjoint (rows512 N (rowCI t.1.val t.2.val)) (rows512 N (rowCI t'.1.val t'.2.val)) := by
  intro t _ t' _ h
  rw [Finset.disjoint_left]
  intro j hj hj'
  rw [mem_rows512] at hj hj'
  have hne : t.1.val ≠ t'.1.val ∨ t.2.val ≠ t'.2.val := by
    by_contra hh; rw [not_or, not_not, not_not] at hh; exact h (Prod.ext (Fin.ext hh.1) (Fin.ext hh.2))
  have h1 := t.1.isLt; have h2 := t.2.isLt; have h3 := t'.1.isLt; have h4 := t'.2.isLt
  unfold rowCI at hj hj'
  omega

/-- The ranges are all the rows of a batch array. -/
theorem rows_cover : (Finset.univ : Finset (Fin 2 × Fin 16)).biUnion (fun t => rows512 16384 (rowCI t.1.val t.2.val)) = Finset.univ := by
  ext j
  simp only [Finset.mem_biUnion, Finset.mem_univ, true_and, iff_true]
  have hr : (j 0).val < 16384 := (j 0).isLt
  refine ⟨(⟨(j 0).val / 512 % 2, by omega⟩, ⟨(j 0).val / 1024, by omega⟩), ?_⟩
  rw [mem_rows512]; unfold rowCI; dsimp only; omega

/-- Rows 0 … 16383 of a memory array. -/
def lowRows : Finset (⟨1, ![1000000]⟩ : Shape).Idx := Finset.univ.filter fun j => (j 0).val < 16384

theorem mem_lowRows (j : (⟨1, ![1000000]⟩ : Shape).Idx) : j ∈ lowRows ↔ (j 0).val < 16384 := by
  unfold lowRows; rw [Finset.mem_filter]; exact ⟨fun h => h.2, fun h => ⟨Finset.mem_univ _, h⟩⟩

/-- The ranges are the low rows of a memory array. -/
theorem rows_cover_low : (Finset.univ : Finset (Fin 2 × Fin 16)).biUnion (fun t => rows512 1000000 (rowCI t.1.val t.2.val)) = lowRows := by
  ext j
  simp only [Finset.mem_biUnion, Finset.mem_univ, true_and]
  rw [mem_lowRows]
  constructor
  · rintro ⟨t, h⟩
    rw [mem_rows512] at h; unfold rowCI at h
    have h1 := t.1.isLt; have h2 := t.2.isLt
    omega
  · intro hr
    refine ⟨(⟨(j 0).val / 512 % 2, by omega⟩, ⟨(j 0).val / 1024, by omega⟩), ?_⟩
    rw [mem_rows512]; unfold rowCI; dsimp only; omega

theorem split_a4 (f : Buf (Elt F) (a4Loc d)) :
    (bigSep Finset.univ fun c : Fin 2 => bigSep Finset.univ fun i : Fin 16 => (a4Loc d ↦[rows512 16384 (rowCI c.val i.val)]{fullShare} f : sProp 𝕄))
      = a4Loc d ↦[Finset.univ]{fullShare} f := by
  rw [← SparseCore.bigSep_product Finset.univ Finset.univ (fun t : Fin 2 × Fin 16 => (a4Loc d ↦[rows512 16384 (rowCI t.1.val t.2.val)]{fullShare} f : sProp 𝕄)),
    Finset.univ_product_univ,
    ← pointsTo_biUnion Finset.univ (ℓ := a4Loc d) (fun t : Fin 2 × Fin 16 => rows512 16384 (rowCI t.1.val t.2.val)) (rows_disjoint 16384)]
  exact congrArg (fun I => (a4Loc d ↦[I]{fullShare} f : sProp 𝕄)) rows_cover

theorem split_a6 (f : Buf (Elt F) (a6Loc d)) :
    (bigSep Finset.univ fun c : Fin 2 => bigSep Finset.univ fun i : Fin 16 => (a6Loc d ↦[rows512 16384 (rowCI c.val i.val)]{fullShare} f : sProp 𝕄))
      = a6Loc d ↦[Finset.univ]{fullShare} f := by
  rw [← SparseCore.bigSep_product Finset.univ Finset.univ (fun t : Fin 2 × Fin 16 => (a6Loc d ↦[rows512 16384 (rowCI t.1.val t.2.val)]{fullShare} f : sProp 𝕄)),
    Finset.univ_product_univ,
    ← pointsTo_biUnion Finset.univ (ℓ := a6Loc d) (fun t : Fin 2 × Fin 16 => rows512 16384 (rowCI t.1.val t.2.val)) (rows_disjoint 16384)]
  exact congrArg (fun I => (a6Loc d ↦[I]{fullShare} f : sProp 𝕄)) rows_cover

theorem split_rK (f : Buf (Elt F) (rKLoc d)) :
    (bigSep Finset.univ fun c : Fin 2 => bigSep Finset.univ fun i : Fin 16 => (rKLoc d ↦[rows512 1000000 (rowCI c.val i.val)]{fullShare} f : sProp 𝕄))
      = rKLoc d ↦[lowRows]{fullShare} f := by
  rw [← SparseCore.bigSep_product Finset.univ Finset.univ (fun t : Fin 2 × Fin 16 => (rKLoc d ↦[rows512 1000000 (rowCI t.1.val t.2.val)]{fullShare} f : sProp 𝕄)),
    Finset.univ_product_univ,
    ← pointsTo_biUnion Finset.univ (ℓ := rKLoc d) (fun t : Fin 2 × Fin 16 => rows512 1000000 (rowCI t.1.val t.2.val)) (rows_disjoint 1000000)]
  exact congrArg (fun I => (rKLoc d ↦[I]{fullShare} f : sProp 𝕄)) rows_cover_low

theorem split_rW (f : Buf (Elt F) (rWLoc d)) :
    (bigSep Finset.univ fun c : Fin 2 => bigSep Finset.univ fun i : Fin 16 => (rWLoc d ↦[rows512 1000000 (rowCI c.val i.val)]{fullShare} f : sProp 𝕄))
      = rWLoc d ↦[lowRows]{fullShare} f := by
  rw [← SparseCore.bigSep_product Finset.univ Finset.univ (fun t : Fin 2 × Fin 16 => (rWLoc d ↦[rows512 1000000 (rowCI t.1.val t.2.val)]{fullShare} f : sProp 𝕄)),
    Finset.univ_product_univ,
    ← pointsTo_biUnion Finset.univ (ℓ := rWLoc d) (fun t : Fin 2 × Fin 16 => rows512 1000000 (rowCI t.1.val t.2.val)) (rows_disjoint 1000000)]
  exact congrArg (fun I => (rWLoc d ↦[I]{fullShare} f : sProp 𝕄)) rows_cover_low

/-- A memory array held whole is its low rows and the rest. -/
theorem low_high (ℓ : Loc nD τ sig) (I : Finset (Idx ℓ)) (f : Buf (Elt F) ℓ) :
    (ℓ ↦{fullShare} f : sProp 𝕄) = iprop((ℓ ↦[I]{fullShare} f) ∗ ℓ ↦[Finset.univ \ I]{fullShare} f) := by
  have h : (ℓ ↦[Finset.univ]{fullShare} f : sProp 𝕄) ⊣⊢ iprop((ℓ ↦[I]{fullShare} f) ∗ ℓ ↦[Finset.univ \ I]{fullShare} f) :=
    pointsTo_split_subset (Finset.subset_univ I)
  exact BI.equiv_iff.mp ⟨h.1, h.2⟩

/-- The low rows at one function and the rest at another that agrees with it there: the whole array at the first. -/
theorem low_high_join (ℓ : Loc nD τ sig) (I : Finset (Idx ℓ)) (g f : Buf (Elt F) ℓ) (h : ∀ i ∉ I, f i = g i) :
    iprop((ℓ ↦[I]{fullShare} g) ∗ ℓ ↦[Finset.univ \ I]{fullShare} f) ⊢ (ℓ ↦{fullShare} g : sProp 𝕄) := by
  rw [pointsTo_congr (I := Finset.univ \ I) (f := f) (g := g) fun i hi => h i (Finset.mem_sdiff.mp hi).2, ← low_high]

end Cert.Kernel.Hand

end
-- ==== Proof.K.Host.lean ====
/-
  Host operations over explicitly held arrays.

  A host operation reads its operand arrays whole and overwrites its result array whole. Stated here for the three
  arities the program uses, over the arrays held one by one at named contents: after the operation the operands hold
  what they held and the result holds the operation's function of them.
-/
import proofs.«210822_g55980603736083_cont_9to1_m_1082_22_alg».proof.Proof.K.Base

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.StableHlo (held wp_hlo_within)

/-- An array of device `d` held whole at `f`. -/
abbrev pl (d : Dev nD) (b : Ref sig .tc) (f : b.ty.Contents (Elt F)) : sProp 𝕄 := ((SparseCore.T d).loc b) ↦{fullShare} f

variable [FloatOps F] {Λ : Labels} (defs : Defs nD τ sig (Elt F) Λ) (d : Dev nD)

theorem held_pair (x y : Ref sig .tc) (hne : (Proc.devRef .tc x : DevRef τ sig) ≠ Proc.devRef .tc y) (W : Valuation τ sig (Elt F)) :
    (held (SparseCore.T d) ({Proc.devRef .tc x, Proc.devRef .tc y} : Finset (DevRef τ sig)) W : sProp 𝕄)
      = iprop(pl d x (W (Proc.devRef .tc x)) ∗ pl d y (W (Proc.devRef .tc y))) := by
  unfold held
  rw [SparseCore.bigSep_insert' (by rw [Finset.mem_singleton]; exact hne), bigSep_singleton]

theorem wp_unary_pl (Vb : Valuation τ sig (Elt F)) (x y : Ref sig .tc) (f : x.ty.Contents (Elt F) → y.ty.Contents (Elt F)) (hx) (hy)
    (hne : (Proc.devRef .tc x : DevRef τ sig) ≠ Proc.devRef .tc y)
    (fx : x.ty.Contents (Elt F)) (fy : y.ty.Contents (Elt F)) {α : Type} (k' : Prog (TpuEff nD τ sig (Elt F) Λ .tc) α) (Q : α → sProp 𝕄) :
    (iprop(boundary (SparseCore.T d) ∗ pl d x fx ∗ pl d y fy
        ∗ (iprop(boundary (SparseCore.T d) ∗ pl d x fx ∗ pl d y (f fx)) -∗ wp frame (wpE defs 𝒱 (SparseCore.T d) none) Set.univ k' Q)) : sProp 𝕄)
      ⊢ wp frame (wpE defs 𝒱 (SparseCore.T d) none) Set.univ (hlo rfl (StableHlo.unary x y f hx hy) (fun _ => k')) Q := by
  let V : Valuation τ sig (Elt F) := Function.update (Function.update Vb (Proc.devRef .tc x) fx) (Proc.devRef .tc y) fy
  have hVy : V (Proc.devRef .tc y) = fy := Function.update_self ..
  have hVx : V (Proc.devRef .tc x) = fx := (Function.update_of_ne hne ..).trans (Function.update_self ..)
  have hS : (StableHlo.unary (τ := τ) (Val := Elt F) x y f hx hy).bufs ⊆ ({Proc.devRef .tc x, Proc.devRef .tc y} : Finset (DevRef τ sig)) := fun _ h => h
  have hpre : (held (SparseCore.T d) ({Proc.devRef .tc x, Proc.devRef .tc y} : Finset (DevRef τ sig)) V : sProp 𝕄) = iprop(pl d x fx ∗ pl d y fy) := by
    rw [held_pair d x y hne, hVx, hVy]
  have hpost : (held (SparseCore.T d) ({Proc.devRef .tc x, Proc.devRef .tc y} : Finset (DevRef τ sig))
      ((StableHlo.unary (τ := τ) (Val := Elt F) x y f hx hy).result V) : sProp 𝕄) = iprop(pl d x fx ∗ pl d y (f fx)) := by
    rw [held_pair d x y hne, StableHlo.unary_result, hVx,
      (StableHlo.unary (τ := τ) (Val := Elt F) x y f hx hy).result_of_not_mem V (b := Proc.devRef .tc x)
        (show (Proc.devRef .tc x : DevRef τ sig) ∉ ({Proc.devRef .tc y} : Finset (DevRef τ sig)) by rw [Finset.mem_singleton]; exact hne), hVx]
  iintro ⟨Hb, Hx, Hy, Hk⟩
  iapply (wp_hlo_within 𝒱 (SparseCore.T d) none Set.univ (op := StableHlo.unary x y f hx hy) hS (V := V)) $$ [Hb Hx Hy]
  · isplitl [Hb]; · iexact Hb
    iapply (Entails.of_eq hpre.symm)
    isplitl [Hx]; · iexact Hx
    iexact Hy
  iintro ⟨Hb, Hh⟩
  ihave Hh' := (Entails.of_eq hpost) $$ Hh
  icases Hh' with ⟨Hx, Hy⟩
  iapply Hk
  isplitl [Hb]; · iexact Hb
  isplitl [Hx]; · iexact Hx
  iexact Hy

theorem wp_nullary_pl (Vb : Valuation τ sig (Elt F)) (y : Ref sig .tc) (v : y.ty.Contents (Elt F)) (hy)
    (fy : y.ty.Contents (Elt F)) {α : Type} (k' : Prog (TpuEff nD τ sig (Elt F) Λ .tc) α) (Q : α → sProp 𝕄) :
    (iprop(boundary (SparseCore.T d) ∗ pl d y fy
        ∗ (iprop(boundary (SparseCore.T d) ∗ pl d y v) -∗ wp frame (wpE defs 𝒱 (SparseCore.T d) none) Set.univ k' Q)) : sProp 𝕄)
      ⊢ wp frame (wpE defs 𝒱 (SparseCore.T d) none) Set.univ (hlo rfl (StableHlo.nullary y v hy) (fun _ => k')) Q := by
  let V : Valuation τ sig (Elt F) := Function.update Vb (Proc.devRef .tc y) fy
  have hVy : V (Proc.devRef .tc y) = fy := Function.update_self ..
  have hS : (StableHlo.nullary (τ := τ) (Val := Elt F) y v hy).bufs ⊆ ({Proc.devRef .tc y} : Finset (DevRef τ sig)) := fun _ h => h
  have hpre : (held (SparseCore.T d) ({Proc.devRef .tc y} : Finset (DevRef τ sig)) V : sProp 𝕄) = pl d y fy := by
    unfold held; rw [bigSep_singleton, hVy]
  have hpost : (held (SparseCore.T d) ({Proc.devRef .tc y} : Finset (DevRef τ sig))
      ((StableHlo.nullary (τ := τ) (Val := Elt F) y v hy).result V) : sProp 𝕄) = pl d y v := by
    unfold held; rw [bigSep_singleton, StableHlo.nullary_result]
  iintro ⟨Hb, Hy, Hk⟩
  iapply (wp_hlo_within 𝒱 (SparseCore.T d) none Set.univ (op := StableHlo.nullary y v hy) hS (V := V)) $$ [Hb Hy]
  · isplitl [Hb]; · iexact Hb
    iapply (Entails.of_eq hpre.symm); iexact Hy
  iintro ⟨Hb, Hh⟩
  ihave Hy := (Entails.of_eq hpost) $$ Hh
  iapply Hk
  isplitl [Hb]; · iexact Hb
  iexact Hy

theorem held_triple (a b y : Ref sig .tc) (hab : (Proc.devRef .tc a : DevRef τ sig) ≠ Proc.devRef .tc b)
    (hay : (Proc.devRef .tc a : DevRef τ sig) ≠ Proc.devRef .tc y) (hby : (Proc.devRef .tc b : DevRef τ sig) ≠ Proc.devRef .tc y)
    (W : Valuation τ sig (Elt F)) :
    (held (SparseCore.T d) ({Proc.devRef .tc a, Proc.devRef .tc b, Proc.devRef .tc y} : Finset (DevRef τ sig)) W : sProp 𝕄)
      = iprop(pl d a (W (Proc.devRef .tc a)) ∗ pl d b (W (Proc.devRef .tc b)) ∗ pl d y (W (Proc.devRef .tc y))) := by
  unfold held
  rw [SparseCore.bigSep_insert' (by rw [Finset.mem_insert, Finset.mem_singleton]; exact fun h => h.elim hab hay),
    SparseCore.bigSep_insert' (by rw [Finset.mem_singleton]; exact hby), bigSep_singleton]

theorem wp_binary_pl (Vb : Valuation τ sig (Elt F)) (a b y : Ref sig .tc)
    (f : a.ty.Contents (Elt F) → b.ty.Contents (Elt F) → y.ty.Contents (Elt F)) (ha) (hb) (hy)
    (hab : (Proc.devRef .tc a : DevRef τ sig) ≠ Proc.devRef .tc b)
    (hay : (Proc.devRef .tc a : DevRef τ sig) ≠ Proc.devRef .tc y) (hby : (Proc.devRef .tc b : DevRef τ sig) ≠ Proc.devRef .tc y)
    (fa : a.ty.Contents (Elt F)) (fb : b.ty.Contents (Elt F)) (fy : y.ty.Contents (Elt F))
    {α : Type} (k' : Prog (TpuEff nD τ sig (Elt F) Λ .tc) α) (Q : α → sProp 𝕄) :
    (iprop(boundary (SparseCore.T d) ∗ pl d a fa ∗ pl d b fb ∗ pl d y fy
        ∗ (iprop(boundary (SparseCore.T d) ∗ pl d a fa ∗ pl d b fb ∗ pl d y (f fa fb)) -∗ wp frame (wpE defs 𝒱 (SparseCore.T d) none) Set.univ k' Q)) : sProp 𝕄)
      ⊢ wp frame (wpE defs 𝒱 (SparseCore.T d) none) Set.univ (hlo rfl (StableHlo.binary a b y f ha hb hy) (fun _ => k')) Q := by
  let V : Valuation τ sig (Elt F) :=
    Function.update (Function.update (Function.update Vb (Proc.devRef .tc a) fa) (Proc.devRef .tc b) fb) (Proc.devRef .tc y) fy
  have hVy : V (Proc.devRef .tc y) = fy := Function.update_self ..
  have hVb : V (Proc.devRef .tc b) = fb := (Function.update_of_ne hby ..).trans (Function.update_self ..)
  have hVa : V (Proc.devRef .tc a) = fa := (Function.update_of_ne hay ..).trans ((Function.update_of_ne hab ..).trans (Function.update_self ..))
  have hS : (StableHlo.binary (τ := τ) (Val := Elt F) a b y f ha hb hy).bufs
      ⊆ ({Proc.devRef .tc a, Proc.devRef .tc b, Proc.devRef .tc y} : Finset (DevRef τ sig)) := fun _ h => h
  have hpre : (held (SparseCore.T d) ({Proc.devRef .tc a, Proc.devRef .tc b, Proc.devRef .tc y} : Finset (DevRef τ sig)) V : sProp 𝕄)
      = iprop(pl d a fa ∗ pl d b fb ∗ pl d y fy) := by
    rw [held_triple d a b y hab hay hby, hVa, hVb, hVy]
  have hnw : ∀ z : DevRef τ sig, z ≠ Proc.devRef .tc y → z ∉ ({Proc.devRef .tc y} : Finset (DevRef τ sig)) := fun z hz => by
    rw [Finset.mem_singleton]; exact hz
  have hpost : (held (SparseCore.T d) ({Proc.devRef .tc a, Proc.devRef .tc b, Proc.devRef .tc y} : Finset (DevRef τ sig))
      ((StableHlo.binary (τ := τ) (Val := Elt F) a b y f ha hb hy).result V) : sProp 𝕄) = iprop(pl d a fa ∗ pl d b fb ∗ pl d y (f fa fb)) := by
    rw [held_triple d a b y hab hay hby, StableHlo.binary_result, hVa, hVb,
      (StableHlo.binary (τ := τ) (Val := Elt F) a b y f ha hb hy).result_of_not_mem V (b := Proc.devRef .tc a) (hnw _ hay), hVa,
      (StableHlo.binary (τ := τ) (Val := Elt F) a b y f ha hb hy).result_of_not_mem V (b := Proc.devRef .tc b) (hnw _ hby), hVb]
  iintro ⟨Hb, Ha, Hbb, Hy, Hk⟩
  iapply (wp_hlo_within 𝒱 (SparseCore.T d) none Set.univ (op := StableHlo.binary a b y f ha hb hy) hS (V := V)) $$ [Hb Ha Hbb Hy]
  · isplitl [Hb]; · iexact Hb
    iapply (Entails.of_eq hpre.symm)
    isplitl [Ha]; · iexact Ha
    isplitl [Hbb]; · iexact Hbb
    iexact Hy
  iintro ⟨Hb, Hh⟩
  ihave Hh' := (Entails.of_eq hpost) $$ Hh
  icases Hh' with ⟨Ha, Hbb, Hy⟩
  iapply Hk
  isplitl [Hb]; · iexact Hb
  isplitl [Ha]; · iexact Ha
  isplitl [Hbb]; · iexact Hbb
  iexact Hy

end Cert.Kernel.Hand

end
-- ==== Proof.K.RegionValue.lean ====
/-
  The table's sixteen-column overwrite, seen through the transposes around the kernel.

  The kernel works on the transposed table (16 rows of 1000000 words) and the transposed batch (16 rows of 16384 words):
  it replaces columns `0 … 16383` of the first by the second. Transposing back gives the table with rows `0 … 16383`
  replaced by the batch's rows, column by column: a transpose by `[1, 0]` reads its operand at the swapped coordinates,
  so element `(r, c)` of the result is element `(c, r)` of the kernel's output, which is the batch's `(r, c)` when
  `r < 16384` and the table's `(r, c)` otherwise.
-/
import proofs.«210822_g55980603736083_cont_9to1_m_1082_22_alg».proof.Proof.Gen.Kernel
import proofs.«210822_g55980603736083_cont_9to1_m_1082_22_alg».proof.Proof.Spec
import Idealize.ShloMosaic.Lib.Pipeline.Value
import Idealize.ShloMosaic.Lib.ValueIdx

noncomputable section

namespace Cert.Kernel.Hand

open Idealize.ShloMosaic Idealize.ShloMosaic.ValueIdx Cert.Kernel Cert.Kernel.Facts₀

/-- Columns 0 … 16383 of the transposed table replaced by the transposed batch, the rest kept. -/
def regOut (X1 : (⟨2, ![16, 16384]⟩ : Shape).Idx → BitVec 32) (X3 : (⟨2, ![16, 1000000]⟩ : Shape).Idx → BitVec 32) :
    (⟨2, ![16, 1000000]⟩ : Shape).Idx → BitVec 32 :=
  fun i => if h : (i 1).val < 16384 then X1 (ValueIdx.ix2 (⟨(i 0).val, (i 0).isLt⟩ : Fin 16) (⟨(i 1).val, h⟩ : Fin 16384)) else X3 i

theorem regOut_lt (X1 : (⟨2, ![16, 16384]⟩ : Shape).Idx → BitVec 32) (X3 : (⟨2, ![16, 1000000]⟩ : Shape).Idx → BitVec 32)
    (i : (⟨2, ![16, 1000000]⟩ : Shape).Idx) (h : (i 1).val < 16384) :
    regOut X1 X3 i = X1 (ValueIdx.ix2 (⟨(i 0).val, (i 0).isLt⟩ : Fin 16) (⟨(i 1).val, h⟩ : Fin 16384)) := by
  unfold regOut; rw [dif_pos h]

theorem regOut_ge (X1 : (⟨2, ![16, 16384]⟩ : Shape).Idx → BitVec 32) (X3 : (⟨2, ![16, 1000000]⟩ : Shape).Idx → BitVec 32)
    (i : (⟨2, ![16, 1000000]⟩ : Shape).Idx) (h : ¬ (i 1).val < 16384) : regOut X1 X3 i = X3 i := by
  unfold regOut; rw [dif_neg h]

/-- The kernel's output transposed back is the specification's sixteen-column append. -/
theorem regOut_transposes (a1 : S1000000x16.Idx → BitVec 32) (a5 : S16384x16.Idx → BitVec 32) :
    transpose S1000000x16 [1, 0] (regOut (transpose S16x16384 [1, 0] a5 transposes_S16384x16_S16x16384_1_0) (transpose S16x1000000 [1, 0] a1 transposes_S1000000x16_S16x1000000_1_0)) transposes_S16x1000000_S1000000x16_1_0
      = Cert.Spec.over2 a1 a5 := by
  funext i
  rw [transpose_apply [1, 0] _ transposes_S16x1000000_S1000000x16_1_0 i
    (ix2 (⟨(i 1).val, (i 1).isLt⟩ : Fin 16) (⟨(i 0).val, (i 0).isLt⟩ : Fin 1000000))
    (by intro b; match b with | ⟨0, _⟩ => rfl | ⟨1, _⟩ => rfl)]
  by_cases h : (i 0).val < 16384
  · rw [Cert.Spec.over2_lt _ _ _ h, regOut_lt _ _ _ h]
    exact transpose_apply [1, 0] a5 transposes_S16384x16_S16x16384_1_0 _ _
      (by intro b; match b with | ⟨0, _⟩ => rfl | ⟨1, _⟩ => rfl)
  · rw [Cert.Spec.over2_ge _ _ _ h, regOut_ge _ _ _ h]
    exact transpose_apply [1, 0] a1 transposes_S1000000x16_S16x1000000_1_0 _ i
      (by intro b; match b with | ⟨0, _⟩ => rfl | ⟨1, _⟩ => rfl)

end Cert.Kernel.Hand

end
-- ==== Proof.K.RegionBody.lean ====
/-
  The pipelined TensorCore kernel of one grid point: its proof data and its body's obligation.

  The kernel has two windows. Window 0 reads the whole transposed batch (16 rows of 16384 words) as one block; window 1
  writes one block of the same shape back at block index (0, 0) of the transposed table (16 rows of 1000000 words). The
  table's width is not a multiple of the block's, so the window is of the kind whose edge blocks are cut, but at this
  block index the block lies inside the table and nothing is cut. The body loads the first staging buffer whole, loads the
  second (a value nothing uses), and stores what it loaded from the first, re-cast to its own shape — the same
  contents —, whole into the second. So after the body both staging buffers hold the batch block.
-/
import proofs.«210822_g55980603736083_cont_9to1_m_1082_22_alg».proof.Proof.K.Base
import proofs.«210822_g55980603736083_cont_9to1_m_1082_22_alg».proof.Proof.K.RegionValue
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type}
local notation "𝕄" => MT nD τ sig (HIx 1) (Elt F) ℕ UU ℕ

variable [FloatOps F]

abbrev adm : (p : Fin 1) → (pcfgs (F := F) p).Adm := fun p => (cfgs p).toPCfg_adm

/-- The batch block as window 0's one fetch reads it. -/
def xstg (X1 : IVec S16x16384 32) (t : Fin cfg1.N) : (cfg1.win 0).block.Idx → Elt F (cfg1.win 0).elt :=
  ((cfg1.win 0).blk t).view.read (Elt F) (X1 : Buf (Elt F) ((cfg1.win 0).arr.view.loc ((0 : Dev nD).tc : Thread nD τ)))

/-- The region's proof data: the two arrays at the contents handed in; after the body both staging buffers hold the
    batch block; no invariant; nothing owed; the recorded waits kept at or below level 8. -/
def dat1 (d : Dev nD) (X1 : IVec S16x16384 32) (X3 : IVec S16x1000000 32) : Pipeline.Dat τ (Elt F) (HIx 1) ℕ UU ℕ cfg1 d where
  A w := match w with
    | ⟨0, _⟩ => X1
    | ⟨1, _⟩ => X3
  after w t := match w with
    | ⟨0, _⟩ => xstg X1 t
    | ⟨1, _⟩ => xstg X1 t
  Φ _ := iprop(emp)
  q _ := fullShare
  owed _ := 0
  recorded _ := {p | (K (F := F)).lev (SparseCore.T d, p.1) p.2 ≤ 8}

theorem tr2 (i : grid1.Coords) (a : Fin 2) : cc1_transform_2 i a = 0 := by
  match a with
  | ⟨0, _⟩ => rfl
  | ⟨1, _⟩ => rfl

theorem clip1_1 (i : grid1.Coords) (a : Fin 2) : win1_1.clip i a = none := by
  show Pipeline.Clip.of (cc1_transform_2 i a) (S16x16384.size a) (S16x1000000.size a) = none
  rw [tr2]; unfold Pipeline.Clip.of
  match a with
  | ⟨0, _⟩ => exact if_pos (show (0 + 1) * 16 ≤ 16 by decide)
  | ⟨1, _⟩ => exact if_pos (show (0 + 1) * 16384 ≤ 1000000 by decide)

theorem before_0 (d : Dev nD) (X1 : IVec S16x16384 32) (X3 : IVec S16x1000000 32) (t : Fin cfg1.N) (dd) :
    (dat1 (F := F) d X1 X3).before (0 : Fin 2) t dd = xstg X1 t := by
  unfold Dat.before; rw [if_pos (fetch1_0 t)]; rfl

theorem before_1 (d : Dev nD) (X1 : IVec S16x16384 32) (X3 : IVec S16x1000000 32) (t : Fin cfg1.N) (dd) :
    (dat1 (F := F) d X1 X3).before (1 : Fin 2) t dd = dd :=
  Dat.before_out_reset _ (1 : Fin 2) rfl t (Or.inl (by rw [fin_N1 t]; rfl)) dd

/-- The kernel body on the two staging buffers: a whole load of the first, a dead whole load of the second, a whole
    store of the loaded block into the second. -/
theorem sound_body (d : Dev nD) (E : Set ℕ) (i : grid1.Coords) (s0 : Fin 1) (s1 : Fin 1)
    (Y0 Y1 : S16x16384.Idx → Elt F .i32) (Kk : PUnit → sProp 𝕄) :
    iprop((owns (T d : Thread nD τ) (stage1_0 s0) fullShare Y0 ∗ owns (T d : Thread nD τ) (stage1_1 s1) fullShare Y1)
          ∗ (iprop(owns (T d : Thread nD τ) (stage1_0 s0) fullShare Y0 ∗ owns (T d : Thread nD τ) (stage1_1 s1) fullShare Y0) -∗ Kk ⟨⟩))
      ⊢ wp frame (wpE (defs₀ (F := F)) 𝒱₀ (T d) none) E
          (cc1__pc_window_body i (stage1_0 s0) (hstage1_0 s0) (Memref.whole main_v2) (Memref.isWhole_whole _) (stage1_1 s1) (hstage1_1 s1)) Kk := by
  have hz : (![0, 0] : Fin 2 → Nat) = fun _ => 0 := funext fun a => by fin_cases a <;> rfl
  fin_cases s0 <;> fin_cases s1
  have hr0 : (Memref.whole cc1_stg0_0 : Memref sig .tc _ _ _).view.readAt (Elt F) (Rect.unit (s := S16x16384) ![0, 0] S16x16384.size
      inb_S16x16384_S16x16384_0_0).toLoadRect = id := funext (Memref.readAt_unit_zero (Elt F) cc1_stg0_0 hz _)
  have hw1 : ∀ f w, (((Memref.whole cc1_stg1_0).access (Rect.unit (s := S16x16384) ![0, 0] S16x16384.size inb_S16x16384_S16x16384_0_0)) :
      View sig .tc _ _ _).write (Elt F) f w Finset.univ = w := Memref.write_access_unit_zero_univ (Elt F) cc1_stg1_0 hz _
  simp only [owns_whole_eq, cc1__pc_window_body_eq_skeleton]; unfold cc1__pc_window_body_skel
  simp only [Prog.lift, Prog.bind_op, Prog.bind_ret]
  iintro ⟨⟨⟨%f0, %hf0, H0⟩, ⟨%f1, %hf1, H1⟩⟩, Hk⟩
  sl_steps
  iapply Hk
  rw [hr0, hw1]
  isplitl [H0]
  · iexists f0; isplitr; · ipureintro; exact hf0
    iexact H0
  · iexists k1_pay1 (id f0); isplitr
    · ipureintro; rw [← hf0]; exact shapeCast_self _ _
    iexact H1

/-- The library's body obligation from `sound_body` at the point's staging buffers: the first arrives holding the
    batch block just fetched, the second holding anything; the first leaves as it came and the second holding the same
    block, which is all the loose window's obligation asks of its moved part. -/
theorem body_obligation (d : Dev nD) (X1 : IVec S16x16384 32) (X3 : IVec S16x1000000 32) :
    BodyObligationLoose (dat1 (F := F) d X1 X3) (defs₀ (F := F)) 𝒱₀ (none : HIx 1) Set.univ := fun t => by
  rw [bigSep_W1, bigSep_W1]
  simp only
  rw [show (dat1 (F := F) d X1 X3).Φ t.succ = (dat1 (F := F) d X1 X3).Φ t.castSucc from rfl,
    show (dat1 (F := F) d X1 X3).owesAt none t.succ = (dat1 (F := F) d X1 X3).owesAt none t.castSucc from rfl]
  iintro ⟨HΦ, Ho, ⟨%d0, H0⟩, ⟨%d1, H1⟩⟩
  rw [before_0 d X1 X3 t d0, before_1 d X1 X3 t d1]
  iapply (sound_body (F := F) d Set.univ (grid1.coords t) (cfg1.slots t 0) (cfg1.slots t 1) (xstg X1 t) d1 _)
  isplitl [H0 H1]
  · isplitl [H0]
    · iexact H0
    · iexact H1
  iintro ⟨H0, H1⟩
  isplitl [HΦ]; · iexact HΦ
  isplitl [Ho]; · iexact Ho
  isplitl [H0]
  · iexact H0
  · iexists xstg X1 t
    change _ ⊢ owns (T d : Thread nD τ) (stage1_1 (cfg1.slots t 1)) fullShare (win1_1.fill (grid1.coords t) (xstg X1 t) (win1_1.cut (grid1.coords t) (xstg X1 t)))
    rw [win1_1.fill_cut]

end Cert.Kernel.Hand

end
-- ==== Proof.K.RegionSeg.lean ====
/-
  The pipelined kernel's region: what its arrays hold afterwards, and the region's step inside the SparseCore program.

  The pipeline has one grid point. It fetches the batch block, runs the body, and writes the second staging buffer's
  block back over block (0, 0) of the table. An element of either block sits in its array at its own coordinates (both
  block indices are zero), and the table's elements under the block are those of columns below 16384; so the table after
  the write-back holds the batch on those columns and its old contents elsewhere, and the batch array is untouched.
  The core owes nothing before, during and after the region; the only waits the pipeline records are on its own two
  staging semaphores at the index whose level is zero, so a bound of 8 on the levels of the recorded waits is kept.
  The region is entered from inside the larger program by running the inner call as a program of the smaller body table
  and lifting that proof.
-/
import proofs.«210822_g55980603736083_cont_9to1_m_1082_22_alg».proof.Proof.K.Base
import proofs.«210822_g55980603736083_cont_9to1_m_1082_22_alg».proof.Proof.K.RegionBody

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type}
local notation "𝕄" => MT nD τ sig (HIx 1) (Elt F) ℕ UU ℕ

variable [FloatOps F]

/-- The batch array is an input: after the region it holds what it held. -/
theorem arrAt_in0 (d : Dev nD) (X1 : IVec S16x16384 32) (X3 : IVec S16x1000000 32) :
    (dat1 (F := F) d X1 X3).arrAt (0 : Fin 2) cfg1.N = X1 :=
  (dat1 (F := F) d X1 X3).arrAt_in (0 : Fin 2) rfl _

theorem xsize1_1 (i : grid1.Coords) (a : Fin 2) : win1_1.xsize i a = S16x16384.size a := by
  unfold Window.xsize; rw [clip1_1]

theorem tr0 (i : grid1.Coords) (a : Fin 2) : cc1_transform_0 i a = 0 := by
  match a with
  | ⟨0, _⟩ => rfl
  | ⟨1, _⟩ => rfl

/-- An element of window 0's one block sits in the batch array at its own coordinates. -/
theorem emb0 (t : Fin cfg1.N) (z : (win1_0.xblock (grid1.coords t)).Idx) (a : Fin 2) :
    (((win1_0.blk t).view.emb z) a : ℕ) = (z a : ℕ) :=
  win1_0.rect_emb_val_of_index_zero t a (tr0 (grid1.coords t) a) z

/-- An element of window 1's one block sits in the table at its own coordinates. -/
theorem emb1 (t : Fin cfg1.N) (y : (win1_1.xblock (grid1.coords t)).Idx) (a : Fin 2) :
    (((win1_1.blk t).view.emb y) a : ℕ) = (y a : ℕ) :=
  win1_1.rect_emb_val_of_index_zero t a (tr2 (grid1.coords t) a) y

/-- The table's elements under window 1's one block are those of columns below 16384. -/
theorem mem_blk1 (t : Fin cfg1.N) (i : S16x1000000.Idx) : i ∈ (win1_1.blk t).view.set ↔ (i 1 : ℕ) < 16384 := by
  show i ∈ ((View.whole main_v3).slice (win1_1.rect t)).set ↔ _
  rw [View.set_slice_whole, Rect.mem_set_unit]
  have h0 : (i 0 : ℕ) < 16 := (i 0).isLt
  constructor
  · intro h
    have := (h 1).2
    rw [show win1_1.index t 1 = 0 from tr2 (grid1.coords t) 1, xsize1_1] at this
    have e : S16x16384.size 1 = 16384 := rfl
    rw [e] at this; omega
  · intro h a
    rw [show win1_1.index t a = 0 from tr2 (grid1.coords t) a, xsize1_1]
    match a with
    | ⟨0, _⟩ =>
      have e : S16x16384.size 0 = 16 := rfl
      show 0 * win1_1.size 0 ≤ (i 0 : ℕ) ∧ (i 0 : ℕ) < 0 * win1_1.size 0 + S16x16384.size 0
      rw [e]; omega
    | ⟨1, _⟩ =>
      have e : S16x16384.size 1 = 16384 := rfl
      show 0 * win1_1.size 1 ≤ (i 1 : ℕ) ∧ (i 1 : ℕ) < 0 * win1_1.size 1 + S16x16384.size 1
      rw [e]; omega

/-- The table after the one write-back: the block's columns hold the batch, the rest is unchanged. -/
theorem arrAt_out (d : Dev nD) (X1 : IVec S16x16384 32) (X3 : IVec S16x1000000 32) :
    (dat1 (F := F) d X1 X3).arrAt (1 : Fin 2) cfg1.N = regOut X1 X3 := by
  rw [show cfg1.N = t1_0.val + 1 from rfl, (dat1 (F := F) d X1 X3).arrAt_succ (1 : Fin 2) t1_0, if_pos (flush1_1 _)]
  funext i
  by_cases hi : i ∈ (win1_1.blk t1_0).view.set
  · have hcol : (i 1 : ℕ) < 16384 := (mem_blk1 t1_0 i).mp hi
    obtain ⟨y, rfl⟩ := View.exists_emb_of_mem_set _ hi
    rw [View.write_emb_of_mem _ _ (Finset.mem_univ y), regOut_lt _ _ _ hcol]
    show X1 ((win1_0.blk t1_0).view.emb (win1_1.xinj (grid1.coords t1_0) y)) = _
    congr 1
    funext a
    apply Fin.ext
    rw [emb0]
    match a with
    | ⟨0, _⟩ => exact (emb1 t1_0 y 0).symm
    | ⟨1, _⟩ => exact (emb1 t1_0 y 1).symm
  · rw [View.write_of_not_mem _ _ _ (by rwa [View.setOn_univ])]
    have hcol : ¬ (i 1 : ℕ) < 16384 := fun h => hi ((mem_blk1 t1_0 i).mpr h)
    rw [regOut_ge _ _ _ hcol]
    rfl

/-- The one pipeline's proof data on every core. -/
def pdats (X1 : IVec S16x16384 32) (X3 : IVec S16x1000000 32) :
    (p : Fin 1) → (c : Dev nD) → Pipeline.Dat τ (Elt F) (HIx 1) ℕ UU ℕ (Pipeline.pin (pcfgs (F := F)) adm p) c
  | 0 => fun c => dat1 c X1 X3

/-- The region's two arrays at contents `Fa` are the batch's and the table's buffers held whole. -/
theorem arrays1_eq (X1 : IVec S16x16384 32) (X3 : IVec S16x1000000 32) (c : Dev nD) (Fa) :
    ((pdats (F := F) X1 X3 0 c).arrays Fa : sProp 𝕄)
      = iprop(((T c : Thread nD τ).loc main_v1 ↦{fullShare} Fa 0) ∗ ((T c : Thread nD τ).loc main_v3 ↦{fullShare} Fa 1)) := by
  rw [Pipeline.arrays_eq (Pipeline.pin (pcfgs (F := F)) adm) (pdats X1 X3) 0 c launch1.arr_whole
    ((pdats X1 X3 0 c).share_full fun _ => rfl) Fa, bigSep_W1]

/-- THE REGION: the two arrays into the pipeline and out again, the core owing nothing throughout, its recorded waits
    kept at or below level 8. -/
def reg1 (X1 : IVec S16x16384 32) (X3 : IVec S16x1000000 32) :
    Pipeline.RegionSeg (pcfgs (F := F)) adm (pdats X1 X3) (none : HIx 1) defs₀ 𝒱₀ (K (F := F)).L (K (F := F)).lev (0 : Fin 1) where
  win := launch1.win.to₀
  block_pos := launch1.block_pos
  stage_whole := launch1.stage_whole
  K := PEmpty
  osem k := k.elim
  ho := Pipeline.OwnSemFacts.none _
  hbody c := body_obligation c X1 X3
  hwaits c := (show (levAts (K (F := F)).L (K (F := F)).lev : sProp 𝕄) ⊢ BI.emp from by iintro -; iempintro).trans
      (Pipeline.cellsWaits_of_owed_zero (Pipeline.pin (pcfgs (F := F)) adm) (pdats X1 X3) none 0 c fun _ => rfl)
  pre c := iprop(((T c : Thread nD τ).loc main_v1 ↦{fullShare} (X1 : Buf (Elt F) ((T c : Thread nD τ).loc main_v1)))
    ∗ ((T c : Thread nD τ).loc main_v3 ↦{fullShare} (X3 : Buf (Elt F) ((T c : Thread nD τ).loc main_v3)))
    ∗ ∃ W, ⌜(K (F := F)).WBelow (T c) W 8⌝ ∗ owes (T c : Thread nD τ) (0 : CellTallies nD τ sig (HIx 1)) W)
  post c := iprop(((T c : Thread nD τ).loc main_v1 ↦{fullShare} (X1 : Buf (Elt F) ((T c : Thread nD τ).loc main_v1)))
    ∗ ((T c : Thread nD τ).loc main_v3 ↦{fullShare} (regOut X1 X3 : Buf (Elt F) ((T c : Thread nD τ).loc main_v3)))
    ∗ ∃ W, ⌜(K (F := F)).WBelow (T c) W 8⌝ ∗ owes (T c : Thread nD τ) (0 : CellTallies nD τ sig (HIx 1)) W)
  X _ := iprop(emp)
  Y _ := iprop(emp)
  Z _ := iprop(emp)
  hentry c := by
    rw [Pipeline.ownSems0_none, arrays1_eq]
    iintro ⟨⟨H1, H3, %W, %hW, HO⟩, -, -⟩
    imodintro
    isplitl [H1 H3]
    · isplitl [H1]; · iexact H1
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [Pipeline.ownSems0_none, scopedRest1_eq]
    iintro -; isplitr; · iempintro
    isplitr <;> iempintro
  hexit c := by
    rw [arrays1_eq, show (pdats (F := F) X1 X3 0 c).arrAt 0 (Pipeline.pin (pcfgs (F := F)) adm 0).N = X1 from arrAt_in0 c X1 X3,
      show (pdats (F := F) X1 X3 0 c).arrAt 1 (Pipeline.pin (pcfgs (F := F)) adm 0).N = regOut X1 X3 from arrAt_out c X1 X3]
    iintro ⟨⟨H1, H3⟩, HO, -, -⟩
    imodintro
    isplitl [H1]; · iexact H1
    isplitl [H3]; · iexact H3
    unfold Pipeline.Dat.owesAt Pipeline.owesWithin
    icases HO with ⟨%W, %hW, HO⟩; iexists W
    isplitr
    · ipureintro
      intro p hp
      rcases hW hp with h | ⟨w, s, rfl⟩
      · exact h
      · exact (le_of_eq ((K (F := F)).lev_none _)).trans (Nat.zero_le 8)
    iexact HO

set_option backward.isDefEq.respectTransparency.types false in
/-- The region inside the SparseCore program: the inner call of pipeline 0's entry runs from the two arrays, the core
    owing nothing with its recorded waits at or below level 8, the level facts and the pipeline's launch ghost state, to
    the table overwritten on columns below 16384 by the batch, the batch unchanged, and the core owing nothing under the
    same bound. -/
theorem region_wp [∀ e, Nonempty (Elt F e)] (d : Dev nD) (X1 : Buf (Elt F) ((T d : Thread nD τ).loc main_v1))
    (X3 : Buf (Elt F) ((T d : Thread nD τ).loc main_v3))
    (W₀ : Waits sig (HIx 1)) (hW₀ : (K (F := F)).WBelow (T d) W₀ 8) {α : Type}
    (k : PUnit → Prog (TpuEff nD τ sig (Elt F) (SparseCore.Sig (ΛP (F := F)) 1) .tc) α) (Q : α → sProp 𝕄) :
    (iprop((iprop(boundary (T d : Thread nD τ) ∗ ((T d : Thread nD τ).loc main_v1 ↦{fullShare} X1)
              ∗ ((T d : Thread nD τ).loc main_v3 ↦{fullShare} (regOut X1 X3 : Buf (Elt F) ((T d : Thread nD τ).loc main_v3)))
              ∗ ∃ W, ⌜(K (F := F)).WBelow (T d) W 8⌝ ∗ owes (T d : Thread nD τ) (0 : CellTallies nD τ sig (HIx 1)) W)
            -∗ wp frame (wpE ((K (F := F)).defs (D (F := F))) 𝒱 (T d) none) Set.univ (k ⟨⟩) Q)
        ∗ boundary (T d : Thread nD τ) ∗ ((T d : Thread nD τ).loc main_v1 ↦{fullShare} X1) ∗ ((T d : Thread nD τ).loc main_v3 ↦{fullShare} X3)
        ∗ owes (T d : Thread nD τ) (0 : CellTallies nD τ sig (HIx 1)) W₀
        ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄)
      ⊢ wp frame (wpE ((K (F := F)).defs (D (F := F))) 𝒱 (T d) none) Set.univ
          (.op (.customCall (SparseCore.inner (Pipeline.entry 0)) ()) k) Q := by
  have hprog : (Prog.op (TpuEff.customCall (SparseCore.inner (Pipeline.entry (0 : Fin 1))) ()) k
        : Prog (TpuEff nD τ sig (Elt F) (SparseCore.Sig (ΛP (F := F)) 1) .tc) α)
      = (SparseCore.liftProg (Q := 1) (Prog.op (TpuEff.customCall (Pipeline.entry (0 : Fin 1)) ()) Prog.ret
          : Prog (TpuEff nD τ sig (Elt F) (ΛP (F := F)) .tc) PUnit) >>= k) := rfl
  rw [hprog, wp_bind]
  refine BIBase.Entails.trans ?_ ((K (F := F)).wp_liftProg (D (F := F)) 𝒱 (T d) Set.univ none _ _)
  refine BIBase.Entails.trans ?_ (Pipeline.RegionSeg.wp (pcfgs (F := F)) adm (pdats X1 X3) (none : HIx 1) cellOf_inj EP defs₀ 𝒱₀
    (K (F := F)).L (K (F := F)).lev (reg1 X1 X3) d none (fun u hu => nomatch hu) (fun u => Prog.ret u) _)
  dsimp only [reg1]
  iintro ⟨Hk, Hb, H1, H3, HO, Hlev, Hg, Ht⟩
  isplitl [Hk]
  · iintro ⟨Hb, H1, H3, HW⟩
    rw [wp_ret]; imodintro
    iapply Hk
    isplitl [Hb]; · iexact Hb
    isplitl [H1]; · iexact H1
    isplitl [H3]; · iexact H3
    iexact HW
  isplitl [Hb]; · iexact Hb
  isplitl [H1 H3 HO]
  · isplitl [H1]; · iexact H1
    isplitl [H3]; · iexact H3
    iexists W₀; isplitr; · ipureintro; exact hW₀
    iexact HO
  isplitl [Hlev]; · iexact Hlev
  isplitl [Hg]; · iexact Hg
  iexact Ht

end Cert.Kernel.Hand

end
-- ==== Proof.K.Main.lean ====
/-
  The launch element, @main on the TensorCore, and the program's run.

  @main, line by line: the keys' and rewards' memory arrays are copied into result buffers; the SparseCore call hands
  the thirty-two row ranges of the batch and of the result buffers to the subcores (the result buffers' rows from 16384 on
  stay with the TensorCore) and gets them back with rows 0 … 16383 at the batch's rows — together with the kept rows the
  whole result buffers at the append's function; the batch's and the memory's candidate tables are transposed, the latter
  copied into the pipelined kernel's result buffer, the kernel overwrites its columns 0 … 16383 by the transposed batch,
  and the result is transposed back; the counter moves on by 16384. Every argument array ends as it began.
-/
import proofs.«210822_g55980603736083_cont_9to1_m_1082_22_alg».proof.Proof.K.Rows
import proofs.«210822_g55980603736083_cont_9to1_m_1082_22_alg».proof.Proof.K.Host
import proofs.«210822_g55980603736083_cont_9to1_m_1082_22_alg».proof.Proof.K.RegionSeg

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ) (ρ : Dev nD → PrngReg)
variable [FloatOps F]

/-! ## The launch element: the handshakes' rounds, the pipeline's staging cells, the counters -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

/-- What the launch deals a device's TensorCore for the pipelined kernel: its staging cells' ghost state and duty tokens. -/
abbrev Gd (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP0, -⟩
  ihave HP := (Entails.of_eq (show (BI.own (((Emb.inl : Emb UP (UP × Counters)).trans (embR : Emb (UP × Counters) 𝕄))
      (initOf (Pipeline.cells (Pipeline.pin (pcfgs (F := F)) adm) cellOf_inj) (Pipeline.launchToks (Pipeline.pin (pcfgs (F := F)) adm) cellOf_inj))) : sProp 𝕄)
    = BI.own ((EP (F := F)) (initOf (Pipeline.cells (Pipeline.pin (pcfgs (F := F)) adm) cellOf_inj) (Pipeline.launchToks (Pipeline.pin (pcfgs (F := F)) adm) cellOf_inj))) from rfl)) $$ HP0
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]
    · ihave Hg' := (Entails.of_eq (bigSep_congr fun c _ => bigSep_univ_of_subsingleton (0 : Fin 1))) $$ Hg
      iexact Hg'
    · ihave Ht' := (Entails.of_eq (bigSep_congr fun c _ => bigSep_univ_of_subsingleton (0 : Fin 1))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop(pl d main_arg0 (W main_arg0) ∗ pl d main_arg1 (W main_arg1) ∗ pl d main_arg2 (W main_arg2) ∗ pl d main_arg3 (W main_arg3) ∗ pl d main_arg4 (W main_arg4) ∗ pl d main_arg5 (W main_arg5) ∗ pl d main_arg6 (W main_arg6) ∗ pl d main_v0_0 (W main_v0_0) ∗ pl d main_v0_1 (W main_v0_1) ∗ pl d main_v1 (W main_v1) ∗ pl d main_v2 (W main_v2) ∗ pl d main_v3 (W main_v3) ∗ pl d main_c (W main_c) ∗ pl d main_v4 (W main_v4) ∗ pl d main_v5 (W main_v5)) := by
  unfold unscopedBufs
  rw [bigSep_eq_bigSepL_of_eq [main_arg0, main_arg1, main_arg2, main_arg3, main_arg4, main_arg5, main_arg6, main_v0_0, main_v0_1, main_v1, main_v2, main_v3, main_c, main_v4, main_v5] (by decide) (by decide)]
  rfl

/-- The launch contents as a valuation (only a base for the host operations' lemmas; nothing reads it). -/
def V0 (d : Dev nD) : Valuation τ sig (Elt F) := fun b => m (d, b)

theorem Otc_one (d : Dev nD) : (K (F := F)).Otc d 1 = 0 := by
  unfold SparseCore.Cfg.Otc
  exact Finset.sum_eq_zero fun q _ => if_neg (by have := q.isLt; omega)

/-- After its one call the TensorCore owes nothing: its `owes` can be lent out and put back. -/
theorem tcSt_owes (d : Dev nD) :
    ((K (F := F)).tcSt EH d 1 : sProp 𝕄)
      ⊢ iprop((∃ W, ⌜(K (F := F)).WBelow (SparseCore.T d) W (8 * 1)⌝ ∗ owes (SparseCore.T d) (0 : CellTallies nD τ sig (HIx 1)) W)
          ∗ ((∃ W, ⌜(K (F := F)).WBelow (SparseCore.T d) W (8 * 1)⌝ ∗ owes (SparseCore.T d) (0 : CellTallies nD τ sig (HIx 1)) W)
              -∗ (K (F := F)).tcSt EH d 1)) := by
  unfold SparseCore.Cfg.tcSt
  rw [Otc_one]
  iintro ⟨HO, Hrest⟩
  isplitl [HO]; · iexact HO
  iintro HO
  isplitl [HO]; · iexact HO
  iexact Hrest

/-- The append's results on device `d`. -/
abbrev GK (d : Dev nD) : Buf (Elt F) (rKLoc d) := Spec.over1 (m (a0Loc d)) (m (a4Loc d))
abbrev GW (d : Dev nD) : Buf (Elt F) (rWLoc d) := Spec.over1 (m (a2Loc d)) (m (a6Loc d))

/-- A SparseCore call's payload, array by array. -/
theorem st0_eq (d : Dev nD) : (bigSep Finset.univ fun c : Fin ((K (F := F)).nCore 0) => (P m).st 0 d c)
    = iprop((bigSep Finset.univ fun c : Fin 2 => bigSep Finset.univ fun i : Fin 16 => (a4Loc d ↦[rows512 16384 (rowCI c.val i.val)]{fullShare} m (a4Loc d) : sProp 𝕄))
        ∗ (bigSep Finset.univ fun c : Fin 2 => bigSep Finset.univ fun i : Fin 16 => (rKLoc d ↦[rows512 1000000 (rowCI c.val i.val)]{fullShare} (m (a0Loc d) : Buf (Elt F) (rKLoc d)) : sProp 𝕄))
        ∗ (bigSep Finset.univ fun c : Fin 2 => bigSep Finset.univ fun i : Fin 16 => (a6Loc d ↦[rows512 16384 (rowCI c.val i.val)]{fullShare} m (a6Loc d) : sProp 𝕄))
        ∗ (bigSep Finset.univ fun c : Fin 2 => bigSep Finset.univ fun i : Fin 16 => (rWLoc d ↦[rows512 1000000 (rowCI c.val i.val)]{fullShare} (m (a2Loc d) : Buf (Elt F) (rWLoc d)) : sProp 𝕄))) := by
  show (bigSep Finset.univ fun c : Fin 2 => bigSep Finset.univ fun i : Fin 16 => goRes m d (rowCI c.val i.val)) = _
  unfold goRes
  simp only [bigSep_sep']

theorem dn0_eq (d : Dev nD) : (bigSep Finset.univ fun c : Fin ((K (F := F)).nCore 0) => (P m).dn 0 d c)
    = iprop((bigSep Finset.univ fun c : Fin 2 => bigSep Finset.univ fun i : Fin 16 => (a4Loc d ↦[rows512 16384 (rowCI c.val i.val)]{fullShare} m (a4Loc d) : sProp 𝕄))
        ∗ (bigSep Finset.univ fun c : Fin 2 => bigSep Finset.univ fun i : Fin 16 => (rKLoc d ↦[rows512 1000000 (rowCI c.val i.val)]{fullShare} GK m d : sProp 𝕄))
        ∗ (bigSep Finset.univ fun c : Fin 2 => bigSep Finset.univ fun i : Fin 16 => (a6Loc d ↦[rows512 16384 (rowCI c.val i.val)]{fullShare} m (a6Loc d) : sProp 𝕄))
        ∗ (bigSep Finset.univ fun c : Fin 2 => bigSep Finset.univ fun i : Fin 16 => (rWLoc d ↦[rows512 1000000 (rowCI c.val i.val)]{fullShare} GW m d : sProp 𝕄))) := by
  show (bigSep Finset.univ fun c : Fin 2 => bigSep Finset.univ fun i : Fin 16 => tdRes m d (rowCI c.val i.val)) = _
  unfold tdRes
  simp only [bigSep_sep']

abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-- The transposed batch and the transposed table, as @main computes them. -/
abbrev X1 (d : Dev nD) : Buf (Elt F) (v1Loc d) :=
  transpose S16x16384 [1, 0] (m (a5Loc d)) transposes_S16384x16_S16x16384_1_0
abbrev X3 (d : Dev nD) : Buf (Elt F) (v3Loc d) :=
  id (transpose S16x1000000 [1, 0] (m (a1Loc d)) transposes_S1000000x16_S16x1000000_1_0 : Buf (Elt F) (v2Loc d))

omit [FloatOps F] in
/-- From row 16384 on the append's function is the old memory. -/
theorem hiK (d : Dev nD) : ∀ i ∉ lowRows, (id (m (a0Loc d)) : Buf (Elt F) (rKLoc d)) i = GK m d i :=
  fun i hi => (Spec.over1_ge _ _ i (by rwa [mem_lowRows] at hi)).symm
omit [FloatOps F] in
theorem hiW (d : Dev nD) : ∀ i ∉ lowRows, (id (m (a2Loc d)) : Buf (Elt F) (rWLoc d)) i = GW m d i :=
  fun i hi => (Spec.over1_ge _ _ i (by rwa [mem_lowRows] at hi)).symm

/-- What @main leaves the claim: the four results and the seven arguments. -/
def FIN (d : Dev nD) : sProp 𝕄 :=
  iprop(pl d main_v0_0 (GK m d)
    ∗ pl d main_v5 (transpose S1000000x16 [1, 0] (regOut (X1 m d) (X3 m d) : Buf (Elt F) (v3Loc d)) transposes_S16x1000000_S1000000x16_1_0)
    ∗ pl d main_v0_1 (GW m d)
    ∗ pl d main_v4 (addi (m (a3Loc d)) (constantI S_ 32 16384#32))
    ∗ pl d main_arg0 (m (a0Loc d)) ∗ pl d main_arg1 (m (a1Loc d)) ∗ pl d main_arg2 (m (a2Loc d)) ∗ pl d main_arg3 (m (a3Loc d))
    ∗ pl d main_arg4 (m (a4Loc d)) ∗ pl d main_arg5 (m (a5Loc d)) ∗ pl d main_arg6 (m (a6Loc d)))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure, Prog.lift]
  iintro ⟨#Hctx, Hst, ⟨Hb, ⟨H0, H1, H2, H3, H4, H5, H6, HrK, HrW, Hv1, Hv2, Hv3, Hc, Hv4, Hv5⟩, -, -⟩, ⟨Hcg, Htk⟩⟩
  -- the keys' memory copied into its result buffer
  iapply (wp_unary_pl ((K (F := F)).defs (D (F := F))) d (V0 m d) main_arg0 main_v0_0 _ _ _ (by decide) _ _ _ _)
  isplitl [Hb]; · iexact Hb
  isplitl [H0]; · iexact H0
  isplitl [HrK]; · iexact HrK
  iintro ⟨Hb, H0, HrK⟩
  rw [wp_ret]; imodintro
  -- the rewards' memory copied into its result buffer
  iapply (wp_unary_pl ((K (F := F)).defs (D (F := F))) d (V0 m d) main_arg2 main_v0_1 _ _ _ (by decide) _ _ _ _)
  isplitl [Hb]; · iexact Hb
  isplitl [H2]; · iexact H2
  isplitl [HrW]; · iexact HrW
  iintro ⟨Hb, H2, HrW⟩
  rw [wp_ret]; imodintro
  -- the SparseCore call: the row ranges out, and back at the append's function
  ihave H4s := (Entails.of_eq (split_a4 (F := F) d _).symm) $$ H4
  ihave H6s := (Entails.of_eq (split_a6 (F := F) d _).symm) $$ H6
  ihave HrK2 := (Entails.of_eq (low_high (F := F) (rKLoc d) lowRows _)) $$ HrK
  icases HrK2 with ⟨HrKlo, HrKhi⟩
  ihave HrKs := (Entails.of_eq (split_rK (F := F) d _).symm) $$ HrKlo
  ihave HrW2 := (Entails.of_eq (low_high (F := F) (rWLoc d) lowRows _)) $$ HrW
  icases HrW2 with ⟨HrWlo, HrWhi⟩
  ihave HrWs := (Entails.of_eq (split_rW (F := F) d _).symm) $$ HrWlo
  iapply ((K (F := F)).wp_run (D (F := F)) 𝒱 (EH := EH) (P := P m) κ d 0)
  isplitr; · iexact Hctx
  isplitl [Hst]; · iexact Hst
  isplitl [H4s HrKs H6s HrWs]
  · rw [st0_eq]
    isplitl [H4s]; · iexact H4s
    isplitl [HrKs]; · iexact HrKs
    isplitl [H6s]; · iexact H6s
    iexact HrWs
  iintro ⟨Hst, Hdn⟩
  ihave Hdn' := (Entails.of_eq (dn0_eq m d)) $$ Hdn
  icases Hdn' with ⟨H4s, HrKs, H6s, HrWs⟩
  ihave H4 := (Entails.of_eq (split_a4 (F := F) d _)) $$ H4s
  ihave H6 := (Entails.of_eq (split_a6 (F := F) d _)) $$ H6s
  ihave HrKlo := (Entails.of_eq (split_rK (F := F) d _)) $$ HrKs
  ihave HrWlo := (Entails.of_eq (split_rW (F := F) d _)) $$ HrWs
  ihave HrK := (low_high_join (F := F) (rKLoc d) lowRows (GK m d) _ (hiK m d)) $$ [HrKlo HrKhi]
  · isplitl [HrKlo]; · iexact HrKlo
    iexact HrKhi
  ihave HrW := (low_high_join (F := F) (rWLoc d) lowRows (GW m d) _ (hiW m d)) $$ [HrWlo HrWhi]
  · isplitl [HrWlo]; · iexact HrWlo
    iexact HrWhi
  -- the batch's candidates transposed
  iapply (wp_unary_pl ((K (F := F)).defs (D (F := F))) d (V0 m d) main_arg5 main_v1 _ _ _ (by decide) _ _ _ _)
  isplitl [Hb]; · iexact Hb
  isplitl [H5]; · iexact H5
  isplitl [Hv1]; · iexact Hv1
  iintro ⟨Hb, H5, Hv1⟩
  rw [wp_ret]; imodintro
  -- the memory's candidates transposed
  iapply (wp_unary_pl ((K (F := F)).defs (D (F := F))) d (V0 m d) main_arg1 main_v2 _ _ _ (by decide) _ _ _ _)
  isplitl [Hb]; · iexact Hb
  isplitl [H1]; · iexact H1
  isplitl [Hv2]; · iexact Hv2
  iintro ⟨Hb, H1, Hv2⟩
  rw [wp_ret]; imodintro
  -- and copied into the pipelined kernel's result buffer
  iapply (wp_unary_pl ((K (F := F)).defs (D (F := F))) d (V0 m d) main_v2 main_v3 _ _ _ (by decide) _ _ _ _)
  isplitl [Hb]; · iexact Hb
  isplitl [Hv2]; · iexact Hv2
  isplitl [Hv3]; · iexact Hv3
  iintro ⟨Hb, Hv2, Hv3⟩
  rw [wp_ret]; imodintro
  -- the pipelined kernel, the TensorCore's owes lent to it
  ihave Hst1 := (Entails.of_eq (show ((K (F := F)).tcSt EH d ((0 : Fin 1).val + 1) : sProp 𝕄) = (K (F := F)).tcSt EH d 1 from rfl)) $$ Hst
  ihave Hso := (tcSt_owes (F := F) d) $$ Hst1
  icases Hso with ⟨⟨%W₀, %hW₀, HO⟩, Hback⟩
  ihave Hlev := (SparseCore.Cfg.ctx_levAts κ) $$ Hctx
  iapply (region_wp (F := F) d (X1 m d) (X3 m d) W₀ hW₀ _ _)
  isplitr [Hb Hv1 Hv3 HO Hlev Hcg Htk]
  swap
  · isplitl [Hb]; · iexact Hb
    isplitl [Hv1]; · iexact Hv1
    isplitl [Hv3]; · iexact Hv3
    isplitl [HO]; · iexact HO
    isplitl [Hlev]; · iexact Hlev
    isplitl [Hcg]; · iexact Hcg
    iexact Htk
  iintro ⟨Hb, Hv1, Hv3, HO⟩
  ihave Hst := Hback $$ HO
  rw [wp_ret]; imodintro
  -- the counter
  iapply (wp_nullary_pl ((K (F := F)).defs (D (F := F))) d (V0 m d) main_c _ _ _ _ _)
  isplitl [Hb]; · iexact Hb
  isplitl [Hc]; · iexact Hc
  iintro ⟨Hb, Hc⟩
  rw [wp_ret]; imodintro
  iapply (wp_binary_pl ((K (F := F)).defs (D (F := F))) d (V0 m d) main_arg3 main_c main_v4 _ _ _ _ (by decide) (by decide) (by decide) _ _ _ _ _)
  isplitl [Hb]; · iexact Hb
  isplitl [H3]; · iexact H3
  isplitl [Hc]; · iexact Hc
  isplitl [Hv4]; · iexact Hv4
  iintro ⟨Hb, H3, Hc, Hv4⟩
  rw [wp_ret]; imodintro
  -- the kernel's result transposed back
  iapply (wp_unary_pl ((K (F := F)).defs (D (F := F))) d (V0 m d) main_v3 main_v5 _ _ _ (by decide) _ _ _ _)
  isplitl [Hb]; · iexact Hb
  isplitl [Hv3]; · iexact Hv3
  isplitl [Hv5]; · iexact Hv5
  iintro ⟨Hb, Hv3, Hv5⟩
  rw [wp_ret]; imodintro
  imodintro
  isplitl [Hst]; · iexact Hst
  unfold FIN
  isplitl [HrK]; · iexact HrK
  isplitl [Hv5]; · iexact Hv5
  isplitl [HrW]; · iexact HrW
  isplitl [Hv4]; · iexact Hv4
  isplitl [H0]; · iexact H0
  isplitl [H1]; · iexact H1
  isplitl [H2]; · iexact H2
  isplitl [H3]; · iexact H3
  isplitl [H4]; · iexact H4
  isplitl [H5]; · iexact H5
  iexact H6

abbrev v4Loc (d : Dev nD) : Loc nD τ sig := (SparseCore.T d).loc main_v4
abbrev v5Loc (d : Dev nD) : Loc nD τ sig := (SparseCore.T d).loc main_v5

/-- What the final memory of device `d` holds: the four results and the seven arguments. -/
def fq (d : Dev nD) (s' : Phys nD τ sig (Elt F)) : Prop :=
  s'.mem.mem (rKLoc d) = GK m d
  ∧ s'.mem.mem (v5Loc d) = (transpose S1000000x16 [1, 0] (regOut (X1 m d) (X3 m d) : Buf (Elt F) (v3Loc d)) transposes_S16x1000000_S1000000x16_1_0 : Buf (Elt F) (v5Loc d))
  ∧ s'.mem.mem (rWLoc d) = GW m d
  ∧ s'.mem.mem (v4Loc d) = (addi (m (a3Loc d)) (constantI S_ 32 16384#32) : Buf (Elt F) (v4Loc d))
  ∧ s'.mem.mem (a0Loc d) = m (a0Loc d)
  ∧ s'.mem.mem (a1Loc d) = m (a1Loc d)
  ∧ s'.mem.mem (a2Loc d) = m (a2Loc d)
  ∧ s'.mem.mem (a3Loc d) = m (a3Loc d)
  ∧ s'.mem.mem (a4Loc d) = m (a4Loc d)
  ∧ s'.mem.mem (a5Loc d) = m (a5Loc d)
  ∧ s'.mem.mem (a6Loc d) = m (a6Loc d)

theorem hfin (d : Dev nD) (s' : Phys nD τ sig (Elt F)) : iprop(FIN m d ∗ SI s') ⊢ (⌜fq m d s'⌝ : sProp 𝕄) := by
  unfold FIN
  iintro ⟨⟨HK, H5v, HW, H4v, H0, H1, H2, H3, H4, H5, H6⟩, HSI⟩
  ihave H := (persistent_entails_right (SI_pointsTo_agree (st := s') (ℓ := rKLoc d) (I := Finset.univ) (q := fullShare) (f := GK m d))) $$ [HSI HK]
  · isplitl [HSI] <;> iassumption
  icases H with ⟨%h0, HSI, -⟩
  ihave H := (persistent_entails_right (SI_pointsTo_agree (st := s') (ℓ := v5Loc d) (I := Finset.univ) (q := fullShare) (f := (transpose S1000000x16 [1, 0] (regOut (X1 m d) (X3 m d) : Buf (Elt F) (v3Loc d)) transposes_S16x1000000_S1000000x16_1_0 : Buf (Elt F) (v5Loc d))))) $$ [HSI H5v]
  · isplitl [HSI] <;> iassumption
  icases H with ⟨%h1, HSI, -⟩
  ihave H := (persistent_entails_right (SI_pointsTo_agree (st := s') (ℓ := rWLoc d) (I := Finset.univ) (q := fullShare) (f := GW m d))) $$ [HSI HW]
  · isplitl [HSI] <;> iassumption
  icases H with ⟨%h2, HSI, -⟩
  ihave H := (persistent_entails_right (SI_pointsTo_agree (st := s') (ℓ := v4Loc d) (I := Finset.univ) (q := fullShare) (f := (addi (m (a3Loc d)) (constantI S_ 32 16384#32) : Buf (Elt F) (v4Loc d))))) $$ [HSI H4v]
  · isplitl [HSI] <;> iassumption
  icases H with ⟨%h3, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h4, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h5, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h6, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h7, HSI, -⟩
  ihave H := (persistent_entails_right (SI_pointsTo_agree (st := s') (ℓ := a4Loc d) (I := Finset.univ) (q := fullShare) (f := m (a4Loc d)))) $$ [HSI H4]
  · isplitl [HSI] <;> iassumption
  icases H with ⟨%h8, HSI, -⟩
  ihave H := (persistent_entails_right (SI_pointsTo_agree (st := s') (ℓ := a5Loc d) (I := Finset.univ) (q := fullShare) (f := m (a5Loc d)))) $$ [HSI H5]
  · isplitl [HSI] <;> iassumption
  icases H with ⟨%h9, HSI, -⟩
  ihave H := (SI_pointsTo_agree (st := s') (ℓ := a6Loc d) (I := Finset.univ) (q := fullShare) (f := m (a6Loc d))) $$ [HSI H6]
  · isplitl [HSI] <;> iassumption
  icases H with %h10
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i)⟩

/-! ## The program's run -/

def QC : PUnit × MemSt nD τ sig (Elt F) → Prop := fun r => ∀ d : Dev nD,
  r.2.mem (rKLoc d) = GK m d
  ∧ r.2.mem (v5Loc d) = (transpose S1000000x16 [1, 0] (regOut (X1 m d) (X3 m d) : Buf (Elt F) (v3Loc d)) transposes_S16x1000000_S1000000x16_1_0 : Buf (Elt F) (v5Loc d))
  ∧ r.2.mem (rWLoc d) = GW m d
  ∧ r.2.mem (v4Loc d) = (addi (m (a3Loc d)) (constantI S_ 32 16384#32) : Buf (Elt F) (v4Loc d))
  ∧ r.2.mem (a0Loc d) = m (a0Loc d)
  ∧ r.2.mem (a1Loc d) = m (a1Loc d)
  ∧ r.2.mem (a2Loc d) = m (a2Loc d)
  ∧ r.2.mem (a3Loc d) = m (a3Loc d)
  ∧ r.2.mem (a4Loc d) = m (a4Loc d)
  ∧ r.2.mem (a5Loc d) = m (a5Loc d)
  ∧ r.2.mem (a6Loc d) = m (a6Loc d)

/-- Every weakly fair execution of the device's threads terminates, nothing faulting, with the four results at the append's
    functions of the arguments and the arguments unchanged. -/
theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

end Cert.Kernel.Hand

end
-- ==== Proof.KI.Base.lean ====
/-
  The idealized kernel program as the SparseCore launch theorem reads it, and the vocabulary of its frame proof.

  The program: on the TensorCore, two whole-array copies (keys and rewards into result buffers of their own), one
  SparseCore call in which each of the 32 vector subcores copies rows [512·w, 512·w + 512) of the batch's keys and rewards
  onto the same rows of those result buffers (w = 2·subcore + core, so the 32 row ranges tile rows 0 … 16383), then three
  transposes and one pipelined TensorCore kernel of a single grid point that overwrites columns 0 … 16383 of the
  transposed candidate table by the transposed batch, and the counter's addition.
  Ghost state: the launch handshakes' rounds, the TensorCore pipeline's staging cells, and plain transfer counters for
  the subcores' own copies (each copy is issued and waited for on a semaphore of its own, nothing else touching it).
-/
import proofs.«210822_g55980603736083_cont_9to1_m_1082_22_alg».proof.Proof.Gen.KernelIdeal
import proofs.«210822_g55980603736083_cont_9to1_m_1082_22_alg».proof.Proof.Gen.KernelIdeal.Skeleton
import proofs.«210822_g55980603736083_cont_9to1_m_1082_22_alg».proof.Proof.Gen.KernelIdeal.Launch
import proofs.«210822_g55980603736083_cont_9to1_m_1082_22_alg».proof.Proof.Gen.KernelIdeal.Points
import proofs.«210822_g55980603736083_cont_9to1_m_1082_22_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshake rounds, the pipeline's staging cells, transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-! ## Locations -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev a5Loc (d : Dev nD) : Loc nD τ sig := (SparseCore.T d).loc main_arg5
abbrev a6Loc (d : Dev nD) : Loc nD τ sig := (SparseCore.T d).loc main_arg6
abbrev rKLoc (d : Dev nD) : Loc nD τ sig := (SparseCore.T d).loc main_v0_0
abbrev rWLoc (d : Dev nD) : Loc nD τ sig := (SparseCore.T d).loc main_v0_1

end Cert.KernelIdeal.Hand

end
-- ==== Proof.KI.Tile.lean ====
/-
  One vector subcore's task: two copies of 512 rows, and what they leave.

  The subcore at grid position (core c, subcore s) owns rows [r, r + 512) with r = 1024·s + 512·c of the batch's keys and
  rewards (which it only reads) and the same rows of the two result buffers (which it overwrites). Each copy is issued
  on a semaphore of its own and waited for before the next is issued, and nothing else touches its source or
  destination meanwhile. After the task the destination rows hold, element by element, the batch's rows: on those rows
  this is the append's function `Spec.over1 old batch` (row r of the result is row r of the batch for r < 16384), since
  r + 511 ≤ 16383 for every subcore.
-/
import proofs.«210822_g55980603736083_cont_9to1_m_1082_22_alg».proof.Proof.KI.Base

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## Row ranges -/

/-- The 512 rows from row `o` on, of a one-column array of `N` rows. -/
def rows512 (N o : ℕ) : Finset (⟨1, ![N]⟩ : Shape).Idx := Finset.univ.filter fun j => o ≤ (j 0).val ∧ (j 0).val < o + 512

theorem mem_rows512 {N o : ℕ} (j : (⟨1, ![N]⟩ : Shape).Idx) : j ∈ rows512 N o ↔ o ≤ (j 0).val ∧ (j 0).val < o + 512 := by
  unfold rows512; rw [Finset.mem_filter]; exact ⟨fun h => h.2, fun h => ⟨Finset.mem_univ _, h⟩⟩

/-- The first row of the subcore at grid position `L`: `512 · (2 · subcore + core)`. -/
def rowOf (L : grid0.Coords) : ℕ := 1024 * (L 1).val + 512 * (L 0).val

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0

abbrev a4W : Memref sig .scVector .hbm S16384 .i32 := Memref.whole main_arg4_scv
abbrev a6W : Memref sig .scVector .hbm S16384 .f32 := Memref.whole main_arg6_scv
abbrev rKW : Memref sig .scVector .hbm S1000000 .i32 := Memref.whole main_v0_0_scv
abbrev rWW : Memref sig .scVector .hbm S1000000 .f32 := Memref.whole main_v0_1_scv

abbrev srcK (L : grid0.Coords) : Memref sig .scVector .hbm S512 .i32 := (a4W).slice (Rect.unit (s := S16384) (k0_off2 L) S512.size (k0_off2_inb L)) (fun _ => rfl)
abbrev dstK (L : grid0.Coords) : Memref sig .scVector .hbm S512 .i32 := (rKW).slice (Rect.unit (s := S1000000) (k0_off1 L) S512.size (k0_off1_inb L)) (fun _ => rfl)
abbrev srcW (L : grid0.Coords) : Memref sig .scVector .hbm S512 .f32 := (a6W).slice (Rect.unit (s := S16384) (k0_off2 L) S512.size (k0_off2_inb L)) (fun _ => rfl)
abbrev dstW (L : grid0.Coords) : Memref sig .scVector .hbm S512 .f32 := (rWW).slice (Rect.unit (s := S1000000) (k0_off1 L) S512.size (k0_off1_inb L)) (fun _ => rfl)

theorem set_srcK : (srcK L).view.set = rows512 16384 (rowOf L) := by
  ext j
  show j ∈ ((View.whole main_arg4_scv).slice (Rect.unit (s := S16384) (k0_off2 L) S512.size (k0_off2_inb L))).set ↔ _
  rw [View.set_slice_whole, Rect.mem_set_unit, mem_rows512, k0_off2_eq]
  exact ⟨fun h => h 0, fun h a => by match a with | ⟨0, _⟩ => exact h⟩
theorem set_srcW : (srcW L).view.set = rows512 16384 (rowOf L) := by
  ext j
  show j ∈ ((View.whole main_arg6_scv).slice (Rect.unit (s := S16384) (k0_off2 L) S512.size (k0_off2_inb L))).set ↔ _
  rw [View.set_slice_whole, Rect.mem_set_unit, mem_rows512, k0_off2_eq]
  exact ⟨fun h => h 0, fun h a => by match a with | ⟨0, _⟩ => exact h⟩
theorem set_dstK : (dstK L).view.set = rows512 1000000 (rowOf L) := by
  ext j
  show j ∈ ((View.whole main_v0_0_scv).slice (Rect.unit (s := S1000000) (k0_off1 L) S512.size (k0_off1_inb L))).set ↔ _
  rw [View.set_slice_whole, Rect.mem_set_unit, mem_rows512, k0_off1_eq]
  exact ⟨fun h => h 0, fun h a => by match a with | ⟨0, _⟩ => exact h⟩
theorem set_dstW : (dstW L).view.set = rows512 1000000 (rowOf L) := by
  ext j
  show j ∈ ((View.whole main_v0_1_scv).slice (Rect.unit (s := S1000000) (k0_off1 L) S512.size (k0_off1_inb L))).set ↔ _
  rw [View.set_slice_whole, Rect.mem_set_unit, mem_rows512, k0_off1_eq]
  exact ⟨fun h => h 0, fun h a => by match a with | ⟨0, _⟩ => exact h⟩

theorem pts_srcK (f : Buf (Elt F) (a4Loc d)) :
    ((srcK L).view.loc (V d (cV L) (jV L)) ↦[(srcK L).view.set]{fullShare} f : sProp 𝕄) = a4Loc d ↦[rows512 16384 (rowOf L)]{fullShare} f := by
  rw [set_srcK]
theorem pts_srcW (f : Buf (Elt F) (a6Loc d)) :
    ((srcW L).view.loc (V d (cV L) (jV L)) ↦[(srcW L).view.set]{fullShare} f : sProp 𝕄) = a6Loc d ↦[rows512 16384 (rowOf L)]{fullShare} f := by
  rw [set_srcW]
theorem pts_dstK (f : Buf (Elt F) (rKLoc d)) :
    ((dstK L).view.loc (V d (cV L) (jV L)) ↦[(dstK L).view.set]{fullShare} f : sProp 𝕄) = rKLoc d ↦[rows512 1000000 (rowOf L)]{fullShare} f := by
  rw [set_dstK]
theorem pts_dstW (f : Buf (Elt F) (rWLoc d)) :
    ((dstW L).view.loc (V d (cV L) (jV L)) ↦[(dstW L).view.set]{fullShare} f : sProp 𝕄) = rWLoc d ↦[rows512 1000000 (rowOf L)]{fullShare} f := by
  rw [set_dstW]

abbrev c0cell (d : Dev nD) (L : grid0.Coords) : GSem nD τ sig := (V d (cV L) (jV L), .dma cc0_scoped0.sem)
abbrev c1cell (d : Dev nD) (L : grid0.Coords) : GSem nD τ sig := (V d (cV L) (jV L), .dma cc0_scoped1.sem)

theorem ownSems0_V :
    (ownSems0 (V d (cV L) (jV L)) : sProp 𝕄)
      = iprop(semVal (c0cell d L) 0 ∗ semVal (c1cell d L) 0
          ∗ bigSep (((ownCells (V d (cV L) (jV L))).erase (c0cell d L)).erase (c1cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩)]

theorem rowOf_lt (y : S512.Idx) : rowOf L + (y 0).val < 16384 := by
  have h0 : (L 0).val < 2 := (L 0).isLt
  have h1 : (L 1).val < 16 := (L 1).isLt
  have h2 : (y 0).val < 512 := (y 0).isLt
  unfold rowOf; omega

/-- On its 512 destination rows, what the copy landed is the append's function: row `r` of the batch at row `r`. -/
theorem landedK (f : Buf (Elt F) (rKLoc d)) :
    ∀ i ∈ (dstK L).view.set,
      (dstK L).view.writes (Elt F) f [⟨Rect.whole S512, ReadAs.same.apply ((srcK L).view.read (Elt F) (m (a4Loc d)))⟩] i
        = (Spec.over1 (m (a0Loc d)) (m (a4Loc d)) : Buf (Elt F) (rKLoc d)) i := by
  intro i hi
  obtain ⟨y, -, rfl⟩ := Finset.mem_map.mp hi
  rw [View.writes_singleton]
  have e : (dstK L).view.emb y = ((dstK L).view.slice (Rect.whole S512)).emb y := by
    show _ = (dstK L).view.emb ((Rect.whole S512).emb y)
    rw [Rect.emb_whole_apply]
  have hrow : (((dstK L).view.emb y) 0).val = rowOf L + (y 0).val := by
    show (k0_off1 L) 0 + 1 * (y 0).val = _
    rw [k0_off1_eq]; unfold rowOf; simp
  rw [Spec.over1_lt _ _ _ (by rw [hrow]; exact rowOf_lt L y)]
  conv_lhs => rw [e]
  rw [View.write_emb_of_mem _ _ (Finset.mem_univ _)]
  show m (a4Loc d) ((srcK L).view.emb y) = _
  congr 1
  funext a
  match a with
  | ⟨0, _⟩ =>
    apply Fin.ext
    show (k0_off2 L) 0 + 1 * (y 0).val = ((dstK L).view.emb y 0).val
    rw [hrow, k0_off2_eq]; unfold rowOf; simp

/-- On its 512 destination rows, what the copy landed is the append's function: row `r` of the batch at row `r`. -/
theorem landedW (f : Buf (Elt F) (rWLoc d)) :
    ∀ i ∈ (dstW L).view.set,
      (dstW L).view.writes (Elt F) f [⟨Rect.whole S512, ReadAs.same.apply ((srcW L).view.read (Elt F) (m (a6Loc d)))⟩] i
        = (Spec.over1 (m (a2Loc d)) (m (a6Loc d)) : Buf (Elt F) (rWLoc d)) i := by
  intro i hi
  obtain ⟨y, -, rfl⟩ := Finset.mem_map.mp hi
  rw [View.writes_singleton]
  have e : (dstW L).view.emb y = ((dstW L).view.slice (Rect.whole S512)).emb y := by
    show _ = (dstW L).view.emb ((Rect.whole S512).emb y)
    rw [Rect.emb_whole_apply]
  have hrow : (((dstW L).view.emb y) 0).val = rowOf L + (y 0).val := by
    show (k0_off1 L) 0 + 1 * (y 0).val = _
    rw [k0_off1_eq]; unfold rowOf; simp
  rw [Spec.over1_lt _ _ _ (by rw [hrow]; exact rowOf_lt L y)]
  conv_lhs => rw [e]
  rw [View.write_emb_of_mem _ _ (Finset.mem_univ _)]
  show m (a6Loc d) ((srcW L).view.emb y) = _
  congr 1
  funext a
  match a with
  | ⟨0, _⟩ =>
    apply Fin.ext
    show (k0_off2 L) 0 + 1 * (y 0).val = ((dstW L).view.emb y 0).val
    rw [hrow, k0_off2_eq]; unfold rowOf; simp

/-! ## The task -/

/-- What the launch hands the subcore that starts at row `r`: those rows of the batch's keys and rewards, and of the
    two result buffers, the latter still at the old memory's contents. -/
def goRes (r : ℕ) : sProp 𝕄 :=
  iprop((a4Loc d ↦[rows512 16384 r]{fullShare} m (a4Loc d))
    ∗ (rKLoc d ↦[rows512 1000000 r]{fullShare} (m (a0Loc d) : Buf (Elt F) (rKLoc d)))
    ∗ (a6Loc d ↦[rows512 16384 r]{fullShare} m (a6Loc d))
    ∗ (rWLoc d ↦[rows512 1000000 r]{fullShare} (m (a2Loc d) : Buf (Elt F) (rWLoc d))))

/-- What it hands back: the same rows, the result buffers' at the append's function. -/
def tdRes (r : ℕ) : sProp 𝕄 :=
  iprop((a4Loc d ↦[rows512 16384 r]{fullShare} m (a4Loc d))
    ∗ (rKLoc d ↦[rows512 1000000 r]{fullShare} (Spec.over1 (m (a0Loc d)) (m (a4Loc d)) : Buf (Elt F) (rKLoc d)))
    ∗ (a6Loc d ↦[rows512 16384 r]{fullShare} m (a6Loc d))
    ∗ (rWLoc d ↦[rows512 1000000 r]{fullShare} (Spec.over1 (m (a2Loc d)) (m (a6Loc d)) : Buf (Elt F) (rWLoc d))))

instance goRes_storable (r : ℕ) : BI.Storable (upEmb : UEmb _ 𝕄) (goRes m d r) := by unfold goRes; infer_instance
instance tdRes_storable (r : ℕ) : BI.Storable (upEmb : UEmb _ 𝕄) (tdRes m d r) := by unfold tdRes; infer_instance

/-- The task on the vector subcore at grid position `L`: the keys' copy and its wait, the rewards' copy and its wait. -/
theorem tile_body [FloatOps F] (O : CellTallies nD τ sig (HIx 1)) (W : Waits sig (HIx 1)) (hO : ∀ g, O g none = 0) :
    (iprop(levAts (K (F := F)).L (K (F := F)).lev ∗ emp ∗ goRes m d (rowOf L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__scatter_small L a4W (Memref.isWhole_whole _) a6W (Memref.isWhole_whole _) rKW (Memref.isWhole_whole _) rWW (Memref.isWhole_whole _)
            rKW (Memref.isWhole_whole _) rWW (Memref.isWhole_whole _) cc0_scoped0 cc0_scoped1)
          fun _ => iprop(tdRes m d (rowOf L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__scatter_small_eq_skeleton]; unfold cc0__scatter_small_skel
  rw [SparseCore.Cfg.scopedSems0_V (Val := Elt F) d (cV L) (jV L), ownSems0_V]
  unfold goRes tdRes
  iintro ⟨#Hlv, -, ⟨HsK, HdK, HsW, HdW⟩, Hsb, ⟨Hsem0, Hsem1, Hsems⟩, HO⟩
  ihave Hmw := ((K (F := F)).mayWaits_none (thr := V d (cV L) (jV L)) hO) $$ Hlv
  ihave HsK' := (Entails.of_eq (pts_srcK (F := F) d L _).symm) $$ HsK
  ihave HdK' := (Entails.of_eq (pts_dstK (F := F) d L _).symm) $$ HdK
  ihave HsW' := (Entails.of_eq (pts_srcW (F := F) d L _).symm) $$ HsW
  ihave HdW' := (Entails.of_eq (pts_dstW (F := F) d L _).symm) $$ HdW
  sl_exec
  sl_unfold_run_names
  sl_step
  isplitl [HsK' HdK' HsW' HdW']
  · isplitl [HsK']
    · iapply (Entails.of_eq (pts_srcK (F := F) d L _)); iexact HsK'
    isplitl [HdK']
    · iapply (Entails.of_eq (pts_dstK (F := F) d L _))
      iapply (Entails.of_eq (pointsTo_congr (landedK m d L _))); iexact HdK'
    isplitl [HsW']
    · iapply (Entails.of_eq (pts_srcW (F := F) d L _)); iexact HsW'
    · iapply (Entails.of_eq (pts_dstW (F := F) d L _))
      iapply (Entails.of_eq (pointsTo_congr (landedW m d L _))); iexact HdW'
  isplitl [Hsb]; · iexact Hsb
  isplitl [Hsem0 Hsem1 Hsems]
  · isplitl [Hsem0]; · iexact Hsem0
    isplitl [Hsem1]; · iexact Hsem1
    iexact Hsems
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Cert.KernelIdeal.Hand

end
-- ==== Proof.KI.Split.lean ====
/-
  What the one SparseCore call carries, and each subcore's obligation.

  The call hands SparseCore c, for each of its sixteen subcores s, the 512 rows starting at row 1024·s + 512·c of the
  batch's keys and rewards and of the two result buffers, and takes the same rows back with the result buffers' rows at
  the append's function. A SparseCore's share is, by definition, the sixteen subcores' shares side by side, so dealing
  it to the tasks and collecting it again moves nothing.
-/
import proofs.«210822_g55980603736083_cont_9to1_m_1082_22_alg».proof.Proof.KI.Tile

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

/-- The first row of subcore `i` of SparseCore `c`. -/
def rowCI (c i : ℕ) : ℕ := 1024 * i + 512 * c

/-- The one call: per SparseCore the sixteen tasks' rows, per task its rows. -/
def P : (K (F := F)).Pay (nD := nD) (Val := Elt F) (Name := ℕ) (U := UU) where
  st := fun _ d c => bigSep Finset.univ fun i : Fin 16 => goRes m d (rowCI c.val i.val)
  dn := fun _ d c => bigSep Finset.univ fun i : Fin 16 => tdRes m d (rowCI c.val i.val)
  go := fun _ d c i => goRes m d (rowCI c.val i.val)
  td := fun _ d c i => tdRes m d (rowCI c.val i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- A SparseCore's share is its tasks' shares: dealt and collected as it stands. -/
theorem vecSplit : (K (F := F)).VecSplit' (P m) 0 := by
  intro d c
  show (bigSep Finset.univ fun i : Fin 16 => goRes m d (rowCI c.val i.val)) ⊢ |={Set.univ}=> iprop(
      (bigSep Finset.univ fun i : Fin 16 => goRes m d (rowCI c.val i.val))
      ∗ ((bigSep Finset.univ fun i : Fin 16 => tdRes m d (rowCI c.val i.val))
          -∗ (bigSep Finset.univ fun i : Fin 16 => tdRes m d (rowCI c.val i.val))))
  iintro H; imodintro
  isplitl [H]; · iexact H
  iintro H; iexact H

/-! ## The launch theorem's obligation for a task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__scatter_small (coordsV c s)
          a4W (Memref.isWhole_whole _) a6W (Memref.isWhole_whole _) rKW (Memref.isWhole_whole _) rWW (Memref.isWhole_whole _)
          rKW (Memref.isWhole_whole _) rWW (Memref.isWhole_whole _) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

end Cert.KernelIdeal.Hand

end
-- ==== Proof.KI.Rows.lean ====
/-
  The thirty-two row ranges.

  Subcore i of SparseCore c owns rows [512·(2i + c), 512·(2i + c) + 512): thirty-two consecutive ranges of 512 rows,
  pairwise disjoint, that together are rows 0 … 16383 — all of a batch array, and the low part of a memory array. A
  whole array held is therefore the ranges held one by one (and, for a memory array, the rows from 16384 on beside them).
-/
import proofs.«210822_g55980603736083_cont_9to1_m_1082_22_alg».proof.Proof.KI.Split

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (d : Dev nD)

theorem rows_disjoint (N : ℕ) : ∀ t ∈ (Finset.univ : Finset (Fin 2 × Fin 16)), ∀ t' ∈ (Finset.univ : Finset (Fin 2 × Fin 16)), t ≠ t' →
    Disjoint (rows512 N (rowCI t.1.val t.2.val)) (rows512 N (rowCI t'.1.val t'.2.val)) := by
  intro t _ t' _ h
  rw [Finset.disjoint_left]
  intro j hj hj'
  rw [mem_rows512] at hj hj'
  have hne : t.1.val ≠ t'.1.val ∨ t.2.val ≠ t'.2.val := by
    by_contra hh; rw [not_or, not_not, not_not] at hh; exact h (Prod.ext (Fin.ext hh.1) (Fin.ext hh.2))
  have h1 := t.1.isLt; have h2 := t.2.isLt; have h3 := t'.1.isLt; have h4 := t'.2.isLt
  unfold rowCI at hj hj'
  omega

/-- The ranges are all the rows of a batch array. -/
theorem rows_cover : (Finset.univ : Finset (Fin 2 × Fin 16)).biUnion (fun t => rows512 16384 (rowCI t.1.val t.2.val)) = Finset.univ := by
  ext j
  simp only [Finset.mem_biUnion, Finset.mem_univ, true_and, iff_true]
  have hr : (j 0).val < 16384 := (j 0).isLt
  refine ⟨(⟨(j 0).val / 512 % 2, by omega⟩, ⟨(j 0).val / 1024, by omega⟩), ?_⟩
  rw [mem_rows512]; unfold rowCI; dsimp only; omega

/-- Rows 0 … 16383 of a memory array. -/
def lowRows : Finset (⟨1, ![1000000]⟩ : Shape).Idx := Finset.univ.filter fun j => (j 0).val < 16384

theorem mem_lowRows (j : (⟨1, ![1000000]⟩ : Shape).Idx) : j ∈ lowRows ↔ (j 0).val < 16384 := by
  unfold lowRows; rw [Finset.mem_filter]; exact ⟨fun h => h.2, fun h => ⟨Finset.mem_univ _, h⟩⟩

/-- The ranges are the low rows of a memory array. -/
theorem rows_cover_low : (Finset.univ : Finset (Fin 2 × Fin 16)).biUnion (fun t => rows512 1000000 (rowCI t.1.val t.2.val)) = lowRows := by
  ext j
  simp only [Finset.mem_biUnion, Finset.mem_univ, true_and]
  rw [mem_lowRows]
  constructor
  · rintro ⟨t, h⟩
    rw [mem_rows512] at h; unfold rowCI at h
    have h1 := t.1.isLt; have h2 := t.2.isLt
    omega
  · intro hr
    refine ⟨(⟨(j 0).val / 512 % 2, by omega⟩, ⟨(j 0).val / 1024, by omega⟩), ?_⟩
    rw [mem_rows512]; unfold rowCI; dsimp only; omega

theorem split_a4 (f : Buf (Elt F) (a4Loc d)) :
    (bigSep Finset.univ fun c : Fin 2 => bigSep Finset.univ fun i : Fin 16 => (a4Loc d ↦[rows512 16384 (rowCI c.val i.val)]{fullShare} f : sProp 𝕄))
      = a4Loc d ↦[Finset.univ]{fullShare} f := by
  rw [← SparseCore.bigSep_product Finset.univ Finset.univ (fun t : Fin 2 × Fin 16 => (a4Loc d ↦[rows512 16384 (rowCI t.1.val t.2.val)]{fullShare} f : sProp 𝕄)),
    Finset.univ_product_univ,
    ← pointsTo_biUnion Finset.univ (ℓ := a4Loc d) (fun t : Fin 2 × Fin 16 => rows512 16384 (rowCI t.1.val t.2.val)) (rows_disjoint 16384)]
  exact congrArg (fun I => (a4Loc d ↦[I]{fullShare} f : sProp 𝕄)) rows_cover

theorem split_a6 (f : Buf (Elt F) (a6Loc d)) :
    (bigSep Finset.univ fun c : Fin 2 => bigSep Finset.univ fun i : Fin 16 => (a6Loc d ↦[rows512 16384 (rowCI c.val i.val)]{fullShare} f : sProp 𝕄))
      = a6Loc d ↦[Finset.univ]{fullShare} f := by
  rw [← SparseCore.bigSep_product Finset.univ Finset.univ (fun t : Fin 2 × Fin 16 => (a6Loc d ↦[rows512 16384 (rowCI t.1.val t.2.val)]{fullShare} f : sProp 𝕄)),
    Finset.univ_product_univ,
    ← pointsTo_biUnion Finset.univ (ℓ := a6Loc d) (fun t : Fin 2 × Fin 16 => rows512 16384 (rowCI t.1.val t.2.val)) (rows_disjoint 16384)]
  exact congrArg (fun I => (a6Loc d ↦[I]{fullShare} f : sProp 𝕄)) rows_cover

theorem split_rK (f : Buf (Elt F) (rKLoc d)) :
    (bigSep Finset.univ fun c : Fin 2 => bigSep Finset.univ fun i : Fin 16 => (rKLoc d ↦[rows512 1000000 (rowCI c.val i.val)]{fullShare} f : sProp 𝕄))
      = rKLoc d ↦[lowRows]{fullShare} f := by
  rw [← SparseCore.bigSep_product Finset.univ Finset.univ (fun t : Fin 2 × Fin 16 => (rKLoc d ↦[rows512 1000000 (rowCI t.1.val t.2.val)]{fullShare} f : sProp 𝕄)),
    Finset.univ_product_univ,
    ← pointsTo_biUnion Finset.univ (ℓ := rKLoc d) (fun t : Fin 2 × Fin 16 => rows512 1000000 (rowCI t.1.val t.2.val)) (rows_disjoint 1000000)]
  exact congrArg (fun I => (rKLoc d ↦[I]{fullShare} f : sProp 𝕄)) rows_cover_low

theorem split_rW (f : Buf (Elt F) (rWLoc d)) :
    (bigSep Finset.univ fun c : Fin 2 => bigSep Finset.univ fun i : Fin 16 => (rWLoc d ↦[rows512 1000000 (rowCI c.val i.val)]{fullShare} f : sProp 𝕄))
      = rWLoc d ↦[lowRows]{fullShare} f := by
  rw [← SparseCore.bigSep_product Finset.univ Finset.univ (fun t : Fin 2 × Fin 16 => (rWLoc d ↦[rows512 1000000 (rowCI t.1.val t.2.val)]{fullShare} f : sProp 𝕄)),
    Finset.univ_product_univ,
    ← pointsTo_biUnion Finset.univ (ℓ := rWLoc d) (fun t : Fin 2 × Fin 16 => rows512 1000000 (rowCI t.1.val t.2.val)) (rows_disjoint 1000000)]
  exact congrArg (fun I => (rWLoc d ↦[I]{fullShare} f : sProp 𝕄)) rows_cover_low

/-- A memory array held whole is its low rows and the rest. -/
theorem low_high (ℓ : Loc nD τ sig) (I : Finset (Idx ℓ)) (f : Buf (Elt F) ℓ) :
    (ℓ ↦{fullShare} f : sProp 𝕄) = iprop((ℓ ↦[I]{fullShare} f) ∗ ℓ ↦[Finset.univ \ I]{fullShare} f) := by
  have h : (ℓ ↦[Finset.univ]{fullShare} f : sProp 𝕄) ⊣⊢ iprop((ℓ ↦[I]{fullShare} f) ∗ ℓ ↦[Finset.univ \ I]{fullShare} f) :=
    pointsTo_split_subset (Finset.subset_univ I)
  exact BI.equiv_iff.mp ⟨h.1, h.2⟩

/-- The low rows at one function and the rest at another that agrees with it there: the whole array at the first. -/
theorem low_high_join (ℓ : Loc nD τ sig) (I : Finset (Idx ℓ)) (g f : Buf (Elt F) ℓ) (h : ∀ i ∉ I, f i = g i) :
    iprop((ℓ ↦[I]{fullShare} g) ∗ ℓ ↦[Finset.univ \ I]{fullShare} f) ⊢ (ℓ ↦{fullShare} g : sProp 𝕄) := by
  rw [pointsTo_congr (I := Finset.univ \ I) (f := f) (g := g) fun i hi => h i (Finset.mem_sdiff.mp hi).2, ← low_high]

end Cert.KernelIdeal.Hand

end
-- ==== Proof.KI.Host.lean ====
/-
  Host operations over explicitly held arrays.

  A host operation reads its operand arrays whole and overwrites its result array whole. Stated here for the three
  arities the program uses, over the arrays held one by one at named contents: after the operation the operands hold
  what they held and the result holds the operation's function of them.
-/
import proofs.«210822_g55980603736083_cont_9to1_m_1082_22_alg».proof.Proof.KI.Base

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.StableHlo (held wp_hlo_within)

/-- An array of device `d` held whole at `f`. -/
abbrev pl (d : Dev nD) (b : Ref sig .tc) (f : b.ty.Contents (Elt F)) : sProp 𝕄 := ((SparseCore.T d).loc b) ↦{fullShare} f

variable [FloatOps F] {Λ : Labels} (defs : Defs nD τ sig (Elt F) Λ) (d : Dev nD)

theorem held_pair (x y : Ref sig .tc) (hne : (Proc.devRef .tc x : DevRef τ sig) ≠ Proc.devRef .tc y) (W : Valuation τ sig (Elt F)) :
    (held (SparseCore.T d) ({Proc.devRef .tc x, Proc.devRef .tc y} : Finset (DevRef τ sig)) W : sProp 𝕄)
      = iprop(pl d x (W (Proc.devRef .tc x)) ∗ pl d y (W (Proc.devRef .tc y))) := by
  unfold held
  rw [SparseCore.bigSep_insert' (by rw [Finset.mem_singleton]; exact hne), bigSep_singleton]

theorem wp_unary_pl (Vb : Valuation τ sig (Elt F)) (x y : Ref sig .tc) (f : x.ty.Contents (Elt F) → y.ty.Contents (Elt F)) (hx) (hy)
    (hne : (Proc.devRef .tc x : DevRef τ sig) ≠ Proc.devRef .tc y)
    (fx : x.ty.Contents (Elt F)) (fy : y.ty.Contents (Elt F)) {α : Type} (k' : Prog (TpuEff nD τ sig (Elt F) Λ .tc) α) (Q : α → sProp 𝕄) :
    (iprop(boundary (SparseCore.T d) ∗ pl d x fx ∗ pl d y fy
        ∗ (iprop(boundary (SparseCore.T d) ∗ pl d x fx ∗ pl d y (f fx)) -∗ wp frame (wpE defs 𝒱 (SparseCore.T d) none) Set.univ k' Q)) : sProp 𝕄)
      ⊢ wp frame (wpE defs 𝒱 (SparseCore.T d) none) Set.univ (hlo rfl (StableHlo.unary x y f hx hy) (fun _ => k')) Q := by
  let V : Valuation τ sig (Elt F) := Function.update (Function.update Vb (Proc.devRef .tc x) fx) (Proc.devRef .tc y) fy
  have hVy : V (Proc.devRef .tc y) = fy := Function.update_self ..
  have hVx : V (Proc.devRef .tc x) = fx := (Function.update_of_ne hne ..).trans (Function.update_self ..)
  have hS : (StableHlo.unary (τ := τ) (Val := Elt F) x y f hx hy).bufs ⊆ ({Proc.devRef .tc x, Proc.devRef .tc y} : Finset (DevRef τ sig)) := fun _ h => h
  have hpre : (held (SparseCore.T d) ({Proc.devRef .tc x, Proc.devRef .tc y} : Finset (DevRef τ sig)) V : sProp 𝕄) = iprop(pl d x fx ∗ pl d y fy) := by
    rw [held_pair d x y hne, hVx, hVy]
  have hpost : (held (SparseCore.T d) ({Proc.devRef .tc x, Proc.devRef .tc y} : Finset (DevRef τ sig))
      ((StableHlo.unary (τ := τ) (Val := Elt F) x y f hx hy).result V) : sProp 𝕄) = iprop(pl d x fx ∗ pl d y (f fx)) := by
    rw [held_pair d x y hne, StableHlo.unary_result, hVx,
      (StableHlo.unary (τ := τ) (Val := Elt F) x y f hx hy).result_of_not_mem V (b := Proc.devRef .tc x)
        (show (Proc.devRef .tc x : DevRef τ sig) ∉ ({Proc.devRef .tc y} : Finset (DevRef τ sig)) by rw [Finset.mem_singleton]; exact hne), hVx]
  iintro ⟨Hb, Hx, Hy, Hk⟩
  iapply (wp_hlo_within 𝒱 (SparseCore.T d) none Set.univ (op := StableHlo.unary x y f hx hy) hS (V := V)) $$ [Hb Hx Hy]
  · isplitl [Hb]; · iexact Hb
    iapply (Entails.of_eq hpre.symm)
    isplitl [Hx]; · iexact Hx
    iexact Hy
  iintro ⟨Hb, Hh⟩
  ihave Hh' := (Entails.of_eq hpost) $$ Hh
  icases Hh' with ⟨Hx, Hy⟩
  iapply Hk
  isplitl [Hb]; · iexact Hb
  isplitl [Hx]; · iexact Hx
  iexact Hy

theorem wp_nullary_pl (Vb : Valuation τ sig (Elt F)) (y : Ref sig .tc) (v : y.ty.Contents (Elt F)) (hy)
    (fy : y.ty.Contents (Elt F)) {α : Type} (k' : Prog (TpuEff nD τ sig (Elt F) Λ .tc) α) (Q : α → sProp 𝕄) :
    (iprop(boundary (SparseCore.T d) ∗ pl d y fy
        ∗ (iprop(boundary (SparseCore.T d) ∗ pl d y v) -∗ wp frame (wpE defs 𝒱 (SparseCore.T d) none) Set.univ k' Q)) : sProp 𝕄)
      ⊢ wp frame (wpE defs 𝒱 (SparseCore.T d) none) Set.univ (hlo rfl (StableHlo.nullary y v hy) (fun _ => k')) Q := by
  let V : Valuation τ sig (Elt F) := Function.update Vb (Proc.devRef .tc y) fy
  have hVy : V (Proc.devRef .tc y) = fy := Function.update_self ..
  have hS : (StableHlo.nullary (τ := τ) (Val := Elt F) y v hy).bufs ⊆ ({Proc.devRef .tc y} : Finset (DevRef τ sig)) := fun _ h => h
  have hpre : (held (SparseCore.T d) ({Proc.devRef .tc y} : Finset (DevRef τ sig)) V : sProp 𝕄) = pl d y fy := by
    unfold held; rw [bigSep_singleton, hVy]
  have hpost : (held (SparseCore.T d) ({Proc.devRef .tc y} : Finset (DevRef τ sig))
      ((StableHlo.nullary (τ := τ) (Val := Elt F) y v hy).result V) : sProp 𝕄) = pl d y v := by
    unfold held; rw [bigSep_singleton, StableHlo.nullary_result]
  iintro ⟨Hb, Hy, Hk⟩
  iapply (wp_hlo_within 𝒱 (SparseCore.T d) none Set.univ (op := StableHlo.nullary y v hy) hS (V := V)) $$ [Hb Hy]
  · isplitl [Hb]; · iexact Hb
    iapply (Entails.of_eq hpre.symm); iexact Hy
  iintro ⟨Hb, Hh⟩
  ihave Hy := (Entails.of_eq hpost) $$ Hh
  iapply Hk
  isplitl [Hb]; · iexact Hb
  iexact Hy

theorem held_triple (a b y : Ref sig .tc) (hab : (Proc.devRef .tc a : DevRef τ sig) ≠ Proc.devRef .tc b)
    (hay : (Proc.devRef .tc a : DevRef τ sig) ≠ Proc.devRef .tc y) (hby : (Proc.devRef .tc b : DevRef τ sig) ≠ Proc.devRef .tc y)
    (W : Valuation τ sig (Elt F)) :
    (held (SparseCore.T d) ({Proc.devRef .tc a, Proc.devRef .tc b, Proc.devRef .tc y} : Finset (DevRef τ sig)) W : sProp 𝕄)
      = iprop(pl d a (W (Proc.devRef .tc a)) ∗ pl d b (W (Proc.devRef .tc b)) ∗ pl d y (W (Proc.devRef .tc y))) := by
  unfold held
  rw [SparseCore.bigSep_insert' (by rw [Finset.mem_insert, Finset.mem_singleton]; exact fun h => h.elim hab hay),
    SparseCore.bigSep_insert' (by rw [Finset.mem_singleton]; exact hby), bigSep_singleton]

theorem wp_binary_pl (Vb : Valuation τ sig (Elt F)) (a b y : Ref sig .tc)
    (f : a.ty.Contents (Elt F) → b.ty.Contents (Elt F) → y.ty.Contents (Elt F)) (ha) (hb) (hy)
    (hab : (Proc.devRef .tc a : DevRef τ sig) ≠ Proc.devRef .tc b)
    (hay : (Proc.devRef .tc a : DevRef τ sig) ≠ Proc.devRef .tc y) (hby : (Proc.devRef .tc b : DevRef τ sig) ≠ Proc.devRef .tc y)
    (fa : a.ty.Contents (Elt F)) (fb : b.ty.Contents (Elt F)) (fy : y.ty.Contents (Elt F))
    {α : Type} (k' : Prog (TpuEff nD τ sig (Elt F) Λ .tc) α) (Q : α → sProp 𝕄) :
    (iprop(boundary (SparseCore.T d) ∗ pl d a fa ∗ pl d b fb ∗ pl d y fy
        ∗ (iprop(boundary (SparseCore.T d) ∗ pl d a fa ∗ pl d b fb ∗ pl d y (f fa fb)) -∗ wp frame (wpE defs 𝒱 (SparseCore.T d) none) Set.univ k' Q)) : sProp 𝕄)
      ⊢ wp frame (wpE defs 𝒱 (SparseCore.T d) none) Set.univ (hlo rfl (StableHlo.binary a b y f ha hb hy) (fun _ => k')) Q := by
  let V : Valuation τ sig (Elt F) :=
    Function.update (Function.update (Function.update Vb (Proc.devRef .tc a) fa) (Proc.devRef .tc b) fb) (Proc.devRef .tc y) fy
  have hVy : V (Proc.devRef .tc y) = fy := Function.update_self ..
  have hVb : V (Proc.devRef .tc b) = fb := (Function.update_of_ne hby ..).trans (Function.update_self ..)
  have hVa : V (Proc.devRef .tc a) = fa := (Function.update_of_ne hay ..).trans ((Function.update_of_ne hab ..).trans (Function.update_self ..))
  have hS : (StableHlo.binary (τ := τ) (Val := Elt F) a b y f ha hb hy).bufs
      ⊆ ({Proc.devRef .tc a, Proc.devRef .tc b, Proc.devRef .tc y} : Finset (DevRef τ sig)) := fun _ h => h
  have hpre : (held (SparseCore.T d) ({Proc.devRef .tc a, Proc.devRef .tc b, Proc.devRef .tc y} : Finset (DevRef τ sig)) V : sProp 𝕄)
      = iprop(pl d a fa ∗ pl d b fb ∗ pl d y fy) := by
    rw [held_triple d a b y hab hay hby, hVa, hVb, hVy]
  have hnw : ∀ z : DevRef τ sig, z ≠ Proc.devRef .tc y → z ∉ ({Proc.devRef .tc y} : Finset (DevRef τ sig)) := fun z hz => by
    rw [Finset.mem_singleton]; exact hz
  have hpost : (held (SparseCore.T d) ({Proc.devRef .tc a, Proc.devRef .tc b, Proc.devRef .tc y} : Finset (DevRef τ sig))
      ((StableHlo.binary (τ := τ) (Val := Elt F) a b y f ha hb hy).result V) : sProp 𝕄) = iprop(pl d a fa ∗ pl d b fb ∗ pl d y (f fa fb)) := by
    rw [held_triple d a b y hab hay hby, StableHlo.binary_result, hVa, hVb,
      (StableHlo.binary (τ := τ) (Val := Elt F) a b y f ha hb hy).result_of_not_mem V (b := Proc.devRef .tc a) (hnw _ hay), hVa,
      (StableHlo.binary (τ := τ) (Val := Elt F) a b y f ha hb hy).result_of_not_mem V (b := Proc.devRef .tc b) (hnw _ hby), hVb]
  iintro ⟨Hb, Ha, Hbb, Hy, Hk⟩
  iapply (wp_hlo_within 𝒱 (SparseCore.T d) none Set.univ (op := StableHlo.binary a b y f ha hb hy) hS (V := V)) $$ [Hb Ha Hbb Hy]
  · isplitl [Hb]; · iexact Hb
    iapply (Entails.of_eq hpre.symm)
    isplitl [Ha]; · iexact Ha
    isplitl [Hbb]; · iexact Hbb
    iexact Hy
  iintro ⟨Hb, Hh⟩
  ihave Hh' := (Entails.of_eq hpost) $$ Hh
  icases Hh' with ⟨Ha, Hbb, Hy⟩
  iapply Hk
  isplitl [Hb]; · iexact Hb
  isplitl [Ha]; · iexact Ha
  isplitl [Hbb]; · iexact Hbb
  iexact Hy

end Cert.KernelIdeal.Hand

end
-- ==== Proof.KI.RegionValue.lean ====
/-
  The table's sixteen-column overwrite, seen through the transposes around the kernel.

  The kernel works on the transposed table (16 rows of 1000000 words) and the transposed batch (16 rows of 16384 words):
  it replaces columns `0 … 16383` of the first by the second. Transposing back gives the table with rows `0 … 16383`
  replaced by the batch's rows, column by column: a transpose by `[1, 0]` reads its operand at the swapped coordinates,
  so element `(r, c)` of the result is element `(c, r)` of the kernel's output, which is the batch's `(r, c)` when
  `r < 16384` and the table's `(r, c)` otherwise.
-/
import proofs.«210822_g55980603736083_cont_9to1_m_1082_22_alg».proof.Proof.Gen.KernelIdeal
import proofs.«210822_g55980603736083_cont_9to1_m_1082_22_alg».proof.Proof.Spec
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Facts₀

/-- Columns 0 … 16383 of the transposed table replaced by the transposed batch, the rest kept. -/
def regOut (X1 : (⟨2, ![16, 16384]⟩ : Shape).Idx → BitVec 32) (X3 : (⟨2, ![16, 1000000]⟩ : Shape).Idx → BitVec 32) :
    (⟨2, ![16, 1000000]⟩ : Shape).Idx → BitVec 32 :=
  fun i => if h : (i 1).val < 16384 then X1 (ValueIdx.ix2 (⟨(i 0).val, (i 0).isLt⟩ : Fin 16) (⟨(i 1).val, h⟩ : Fin 16384)) else X3 i

theorem regOut_lt (X1 : (⟨2, ![16, 16384]⟩ : Shape).Idx → BitVec 32) (X3 : (⟨2, ![16, 1000000]⟩ : Shape).Idx → BitVec 32)
    (i : (⟨2, ![16, 1000000]⟩ : Shape).Idx) (h : (i 1).val < 16384) :
    regOut X1 X3 i = X1 (ValueIdx.ix2 (⟨(i 0).val, (i 0).isLt⟩ : Fin 16) (⟨(i 1).val, h⟩ : Fin 16384)) := by
  unfold regOut; rw [dif_pos h]

theorem regOut_ge (X1 : (⟨2, ![16, 16384]⟩ : Shape).Idx → BitVec 32) (X3 : (⟨2, ![16, 1000000]⟩ : Shape).Idx → BitVec 32)
    (i : (⟨2, ![16, 1000000]⟩ : Shape).Idx) (h : ¬ (i 1).val < 16384) : regOut X1 X3 i = X3 i := by
  unfold regOut; rw [dif_neg h]

/-- The kernel's output transposed back is the specification's sixteen-column append. -/
theorem regOut_transposes (a1 : S1000000x16.Idx → BitVec 32) (a5 : S16384x16.Idx → BitVec 32) :
    transpose S1000000x16 [1, 0] (regOut (transpose S16x16384 [1, 0] a5 transposes_S16384x16_S16x16384_1_0) (transpose S16x1000000 [1, 0] a1 transposes_S1000000x16_S16x1000000_1_0)) transposes_S16x1000000_S1000000x16_1_0
      = Cert.Spec.over2 a1 a5 := by
  funext i
  rw [transpose_apply [1, 0] _ transposes_S16x1000000_S1000000x16_1_0 i
    (ix2 (⟨(i 1).val, (i 1).isLt⟩ : Fin 16) (⟨(i 0).val, (i 0).isLt⟩ : Fin 1000000))
    (by intro b; match b with | ⟨0, _⟩ => rfl | ⟨1, _⟩ => rfl)]
  by_cases h : (i 0).val < 16384
  · rw [Cert.Spec.over2_lt _ _ _ h, regOut_lt _ _ _ h]
    exact transpose_apply [1, 0] a5 transposes_S16384x16_S16x16384_1_0 _ _
      (by intro b; match b with | ⟨0, _⟩ => rfl | ⟨1, _⟩ => rfl)
  · rw [Cert.Spec.over2_ge _ _ _ h, regOut_ge _ _ _ h]
    exact transpose_apply [1, 0] a1 transposes_S1000000x16_S16x1000000_1_0 _ i
      (by intro b; match b with | ⟨0, _⟩ => rfl | ⟨1, _⟩ => rfl)

end Cert.KernelIdeal.Hand

end
-- ==== Proof.KI.RegionBody.lean ====
/-
  The pipelined TensorCore kernel of one grid point: its proof data and its body's obligation.

  The kernel has two windows. Window 0 reads the whole transposed batch (16 rows of 16384 words) as one block; window 1
  writes one block of the same shape back at block index (0, 0) of the transposed table (16 rows of 1000000 words). The
  table's width is not a multiple of the block's, so the window is of the kind whose edge blocks are cut, but at this
  block index the block lies inside the table and nothing is cut. The body loads the first staging buffer whole, loads the
  second (a value nothing uses), and stores what it loaded from the first, re-cast to its own shape — the same
  contents —, whole into the second. So after the body both staging buffers hold the batch block.
-/
import proofs.«210822_g55980603736083_cont_9to1_m_1082_22_alg».proof.Proof.KI.Base
import proofs.«210822_g55980603736083_cont_9to1_m_1082_22_alg».proof.Proof.KI.RegionValue
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type}
local notation "𝕄" => MT nD τ sig (HIx 1) (Elt F) ℕ UU ℕ

variable [FloatOps F]

abbrev adm : (p : Fin 1) → (pcfgs (F := F) p).Adm := fun p => (cfgs p).toPCfg_adm

/-- The batch block as window 0's one fetch reads it. -/
def xstg (X1 : IVec S16x16384 32) (t : Fin cfg1.N) : (cfg1.win 0).block.Idx → Elt F (cfg1.win 0).elt :=
  ((cfg1.win 0).blk t).view.read (Elt F) (X1 : Buf (Elt F) ((cfg1.win 0).arr.view.loc ((0 : Dev nD).tc : Thread nD τ)))

/-- The region's proof data: the two arrays at the contents handed in; after the body both staging buffers hold the
    batch block; no invariant; nothing owed; the recorded waits kept at or below level 8. -/
def dat1 (d : Dev nD) (X1 : IVec S16x16384 32) (X3 : IVec S16x1000000 32) : Pipeline.Dat τ (Elt F) (HIx 1) ℕ UU ℕ cfg1 d where
  A w := match w with
    | ⟨0, _⟩ => X1
    | ⟨1, _⟩ => X3
  after w t := match w with
    | ⟨0, _⟩ => xstg X1 t
    | ⟨1, _⟩ => xstg X1 t
  Φ _ := iprop(emp)
  q _ := fullShare
  owed _ := 0
  recorded _ := {p | (K (F := F)).lev (SparseCore.T d, p.1) p.2 ≤ 8}

theorem tr2 (i : grid1.Coords) (a : Fin 2) : cc1_transform_2 i a = 0 := by
  match a with
  | ⟨0, _⟩ => rfl
  | ⟨1, _⟩ => rfl

theorem clip1_1 (i : grid1.Coords) (a : Fin 2) : win1_1.clip i a = none := by
  show Pipeline.Clip.of (cc1_transform_2 i a) (S16x16384.size a) (S16x1000000.size a) = none
  rw [tr2]; unfold Pipeline.Clip.of
  match a with
  | ⟨0, _⟩ => exact if_pos (show (0 + 1) * 16 ≤ 16 by decide)
  | ⟨1, _⟩ => exact if_pos (show (0 + 1) * 16384 ≤ 1000000 by decide)

theorem before_0 (d : Dev nD) (X1 : IVec S16x16384 32) (X3 : IVec S16x1000000 32) (t : Fin cfg1.N) (dd) :
    (dat1 (F := F) d X1 X3).before (0 : Fin 2) t dd = xstg X1 t := by
  unfold Dat.before; rw [if_pos (fetch1_0 t)]; rfl

theorem before_1 (d : Dev nD) (X1 : IVec S16x16384 32) (X3 : IVec S16x1000000 32) (t : Fin cfg1.N) (dd) :
    (dat1 (F := F) d X1 X3).before (1 : Fin 2) t dd = dd :=
  Dat.before_out_reset _ (1 : Fin 2) rfl t (Or.inl (by rw [fin_N1 t]; rfl)) dd

/-- The kernel body on the two staging buffers: a whole load of the first, a dead whole load of the second, a whole
    store of the loaded block into the second. -/
theorem sound_body (d : Dev nD) (E : Set ℕ) (i : grid1.Coords) (s0 : Fin 1) (s1 : Fin 1)
    (Y0 Y1 : S16x16384.Idx → Elt F .i32) (Kk : PUnit → sProp 𝕄) :
    iprop((owns (T d : Thread nD τ) (stage1_0 s0) fullShare Y0 ∗ owns (T d : Thread nD τ) (stage1_1 s1) fullShare Y1)
          ∗ (iprop(owns (T d : Thread nD τ) (stage1_0 s0) fullShare Y0 ∗ owns (T d : Thread nD τ) (stage1_1 s1) fullShare Y0) -∗ Kk ⟨⟩))
      ⊢ wp frame (wpE (defs₀ (F := F)) 𝒱₀ (T d) none) E
          (cc1__pc_window_body i (stage1_0 s0) (hstage1_0 s0) (Memref.whole main_v2) (Memref.isWhole_whole _) (stage1_1 s1) (hstage1_1 s1)) Kk := by
  have hz : (![0, 0] : Fin 2 → Nat) = fun _ => 0 := funext fun a => by fin_cases a <;> rfl
  fin_cases s0 <;> fin_cases s1
  have hr0 : (Memref.whole cc1_stg0_0 : Memref sig .tc _ _ _).view.readAt (Elt F) (Rect.unit (s := S16x16384) ![0, 0] S16x16384.size
      inb_S16x16384_S16x16384_0_0).toLoadRect = id := funext (Memref.readAt_unit_zero (Elt F) cc1_stg0_0 hz _)
  have hw1 : ∀ f w, (((Memref.whole cc1_stg1_0).access (Rect.unit (s := S16x16384) ![0, 0] S16x16384.size inb_S16x16384_S16x16384_0_0)) :
      View sig .tc _ _ _).write (Elt F) f w Finset.univ = w := Memref.write_access_unit_zero_univ (Elt F) cc1_stg1_0 hz _
  simp only [owns_whole_eq, cc1__pc_window_body_eq_skeleton]; unfold cc1__pc_window_body_skel
  simp only [Prog.lift, Prog.bind_op, Prog.bind_ret]
  iintro ⟨⟨⟨%f0, %hf0, H0⟩, ⟨%f1, %hf1, H1⟩⟩, Hk⟩
  sl_steps
  iapply Hk
  rw [hr0, hw1]
  isplitl [H0]
  · iexists f0; isplitr; · ipureintro; exact hf0
    iexact H0
  · iexists k1_pay1 (id f0); isplitr
    · ipureintro; rw [← hf0]; exact shapeCast_self _ _
    iexact H1

/-- The library's body obligation from `sound_body` at the point's staging buffers: the first arrives holding the
    batch block just fetched, the second holding anything; the first leaves as it came and the second holding the same
    block, which is all the loose window's obligation asks of its moved part. -/
theorem body_obligation (d : Dev nD) (X1 : IVec S16x16384 32) (X3 : IVec S16x1000000 32) :
    BodyObligationLoose (dat1 (F := F) d X1 X3) (defs₀ (F := F)) 𝒱₀ (none : HIx 1) Set.univ := fun t => by
  rw [bigSep_W1, bigSep_W1]
  simp only
  rw [show (dat1 (F := F) d X1 X3).Φ t.succ = (dat1 (F := F) d X1 X3).Φ t.castSucc from rfl,
    show (dat1 (F := F) d X1 X3).owesAt none t.succ = (dat1 (F := F) d X1 X3).owesAt none t.castSucc from rfl]
  iintro ⟨HΦ, Ho, ⟨%d0, H0⟩, ⟨%d1, H1⟩⟩
  rw [before_0 d X1 X3 t d0, before_1 d X1 X3 t d1]
  iapply (sound_body (F := F) d Set.univ (grid1.coords t) (cfg1.slots t 0) (cfg1.slots t 1) (xstg X1 t) d1 _)
  isplitl [H0 H1]
  · isplitl [H0]
    · iexact H0
    · iexact H1
  iintro ⟨H0, H1⟩
  isplitl [HΦ]; · iexact HΦ
  isplitl [Ho]; · iexact Ho
  isplitl [H0]
  · iexact H0
  · iexists xstg X1 t
    change _ ⊢ owns (T d : Thread nD τ) (stage1_1 (cfg1.slots t 1)) fullShare (win1_1.fill (grid1.coords t) (xstg X1 t) (win1_1.cut (grid1.coords t) (xstg X1 t)))
    rw [win1_1.fill_cut]

end Cert.KernelIdeal.Hand

end
-- ==== Proof.KI.RegionSeg.lean ====
/-
  The pipelined kernel's region: what its arrays hold afterwards, and the region's step inside the SparseCore program.

  The pipeline has one grid point. It fetches the batch block, runs the body, and writes the second staging buffer's
  block back over block (0, 0) of the table. An element of either block sits in its array at its own coordinates (both
  block indices are zero), and the table's elements under the block are those of columns below 16384; so the table after
  the write-back holds the batch on those columns and its old contents elsewhere, and the batch array is untouched.
  The core owes nothing before, during and after the region; the only waits the pipeline records are on its own two
  staging semaphores at the index whose level is zero, so a bound of 8 on the levels of the recorded waits is kept.
  The region is entered from inside the larger program by running the inner call as a program of the smaller body table
  and lifting that proof.
-/
import proofs.«210822_g55980603736083_cont_9to1_m_1082_22_alg».proof.Proof.KI.Base
import proofs.«210822_g55980603736083_cont_9to1_m_1082_22_alg».proof.Proof.KI.RegionBody

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type}
local notation "𝕄" => MT nD τ sig (HIx 1) (Elt F) ℕ UU ℕ

variable [FloatOps F]

/-- The batch array is an input: after the region it holds what it held. -/
theorem arrAt_in0 (d : Dev nD) (X1 : IVec S16x16384 32) (X3 : IVec S16x1000000 32) :
    (dat1 (F := F) d X1 X3).arrAt (0 : Fin 2) cfg1.N = X1 :=
  (dat1 (F := F) d X1 X3).arrAt_in (0 : Fin 2) rfl _

theorem xsize1_1 (i : grid1.Coords) (a : Fin 2) : win1_1.xsize i a = S16x16384.size a := by
  unfold Window.xsize; rw [clip1_1]

theorem tr0 (i : grid1.Coords) (a : Fin 2) : cc1_transform_0 i a = 0 := by
  match a with
  | ⟨0, _⟩ => rfl
  | ⟨1, _⟩ => rfl

/-- An element of window 0's one block sits in the batch array at its own coordinates. -/
theorem emb0 (t : Fin cfg1.N) (z : (win1_0.xblock (grid1.coords t)).Idx) (a : Fin 2) :
    (((win1_0.blk t).view.emb z) a : ℕ) = (z a : ℕ) :=
  win1_0.rect_emb_val_of_index_zero t a (tr0 (grid1.coords t) a) z

/-- An element of window 1's one block sits in the table at its own coordinates. -/
theorem emb1 (t : Fin cfg1.N) (y : (win1_1.xblock (grid1.coords t)).Idx) (a : Fin 2) :
    (((win1_1.blk t).view.emb y) a : ℕ) = (y a : ℕ) :=
  win1_1.rect_emb_val_of_index_zero t a (tr2 (grid1.coords t) a) y

/-- The table's elements under window 1's one block are those of columns below 16384. -/
theorem mem_blk1 (t : Fin cfg1.N) (i : S16x1000000.Idx) : i ∈ (win1_1.blk t).view.set ↔ (i 1 : ℕ) < 16384 := by
  show i ∈ ((View.whole main_v3).slice (win1_1.rect t)).set ↔ _
  rw [View.set_slice_whole, Rect.mem_set_unit]
  have h0 : (i 0 : ℕ) < 16 := (i 0).isLt
  constructor
  · intro h
    have := (h 1).2
    rw [show win1_1.index t 1 = 0 from tr2 (grid1.coords t) 1, xsize1_1] at this
    have e : S16x16384.size 1 = 16384 := rfl
    rw [e] at this; omega
  · intro h a
    rw [show win1_1.index t a = 0 from tr2 (grid1.coords t) a, xsize1_1]
    match a with
    | ⟨0, _⟩ =>
      have e : S16x16384.size 0 = 16 := rfl
      show 0 * win1_1.size 0 ≤ (i 0 : ℕ) ∧ (i 0 : ℕ) < 0 * win1_1.size 0 + S16x16384.size 0
      rw [e]; omega
    | ⟨1, _⟩ =>
      have e : S16x16384.size 1 = 16384 := rfl
      show 0 * win1_1.size 1 ≤ (i 1 : ℕ) ∧ (i 1 : ℕ) < 0 * win1_1.size 1 + S16x16384.size 1
      rw [e]; omega

/-- The table after the one write-back: the block's columns hold the batch, the rest is unchanged. -/
theorem arrAt_out (d : Dev nD) (X1 : IVec S16x16384 32) (X3 : IVec S16x1000000 32) :
    (dat1 (F := F) d X1 X3).arrAt (1 : Fin 2) cfg1.N = regOut X1 X3 := by
  rw [show cfg1.N = t1_0.val + 1 from rfl, (dat1 (F := F) d X1 X3).arrAt_succ (1 : Fin 2) t1_0, if_pos (flush1_1 _)]
  funext i
  by_cases hi : i ∈ (win1_1.blk t1_0).view.set
  · have hcol : (i 1 : ℕ) < 16384 := (mem_blk1 t1_0 i).mp hi
    obtain ⟨y, rfl⟩ := View.exists_emb_of_mem_set _ hi
    rw [View.write_emb_of_mem _ _ (Finset.mem_univ y), regOut_lt _ _ _ hcol]
    show X1 ((win1_0.blk t1_0).view.emb (win1_1.xinj (grid1.coords t1_0) y)) = _
    congr 1
    funext a
    apply Fin.ext
    rw [emb0]
    match a with
    | ⟨0, _⟩ => exact (emb1 t1_0 y 0).symm
    | ⟨1, _⟩ => exact (emb1 t1_0 y 1).symm
  · rw [View.write_of_not_mem _ _ _ (by rwa [View.setOn_univ])]
    have hcol : ¬ (i 1 : ℕ) < 16384 := fun h => hi ((mem_blk1 t1_0 i).mpr h)
    rw [regOut_ge _ _ _ hcol]
    rfl

/-- The one pipeline's proof data on every core. -/
def pdats (X1 : IVec S16x16384 32) (X3 : IVec S16x1000000 32) :
    (p : Fin 1) → (c : Dev nD) → Pipeline.Dat τ (Elt F) (HIx 1) ℕ UU ℕ (Pipeline.pin (pcfgs (F := F)) adm p) c
  | 0 => fun c => dat1 c X1 X3

/-- The region's two arrays at contents `Fa` are the batch's and the table's buffers held whole. -/
theorem arrays1_eq (X1 : IVec S16x16384 32) (X3 : IVec S16x1000000 32) (c : Dev nD) (Fa) :
    ((pdats (F := F) X1 X3 0 c).arrays Fa : sProp 𝕄)
      = iprop(((T c : Thread nD τ).loc main_v1 ↦{fullShare} Fa 0) ∗ ((T c : Thread nD τ).loc main_v3 ↦{fullShare} Fa 1)) := by
  rw [Pipeline.arrays_eq (Pipeline.pin (pcfgs (F := F)) adm) (pdats X1 X3) 0 c launch1.arr_whole
    ((pdats X1 X3 0 c).share_full fun _ => rfl) Fa, bigSep_W1]

/-- THE REGION: the two arrays into the pipeline and out again, the core owing nothing throughout, its recorded waits
    kept at or below level 8. -/
def reg1 (X1 : IVec S16x16384 32) (X3 : IVec S16x1000000 32) :
    Pipeline.RegionSeg (pcfgs (F := F)) adm (pdats X1 X3) (none : HIx 1) defs₀ 𝒱₀ (K (F := F)).L (K (F := F)).lev (0 : Fin 1) where
  win := launch1.win.to₀
  block_pos := launch1.block_pos
  stage_whole := launch1.stage_whole
  K := PEmpty
  osem k := k.elim
  ho := Pipeline.OwnSemFacts.none _
  hbody c := body_obligation c X1 X3
  hwaits c := (show (levAts (K (F := F)).L (K (F := F)).lev : sProp 𝕄) ⊢ BI.emp from by iintro -; iempintro).trans
      (Pipeline.cellsWaits_of_owed_zero (Pipeline.pin (pcfgs (F := F)) adm) (pdats X1 X3) none 0 c fun _ => rfl)
  pre c := iprop(((T c : Thread nD τ).loc main_v1 ↦{fullShare} (X1 : Buf (Elt F) ((T c : Thread nD τ).loc main_v1)))
    ∗ ((T c : Thread nD τ).loc main_v3 ↦{fullShare} (X3 : Buf (Elt F) ((T c : Thread nD τ).loc main_v3)))
    ∗ ∃ W, ⌜(K (F := F)).WBelow (T c) W 8⌝ ∗ owes (T c : Thread nD τ) (0 : CellTallies nD τ sig (HIx 1)) W)
  post c := iprop(((T c : Thread nD τ).loc main_v1 ↦{fullShare} (X1 : Buf (Elt F) ((T c : Thread nD τ).loc main_v1)))
    ∗ ((T c : Thread nD τ).loc main_v3 ↦{fullShare} (regOut X1 X3 : Buf (Elt F) ((T c : Thread nD τ).loc main_v3)))
    ∗ ∃ W, ⌜(K (F := F)).WBelow (T c) W 8⌝ ∗ owes (T c : Thread nD τ) (0 : CellTallies nD τ sig (HIx 1)) W)
  X _ := iprop(emp)
  Y _ := iprop(emp)
  Z _ := iprop(emp)
  hentry c := by
    rw [Pipeline.ownSems0_none, arrays1_eq]
    iintro ⟨⟨H1, H3, %W, %hW, HO⟩, -, -⟩
    imodintro
    isplitl [H1 H3]
    · isplitl [H1]; · iexact H1
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [Pipeline.ownSems0_none, scopedRest1_eq]
    iintro -; isplitr; · iempintro
    isplitr <;> iempintro
  hexit c := by
    rw [arrays1_eq, show (pdats (F := F) X1 X3 0 c).arrAt 0 (Pipeline.pin (pcfgs (F := F)) adm 0).N = X1 from arrAt_in0 c X1 X3,
      show (pdats (F := F) X1 X3 0 c).arrAt 1 (Pipeline.pin (pcfgs (F := F)) adm 0).N = regOut X1 X3 from arrAt_out c X1 X3]
    iintro ⟨⟨H1, H3⟩, HO, -, -⟩
    imodintro
    isplitl [H1]; · iexact H1
    isplitl [H3]; · iexact H3
    unfold Pipeline.Dat.owesAt Pipeline.owesWithin
    icases HO with ⟨%W, %hW, HO⟩; iexists W
    isplitr
    · ipureintro
      intro p hp
      rcases hW hp with h | ⟨w, s, rfl⟩
      · exact h
      · exact (le_of_eq ((K (F := F)).lev_none _)).trans (Nat.zero_le 8)
    iexact HO

set_option backward.isDefEq.respectTransparency.types false in
/-- The region inside the SparseCore program: the inner call of pipeline 0's entry runs from the two arrays, the core
    owing nothing with its recorded waits at or below level 8, the level facts and the pipeline's launch ghost state, to
    the table overwritten on columns below 16384 by the batch, the batch unchanged, and the core owing nothing under the
    same bound. -/
theorem region_wp [∀ e, Nonempty (Elt F e)] (d : Dev nD) (X1 : Buf (Elt F) ((T d : Thread nD τ).loc main_v1))
    (X3 : Buf (Elt F) ((T d : Thread nD τ).loc main_v3))
    (W₀ : Waits sig (HIx 1)) (hW₀ : (K (F := F)).WBelow (T d) W₀ 8) {α : Type}
    (k : PUnit → Prog (TpuEff nD τ sig (Elt F) (SparseCore.Sig (ΛP (F := F)) 1) .tc) α) (Q : α → sProp 𝕄) :
    (iprop((iprop(boundary (T d : Thread nD τ) ∗ ((T d : Thread nD τ).loc main_v1 ↦{fullShare} X1)
              ∗ ((T d : Thread nD τ).loc main_v3 ↦{fullShare} (regOut X1 X3 : Buf (Elt F) ((T d : Thread nD τ).loc main_v3)))
              ∗ ∃ W, ⌜(K (F := F)).WBelow (T d) W 8⌝ ∗ owes (T d : Thread nD τ) (0 : CellTallies nD τ sig (HIx 1)) W)
            -∗ wp frame (wpE ((K (F := F)).defs (D (F := F))) 𝒱 (T d) none) Set.univ (k ⟨⟩) Q)
        ∗ boundary (T d : Thread nD τ) ∗ ((T d : Thread nD τ).loc main_v1 ↦{fullShare} X1) ∗ ((T d : Thread nD τ).loc main_v3 ↦{fullShare} X3)
        ∗ owes (T d : Thread nD τ) (0 : CellTallies nD τ sig (HIx 1)) W₀
        ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄)
      ⊢ wp frame (wpE ((K (F := F)).defs (D (F := F))) 𝒱 (T d) none) Set.univ
          (.op (.customCall (SparseCore.inner (Pipeline.entry 0)) ()) k) Q := by
  have hprog : (Prog.op (TpuEff.customCall (SparseCore.inner (Pipeline.entry (0 : Fin 1))) ()) k
        : Prog (TpuEff nD τ sig (Elt F) (SparseCore.Sig (ΛP (F := F)) 1) .tc) α)
      = (SparseCore.liftProg (Q := 1) (Prog.op (TpuEff.customCall (Pipeline.entry (0 : Fin 1)) ()) Prog.ret
          : Prog (TpuEff nD τ sig (Elt F) (ΛP (F := F)) .tc) PUnit) >>= k) := rfl
  rw [hprog, wp_bind]
  refine BIBase.Entails.trans ?_ ((K (F := F)).wp_liftProg (D (F := F)) 𝒱 (T d) Set.univ none _ _)
  refine BIBase.Entails.trans ?_ (Pipeline.RegionSeg.wp (pcfgs (F := F)) adm (pdats X1 X3) (none : HIx 1) cellOf_inj EP defs₀ 𝒱₀
    (K (F := F)).L (K (F := F)).lev (reg1 X1 X3) d none (fun u hu => nomatch hu) (fun u => Prog.ret u) _)
  dsimp only [reg1]
  iintro ⟨Hk, Hb, H1, H3, HO, Hlev, Hg, Ht⟩
  isplitl [Hk]
  · iintro ⟨Hb, H1, H3, HW⟩
    rw [wp_ret]; imodintro
    iapply Hk
    isplitl [Hb]; · iexact Hb
    isplitl [H1]; · iexact H1
    isplitl [H3]; · iexact H3
    iexact HW
  isplitl [Hb]; · iexact Hb
  isplitl [H1 H3 HO]
  · isplitl [H1]; · iexact H1
    isplitl [H3]; · iexact H3
    iexists W₀; isplitr; · ipureintro; exact hW₀
    iexact HO
  isplitl [Hlev]; · iexact Hlev
  isplitl [Hg]; · iexact Hg
  iexact Ht

end Cert.KernelIdeal.Hand

end
-- ==== Proof.KI.Main.lean ====
/-
  The launch element, @main on the TensorCore, and the program's run.

  @main, line by line: the keys' and rewards' memory arrays are copied into result buffers; the SparseCore call hands
  the thirty-two row ranges of the batch and of the result buffers to the subcores (the result buffers' rows from 16384 on
  stay with the TensorCore) and gets them back with rows 0 … 16383 at the batch's rows — together with the kept rows the
  whole result buffers at the append's function; the batch's and the memory's candidate tables are transposed, the latter
  copied into the pipelined kernel's result buffer, the kernel overwrites its columns 0 … 16383 by the transposed batch,
  and the result is transposed back; the counter moves on by 16384. Every argument array ends as it began.
-/
import proofs.«210822_g55980603736083_cont_9to1_m_1082_22_alg».proof.Proof.KI.Rows
import proofs.«210822_g55980603736083_cont_9to1_m_1082_22_alg».proof.Proof.KI.Host
import proofs.«210822_g55980603736083_cont_9to1_m_1082_22_alg».proof.Proof.KI.RegionSeg

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ) (ρ : Dev nD → PrngReg)
variable [FloatOps F]

/-! ## The launch element: the handshakes' rounds, the pipeline's staging cells, the counters -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

/-- What the launch deals a device's TensorCore for the pipelined kernel: its staging cells' ghost state and duty tokens. -/
abbrev Gd (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP0, -⟩
  ihave HP := (Entails.of_eq (show (BI.own (((Emb.inl : Emb UP (UP × Counters)).trans (embR : Emb (UP × Counters) 𝕄))
      (initOf (Pipeline.cells (Pipeline.pin (pcfgs (F := F)) adm) cellOf_inj) (Pipeline.launchToks (Pipeline.pin (pcfgs (F := F)) adm) cellOf_inj))) : sProp 𝕄)
    = BI.own ((EP (F := F)) (initOf (Pipeline.cells (Pipeline.pin (pcfgs (F := F)) adm) cellOf_inj) (Pipeline.launchToks (Pipeline.pin (pcfgs (F := F)) adm) cellOf_inj))) from rfl)) $$ HP0
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]
    · ihave Hg' := (Entails.of_eq (bigSep_congr fun c _ => bigSep_univ_of_subsingleton (0 : Fin 1))) $$ Hg
      iexact Hg'
    · ihave Ht' := (Entails.of_eq (bigSep_congr fun c _ => bigSep_univ_of_subsingleton (0 : Fin 1))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop(pl d main_arg0 (W main_arg0) ∗ pl d main_arg1 (W main_arg1) ∗ pl d main_arg2 (W main_arg2) ∗ pl d main_arg3 (W main_arg3) ∗ pl d main_arg4 (W main_arg4) ∗ pl d main_arg5 (W main_arg5) ∗ pl d main_arg6 (W main_arg6) ∗ pl d main_v0_0 (W main_v0_0) ∗ pl d main_v0_1 (W main_v0_1) ∗ pl d main_v1 (W main_v1) ∗ pl d main_v2 (W main_v2) ∗ pl d main_v3 (W main_v3) ∗ pl d main_c (W main_c) ∗ pl d main_v4 (W main_v4) ∗ pl d main_v5 (W main_v5)) := by
  unfold unscopedBufs
  rw [bigSep_eq_bigSepL_of_eq [main_arg0, main_arg1, main_arg2, main_arg3, main_arg4, main_arg5, main_arg6, main_v0_0, main_v0_1, main_v1, main_v2, main_v3, main_c, main_v4, main_v5] (by decide) (by decide)]
  rfl

/-- The launch contents as a valuation (only a base for the host operations' lemmas; nothing reads it). -/
def V0 (d : Dev nD) : Valuation τ sig (Elt F) := fun b => m (d, b)

theorem Otc_one (d : Dev nD) : (K (F := F)).Otc d 1 = 0 := by
  unfold SparseCore.Cfg.Otc
  exact Finset.sum_eq_zero fun q _ => if_neg (by have := q.isLt; omega)

/-- After its one call the TensorCore owes nothing: its `owes` can be lent out and put back. -/
theorem tcSt_owes (d : Dev nD) :
    ((K (F := F)).tcSt EH d 1 : sProp 𝕄)
      ⊢ iprop((∃ W, ⌜(K (F := F)).WBelow (SparseCore.T d) W (8 * 1)⌝ ∗ owes (SparseCore.T d) (0 : CellTallies nD τ sig (HIx 1)) W)
          ∗ ((∃ W, ⌜(K (F := F)).WBelow (SparseCore.T d) W (8 * 1)⌝ ∗ owes (SparseCore.T d) (0 : CellTallies nD τ sig (HIx 1)) W)
              -∗ (K (F := F)).tcSt EH d 1)) := by
  unfold SparseCore.Cfg.tcSt
  rw [Otc_one]
  iintro ⟨HO, Hrest⟩
  isplitl [HO]; · iexact HO
  iintro HO
  isplitl [HO]; · iexact HO
  iexact Hrest

/-- The append's results on device `d`. -/
abbrev GK (d : Dev nD) : Buf (Elt F) (rKLoc d) := Spec.over1 (m (a0Loc d)) (m (a4Loc d))
abbrev GW (d : Dev nD) : Buf (Elt F) (rWLoc d) := Spec.over1 (m (a2Loc d)) (m (a6Loc d))

/-- A SparseCore call's payload, array by array. -/
theorem st0_eq (d : Dev nD) : (bigSep Finset.univ fun c : Fin ((K (F := F)).nCore 0) => (P m).st 0 d c)
    = iprop((bigSep Finset.univ fun c : Fin 2 => bigSep Finset.univ fun i : Fin 16 => (a4Loc d ↦[rows512 16384 (rowCI c.val i.val)]{fullShare} m (a4Loc d) : sProp 𝕄))
        ∗ (bigSep Finset.univ fun c : Fin 2 => bigSep Finset.univ fun i : Fin 16 => (rKLoc d ↦[rows512 1000000 (rowCI c.val i.val)]{fullShare} (m (a0Loc d) : Buf (Elt F) (rKLoc d)) : sProp 𝕄))
        ∗ (bigSep Finset.univ fun c : Fin 2 => bigSep Finset.univ fun i : Fin 16 => (a6Loc d ↦[rows512 16384 (rowCI c.val i.val)]{fullShare} m (a6Loc d) : sProp 𝕄))
        ∗ (bigSep Finset.univ fun c : Fin 2 => bigSep Finset.univ fun i : Fin 16 => (rWLoc d ↦[rows512 1000000 (rowCI c.val i.val)]{fullShare} (m (a2Loc d) : Buf (Elt F) (rWLoc d)) : sProp 𝕄))) := by
  show (bigSep Finset.univ fun c : Fin 2 => bigSep Finset.univ fun i : Fin 16 => goRes m d (rowCI c.val i.val)) = _
  unfold goRes
  simp only [bigSep_sep']

theorem dn0_eq (d : Dev nD) : (bigSep Finset.univ fun c : Fin ((K (F := F)).nCore 0) => (P m).dn 0 d c)
    = iprop((bigSep Finset.univ fun c : Fin 2 => bigSep Finset.univ fun i : Fin 16 => (a4Loc d ↦[rows512 16384 (rowCI c.val i.val)]{fullShare} m (a4Loc d) : sProp 𝕄))
        ∗ (bigSep Finset.univ fun c : Fin 2 => bigSep Finset.univ fun i : Fin 16 => (rKLoc d ↦[rows512 1000000 (rowCI c.val i.val)]{fullShare} GK m d : sProp 𝕄))
        ∗ (bigSep Finset.univ fun c : Fin 2 => bigSep Finset.univ fun i : Fin 16 => (a6Loc d ↦[rows512 16384 (rowCI c.val i.val)]{fullShare} m (a6Loc d) : sProp 𝕄))
        ∗ (bigSep Finset.univ fun c : Fin 2 => bigSep Finset.univ fun i : Fin 16 => (rWLoc d ↦[rows512 1000000 (rowCI c.val i.val)]{fullShare} GW m d : sProp 𝕄))) := by
  show (bigSep Finset.univ fun c : Fin 2 => bigSep Finset.univ fun i : Fin 16 => tdRes m d (rowCI c.val i.val)) = _
  unfold tdRes
  simp only [bigSep_sep']

abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-- The transposed batch and the transposed table, as @main computes them. -/
abbrev X1 (d : Dev nD) : Buf (Elt F) (v1Loc d) :=
  transpose S16x16384 [1, 0] (m (a5Loc d)) transposes_S16384x16_S16x16384_1_0
abbrev X3 (d : Dev nD) : Buf (Elt F) (v3Loc d) :=
  id (transpose S16x1000000 [1, 0] (m (a1Loc d)) transposes_S1000000x16_S16x1000000_1_0 : Buf (Elt F) (v2Loc d))

omit [FloatOps F] in
/-- From row 16384 on the append's function is the old memory. -/
theorem hiK (d : Dev nD) : ∀ i ∉ lowRows, (id (m (a0Loc d)) : Buf (Elt F) (rKLoc d)) i = GK m d i :=
  fun i hi => (Spec.over1_ge _ _ i (by rwa [mem_lowRows] at hi)).symm
omit [FloatOps F] in
theorem hiW (d : Dev nD) : ∀ i ∉ lowRows, (id (m (a2Loc d)) : Buf (Elt F) (rWLoc d)) i = GW m d i :=
  fun i hi => (Spec.over1_ge _ _ i (by rwa [mem_lowRows] at hi)).symm

/-- What @main leaves the claim: the four results and the seven arguments. -/
def FIN (d : Dev nD) : sProp 𝕄 :=
  iprop(pl d main_v0_0 (GK m d)
    ∗ pl d main_v5 (transpose S1000000x16 [1, 0] (regOut (X1 m d) (X3 m d) : Buf (Elt F) (v3Loc d)) transposes_S16x1000000_S1000000x16_1_0)
    ∗ pl d main_v0_1 (GW m d)
    ∗ pl d main_v4 (addi (m (a3Loc d)) (constantI S_ 32 16384#32))
    ∗ pl d main_arg0 (m (a0Loc d)) ∗ pl d main_arg1 (m (a1Loc d)) ∗ pl d main_arg2 (m (a2Loc d)) ∗ pl d main_arg3 (m (a3Loc d))
    ∗ pl d main_arg4 (m (a4Loc d)) ∗ pl d main_arg5 (m (a5Loc d)) ∗ pl d main_arg6 (m (a6Loc d)))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure, Prog.lift]
  iintro ⟨#Hctx, Hst, ⟨Hb, ⟨H0, H1, H2, H3, H4, H5, H6, HrK, HrW, Hv1, Hv2, Hv3, Hc, Hv4, Hv5⟩, -, -⟩, ⟨Hcg, Htk⟩⟩
  -- the keys' memory copied into its result buffer
  iapply (wp_unary_pl ((K (F := F)).defs (D (F := F))) d (V0 m d) main_arg0 main_v0_0 _ _ _ (by decide) _ _ _ _)
  isplitl [Hb]; · iexact Hb
  isplitl [H0]; · iexact H0
  isplitl [HrK]; · iexact HrK
  iintro ⟨Hb, H0, HrK⟩
  rw [wp_ret]; imodintro
  -- the rewards' memory copied into its result buffer
  iapply (wp_unary_pl ((K (F := F)).defs (D (F := F))) d (V0 m d) main_arg2 main_v0_1 _ _ _ (by decide) _ _ _ _)
  isplitl [Hb]; · iexact Hb
  isplitl [H2]; · iexact H2
  isplitl [HrW]; · iexact HrW
  iintro ⟨Hb, H2, HrW⟩
  rw [wp_ret]; imodintro
  -- the SparseCore call: the row ranges out, and back at the append's function
  ihave H4s := (Entails.of_eq (split_a4 (F := F) d _).symm) $$ H4
  ihave H6s := (Entails.of_eq (split_a6 (F := F) d _).symm) $$ H6
  ihave HrK2 := (Entails.of_eq (low_high (F := F) (rKLoc d) lowRows _)) $$ HrK
  icases HrK2 with ⟨HrKlo, HrKhi⟩
  ihave HrKs := (Entails.of_eq (split_rK (F := F) d _).symm) $$ HrKlo
  ihave HrW2 := (Entails.of_eq (low_high (F := F) (rWLoc d) lowRows _)) $$ HrW
  icases HrW2 with ⟨HrWlo, HrWhi⟩
  ihave HrWs := (Entails.of_eq (split_rW (F := F) d _).symm) $$ HrWlo
  iapply ((K (F := F)).wp_run (D (F := F)) 𝒱 (EH := EH) (P := P m) κ d 0)
  isplitr; · iexact Hctx
  isplitl [Hst]; · iexact Hst
  isplitl [H4s HrKs H6s HrWs]
  · rw [st0_eq]
    isplitl [H4s]; · iexact H4s
    isplitl [HrKs]; · iexact HrKs
    isplitl [H6s]; · iexact H6s
    iexact HrWs
  iintro ⟨Hst, Hdn⟩
  ihave Hdn' := (Entails.of_eq (dn0_eq m d)) $$ Hdn
  icases Hdn' with ⟨H4s, HrKs, H6s, HrWs⟩
  ihave H4 := (Entails.of_eq (split_a4 (F := F) d _)) $$ H4s
  ihave H6 := (Entails.of_eq (split_a6 (F := F) d _)) $$ H6s
  ihave HrKlo := (Entails.of_eq (split_rK (F := F) d _)) $$ HrKs
  ihave HrWlo := (Entails.of_eq (split_rW (F := F) d _)) $$ HrWs
  ihave HrK := (low_high_join (F := F) (rKLoc d) lowRows (GK m d) _ (hiK m d)) $$ [HrKlo HrKhi]
  · isplitl [HrKlo]; · iexact HrKlo
    iexact HrKhi
  ihave HrW := (low_high_join (F := F) (rWLoc d) lowRows (GW m d) _ (hiW m d)) $$ [HrWlo HrWhi]
  · isplitl [HrWlo]; · iexact HrWlo
    iexact HrWhi
  -- the batch's candidates transposed
  iapply (wp_unary_pl ((K (F := F)).defs (D (F := F))) d (V0 m d) main_arg5 main_v1 _ _ _ (by decide) _ _ _ _)
  isplitl [Hb]; · iexact Hb
  isplitl [H5]; · iexact H5
  isplitl [Hv1]; · iexact Hv1
  iintro ⟨Hb, H5, Hv1⟩
  rw [wp_ret]; imodintro
  -- the memory's candidates transposed
  iapply (wp_unary_pl ((K (F := F)).defs (D (F := F))) d (V0 m d) main_arg1 main_v2 _ _ _ (by decide) _ _ _ _)
  isplitl [Hb]; · iexact Hb
  isplitl [H1]; · iexact H1
  isplitl [Hv2]; · iexact Hv2
  iintro ⟨Hb, H1, Hv2⟩
  rw [wp_ret]; imodintro
  -- and copied into the pipelined kernel's result buffer
  iapply (wp_unary_pl ((K (F := F)).defs (D (F := F))) d (V0 m d) main_v2 main_v3 _ _ _ (by decide) _ _ _ _)
  isplitl [Hb]; · iexact Hb
  isplitl [Hv2]; · iexact Hv2
  isplitl [Hv3]; · iexact Hv3
  iintro ⟨Hb, Hv2, Hv3⟩
  rw [wp_ret]; imodintro
  -- the pipelined kernel, the TensorCore's owes lent to it
  ihave Hst1 := (Entails.of_eq (show ((K (F := F)).tcSt EH d ((0 : Fin 1).val + 1) : sProp 𝕄) = (K (F := F)).tcSt EH d 1 from rfl)) $$ Hst
  ihave Hso := (tcSt_owes (F := F) d) $$ Hst1
  icases Hso with ⟨⟨%W₀, %hW₀, HO⟩, Hback⟩
  ihave Hlev := (SparseCore.Cfg.ctx_levAts κ) $$ Hctx
  iapply (region_wp (F := F) d (X1 m d) (X3 m d) W₀ hW₀ _ _)
  isplitr [Hb Hv1 Hv3 HO Hlev Hcg Htk]
  swap
  · isplitl [Hb]; · iexact Hb
    isplitl [Hv1]; · iexact Hv1
    isplitl [Hv3]; · iexact Hv3
    isplitl [HO]; · iexact HO
    isplitl [Hlev]; · iexact Hlev
    isplitl [Hcg]; · iexact Hcg
    iexact Htk
  iintro ⟨Hb, Hv1, Hv3, HO⟩
  ihave Hst := Hback $$ HO
  rw [wp_ret]; imodintro
  -- the counter
  iapply (wp_nullary_pl ((K (F := F)).defs (D (F := F))) d (V0 m d) main_c _ _ _ _ _)
  isplitl [Hb]; · iexact Hb
  isplitl [Hc]; · iexact Hc
  iintro ⟨Hb, Hc⟩
  rw [wp_ret]; imodintro
  iapply (wp_binary_pl ((K (F := F)).defs (D (F := F))) d (V0 m d) main_arg3 main_c main_v4 _ _ _ _ (by decide) (by decide) (by decide) _ _ _ _ _)
  isplitl [Hb]; · iexact Hb
  isplitl [H3]; · iexact H3
  isplitl [Hc]; · iexact Hc
  isplitl [Hv4]; · iexact Hv4
  iintro ⟨Hb, H3, Hc, Hv4⟩
  rw [wp_ret]; imodintro
  -- the kernel's result transposed back
  iapply (wp_unary_pl ((K (F := F)).defs (D (F := F))) d (V0 m d) main_v3 main_v5 _ _ _ (by decide) _ _ _ _)
  isplitl [Hb]; · iexact Hb
  isplitl [Hv3]; · iexact Hv3
  isplitl [Hv5]; · iexact Hv5
  iintro ⟨Hb, Hv3, Hv5⟩
  rw [wp_ret]; imodintro
  imodintro
  isplitl [Hst]; · iexact Hst
  unfold FIN
  isplitl [HrK]; · iexact HrK
  isplitl [Hv5]; · iexact Hv5
  isplitl [HrW]; · iexact HrW
  isplitl [Hv4]; · iexact Hv4
  isplitl [H0]; · iexact H0
  isplitl [H1]; · iexact H1
  isplitl [H2]; · iexact H2
  isplitl [H3]; · iexact H3
  isplitl [H4]; · iexact H4
  isplitl [H5]; · iexact H5
  iexact H6

abbrev v4Loc (d : Dev nD) : Loc nD τ sig := (SparseCore.T d).loc main_v4
abbrev v5Loc (d : Dev nD) : Loc nD τ sig := (SparseCore.T d).loc main_v5

/-- What the final memory of device `d` holds: the four results and the seven arguments. -/
def fq (d : Dev nD) (s' : Phys nD τ sig (Elt F)) : Prop :=
  s'.mem.mem (rKLoc d) = GK m d
  ∧ s'.mem.mem (v5Loc d) = (transpose S1000000x16 [1, 0] (regOut (X1 m d) (X3 m d) : Buf (Elt F) (v3Loc d)) transposes_S16x1000000_S1000000x16_1_0 : Buf (Elt F) (v5Loc d))
  ∧ s'.mem.mem (rWLoc d) = GW m d
  ∧ s'.mem.mem (v4Loc d) = (addi (m (a3Loc d)) (constantI S_ 32 16384#32) : Buf (Elt F) (v4Loc d))
  ∧ s'.mem.mem (a0Loc d) = m (a0Loc d)
  ∧ s'.mem.mem (a1Loc d) = m (a1Loc d)
  ∧ s'.mem.mem (a2Loc d) = m (a2Loc d)
  ∧ s'.mem.mem (a3Loc d) = m (a3Loc d)
  ∧ s'.mem.mem (a4Loc d) = m (a4Loc d)
  ∧ s'.mem.mem (a5Loc d) = m (a5Loc d)
  ∧ s'.mem.mem (a6Loc d) = m (a6Loc d)

theorem hfin (d : Dev nD) (s' : Phys nD τ sig (Elt F)) : iprop(FIN m d ∗ SI s') ⊢ (⌜fq m d s'⌝ : sProp 𝕄) := by
  unfold FIN
  iintro ⟨⟨HK, H5v, HW, H4v, H0, H1, H2, H3, H4, H5, H6⟩, HSI⟩
  ihave H := (persistent_entails_right (SI_pointsTo_agree (st := s') (ℓ := rKLoc d) (I := Finset.univ) (q := fullShare) (f := GK m d))) $$ [HSI HK]
  · isplitl [HSI] <;> iassumption
  icases H with ⟨%h0, HSI, -⟩
  ihave H := (persistent_entails_right (SI_pointsTo_agree (st := s') (ℓ := v5Loc d) (I := Finset.univ) (q := fullShare) (f := (transpose S1000000x16 [1, 0] (regOut (X1 m d) (X3 m d) : Buf (Elt F) (v3Loc d)) transposes_S16x1000000_S1000000x16_1_0 : Buf (Elt F) (v5Loc d))))) $$ [HSI H5v]
  · isplitl [HSI] <;> iassumption
  icases H with ⟨%h1, HSI, -⟩
  ihave H := (persistent_entails_right (SI_pointsTo_agree (st := s') (ℓ := rWLoc d) (I := Finset.univ) (q := fullShare) (f := GW m d))) $$ [HSI HW]
  · isplitl [HSI] <;> iassumption
  icases H with ⟨%h2, HSI, -⟩
  ihave H := (persistent_entails_right (SI_pointsTo_agree (st := s') (ℓ := v4Loc d) (I := Finset.univ) (q := fullShare) (f := (addi (m (a3Loc d)) (constantI S_ 32 16384#32) : Buf (Elt F) (v4Loc d))))) $$ [HSI H4v]
  · isplitl [HSI] <;> iassumption
  icases H with ⟨%h3, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h4, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h5, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h6, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h7, HSI, -⟩
  ihave H := (persistent_entails_right (SI_pointsTo_agree (st := s') (ℓ := a4Loc d) (I := Finset.univ) (q := fullShare) (f := m (a4Loc d)))) $$ [HSI H4]
  · isplitl [HSI] <;> iassumption
  icases H with ⟨%h8, HSI, -⟩
  ihave H := (persistent_entails_right (SI_pointsTo_agree (st := s') (ℓ := a5Loc d) (I := Finset.univ) (q := fullShare) (f := m (a5Loc d)))) $$ [HSI H5]
  · isplitl [HSI] <;> iassumption
  icases H with ⟨%h9, HSI, -⟩
  ihave H := (SI_pointsTo_agree (st := s') (ℓ := a6Loc d) (I := Finset.univ) (q := fullShare) (f := m (a6Loc d))) $$ [HSI H6]
  · isplitl [HSI] <;> iassumption
  icases H with %h10
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i)⟩

/-! ## The program's run -/

def QC : PUnit × MemSt nD τ sig (Elt F) → Prop := fun r => ∀ d : Dev nD,
  r.2.mem (rKLoc d) = GK m d
  ∧ r.2.mem (v5Loc d) = (transpose S1000000x16 [1, 0] (regOut (X1 m d) (X3 m d) : Buf (Elt F) (v3Loc d)) transposes_S16x1000000_S1000000x16_1_0 : Buf (Elt F) (v5Loc d))
  ∧ r.2.mem (rWLoc d) = GW m d
  ∧ r.2.mem (v4Loc d) = (addi (m (a3Loc d)) (constantI S_ 32 16384#32) : Buf (Elt F) (v4Loc d))
  ∧ r.2.mem (a0Loc d) = m (a0Loc d)
  ∧ r.2.mem (a1Loc d) = m (a1Loc d)
  ∧ r.2.mem (a2Loc d) = m (a2Loc d)
  ∧ r.2.mem (a3Loc d) = m (a3Loc d)
  ∧ r.2.mem (a4Loc d) = m (a4Loc d)
  ∧ r.2.mem (a5Loc d) = m (a5Loc d)
  ∧ r.2.mem (a6Loc d) = m (a6Loc d)

/-- Every weakly fair execution of the device's threads terminates, nothing faulting, with the four results at the append's
    functions of the arguments and the arguments unchanged. -/
theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

end Cert.KernelIdeal.Hand

end
-- ==== Proof.RefRun.lean ====
/-
  The reference program's @main as one straight line of host operations, and its run.

  @main calls the outlined function `remainder` once, which itself calls `_where`; a call means the callee's body on the
  call's own buffers, so unfolding the two definitions at their call sites leaves a single chain of 54 operations.
  For such a line every weakly fair execution terminates with every buffer at the fold of the operations' results over the
  launch contents.
-/
import proofs.«210822_g55980603736083_cont_9to1_m_1082_22_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two callees' operations listed at the call site over the call's buffers. -/
abbrev ops : List (HloOp τ sig (Elt F)) :=
  [ nullary main_v0 (iotaInDim S16384 32 0),
    unary main_arg3 main_v1 (broadcastInDim S16384 ![] bcast_S_S16384 : (⟨S_, .i32⟩ : BufTy).Contents (Elt F) → (⟨S16384, .i32⟩ : BufTy).Contents (Elt F)),
    binary main_v1 main_v0 main_v2 (addi : (⟨S16384, .i32⟩ : BufTy).Contents (Elt F) → (⟨S16384, .i32⟩ : BufTy).Contents (Elt F) → (⟨S16384, .i32⟩ : BufTy).Contents (Elt F)),
    nullary main_c (constantI S_ 32 1000000#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S16384 ![] bcast_S_S16384),
    TRef.binary (.of main_v2) main_call0.v3 main_call0.v4 Host.remsi,
    TRef.nullary main_call0.c_1 (constantI S_ 32 0#32),
    TRef.unary main_call0.c_1 main_call0.v5 (broadcastInDim S16384 ![] bcast_S_S16384),
    TRef.binary main_call0.v4 main_call0.v5 main_call0.v6 (cmpi .ne),
    TRef.nullary main_call0.c_2 (constantI S_ 32 0#32),
    TRef.unary main_call0.c_2 main_call0.v7 (broadcastInDim S16384 ![] bcast_S_S16384),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S16384 ![] bcast_S_S16384),
    TRef.binary main_call0.v8 main_call0.v10 main_call0.v11 (cmpi .ne),
    TRef.binary main_call0.v11 main_call0.v6 main_call0.v12 andi,
    TRef.unary main_call0.call0.v0 main_call0.v13 (broadcastInDim S16384 ![] bcast_S_S16384),
    TRef.binary main_call0.v4 main_call0.v13 main_call0.v14 addi,
    TRef.ternary main_call0.v12 main_call0.v14 main_call0.v4 main_call0.v15 select,
    nullary main_c_0 (constantI S_ 32 0#32),
    unary main_c_0 main_v4 (broadcastInDim S16384 ![] bcast_S_S16384 : (⟨S_, .i32⟩ : BufTy).Contents (Elt F) → (⟨S16384, .i32⟩ : BufTy).Contents (Elt F)),
    binary main_v3 main_v4 main_v5 (cmpi .slt : (⟨S16384, .i32⟩ : BufTy).Contents (Elt F) → (⟨S16384, .i32⟩ : BufTy).Contents (Elt F) → (⟨S16384, .i1⟩ : BufTy).Contents (Elt F)),
    nullary main_c_1 (constantI S_ 32 1000000#32),
    unary main_c_1 main_v6 (broadcastInDim S16384 ![] bcast_S_S16384 : (⟨S_, .i32⟩ : BufTy).Contents (Elt F) → (⟨S16384, .i32⟩ : BufTy).Contents (Elt F)),
    binary main_v3 main_v6 main_v7 (addi : (⟨S16384, .i32⟩ : BufTy).Contents (Elt F) → (⟨S16384, .i32⟩ : BufTy).Contents (Elt F) → (⟨S16384, .i32⟩ : BufTy).Contents (Elt F)),
    ternary main_v5 main_v7 main_v3 main_v8 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v8 main_v9 (broadcastInDim S16384x1 ![0] bcast_S16384_S16384x1_0 : (⟨S16384, .i32⟩ : BufTy).Contents (Elt F) → (⟨S16384x1, .i32⟩ : BufTy).Contents (Elt F)),
    ternary main_arg0 main_v9 main_arg4 main_v10 ((fun x i u => Host.scatter scatter_S1000000_S16384x1_S16384_n_0_0_1 (fun _ b => b) x i u) : (⟨S1000000, .i32⟩ : BufTy).Contents (Elt F) → (⟨S16384x1, .i32⟩ : BufTy).Contents (Elt F) → (⟨S16384, .i32⟩ : BufTy).Contents (Elt F) → (⟨S1000000, .i32⟩ : BufTy).Contents (Elt F)),
    nullary main_c_2 (constantI S_ 32 0#32),
    unary main_c_2 main_v11 (broadcastInDim S16384 ![] bcast_S_S16384 : (⟨S_, .i32⟩ : BufTy).Contents (Elt F) → (⟨S16384, .i32⟩ : BufTy).Contents (Elt F)),
    binary main_v3 main_v11 main_v12 (cmpi .slt : (⟨S16384, .i32⟩ : BufTy).Contents (Elt F) → (⟨S16384, .i32⟩ : BufTy).Contents (Elt F) → (⟨S16384, .i1⟩ : BufTy).Contents (Elt F)),
    nullary main_c_3 (constantI S_ 32 1000000#32),
    unary main_c_3 main_v13 (broadcastInDim S16384 ![] bcast_S_S16384 : (⟨S_, .i32⟩ : BufTy).Contents (Elt F) → (⟨S16384, .i32⟩ : BufTy).Contents (Elt F)),
    binary main_v3 main_v13 main_v14 (addi : (⟨S16384, .i32⟩ : BufTy).Contents (Elt F) → (⟨S16384, .i32⟩ : BufTy).Contents (Elt F) → (⟨S16384, .i32⟩ : BufTy).Contents (Elt F)),
    ternary main_v12 main_v14 main_v3 main_v15 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v15 main_v16 (broadcastInDim S16384x1 ![0] bcast_S16384_S16384x1_0 : (⟨S16384, .i32⟩ : BufTy).Contents (Elt F) → (⟨S16384x1, .i32⟩ : BufTy).Contents (Elt F)),
    ternary main_arg1 main_v16 main_arg5 main_v17 ((fun x i u => Host.scatter scatter_S1000000x16_S16384x1_S16384x16_1_0_0_1 (fun _ b => b) x i u) : (⟨S1000000x16, .i32⟩ : BufTy).Contents (Elt F) → (⟨S16384x1, .i32⟩ : BufTy).Contents (Elt F) → (⟨S16384x16, .i32⟩ : BufTy).Contents (Elt F) → (⟨S1000000x16, .i32⟩ : BufTy).Contents (Elt F)),
    nullary main_c_4 (constantI S_ 32 0#32),
    unary main_c_4 main_v18 (broadcastInDim S16384 ![] bcast_S_S16384 : (⟨S_, .i32⟩ : BufTy).Contents (Elt F) → (⟨S16384, .i32⟩ : BufTy).Contents (Elt F)),
    binary main_v3 main_v18 main_v19 (cmpi .slt : (⟨S16384, .i32⟩ : BufTy).Contents (Elt F) → (⟨S16384, .i32⟩ : BufTy).Contents (Elt F) → (⟨S16384, .i1⟩ : BufTy).Contents (Elt F)),
    nullary main_c_5 (constantI S_ 32 1000000#32),
    unary main_c_5 main_v20 (broadcastInDim S16384 ![] bcast_S_S16384 : (⟨S_, .i32⟩ : BufTy).Contents (Elt F) → (⟨S16384, .i32⟩ : BufTy).Contents (Elt F)),
    binary main_v3 main_v20 main_v21 (addi : (⟨S16384, .i32⟩ : BufTy).Contents (Elt F) → (⟨S16384, .i32⟩ : BufTy).Contents (Elt F) → (⟨S16384, .i32⟩ : BufTy).Contents (Elt F)),
    ternary main_v19 main_v21 main_v3 main_v22 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v22 main_v23 (broadcastInDim S16384x1 ![0] bcast_S16384_S16384x1_0 : (⟨S16384, .i32⟩ : BufTy).Contents (Elt F) → (⟨S16384x1, .i32⟩ : BufTy).Contents (Elt F)),
    ternary main_arg2 main_v23 main_arg6 main_v24 ((fun x i u => Host.scatter scatter_S1000000_S16384x1_S16384_n_0_0_1 (fun _ b => b) x i u) : (⟨S1000000, .f32⟩ : BufTy).Contents (Elt F) → (⟨S16384x1, .i32⟩ : BufTy).Contents (Elt F) → (⟨S16384, .f32⟩ : BufTy).Contents (Elt F) → (⟨S1000000, .f32⟩ : BufTy).Contents (Elt F)),
    nullary main_c_6 (constantI S_ 32 16384#32),
    binary main_arg3 main_c_6 main_v25 (addi : (⟨S_, .i32⟩ : BufTy).Contents (Elt F) → (⟨S_, .i32⟩ : BufTy).Contents (Elt F) → (⟨S_, .i32⟩ : BufTy).Contents (Elt F)) ]

set_option maxRecDepth 2048 in
/-- @main is that line: the callees' definitions unfolded at their calls, sequencing reassociated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub ..⟩

/-- From any memory with zero counters every weakly fair execution of @main terminates, and every buffer ends at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRaw.lean ====
/-
  What the reference's result buffers hold after its line of operations, as pure functions of the argument contents.

  `rowsOf cnt` is the table of start indices the three scatters share: the counter broadcast and added to `0 … 16383`, reduced
  modulo 1000000 by the outlined `remainder` (the divisor select, the host remainder, the sign fix-up), the negative-index
  fix-up, and the broadcast to one column. Each result is then the overwriting scatter of the batch into the memory at those
  rows; the counter's successor is the counter plus 16384. The equations with the fold `after ops` are by computation: the
  fold unrolled, each operation's result decided at the buffer read, the typed references' casts the identity.
-/
import proofs.«210822_g55980603736083_cont_9to1_m_1082_22_alg».proof.Proof.RefRun

noncomputable section

namespace Cert.ReferenceIdeal.RefRaw

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The outlined `remainder(x, c)`: `x mod c'` with the divisor `c' = (c == 0 ? 1 : c)` and the sign of the divisor. -/
def remainderFn (x : IVec S16384 32) (c : IVec S_ 32) : IVec S16384 32 :=
  let v0 : IVec S_ 32 := id c
  let v1 : IVec S_ 1 := cmpi .eq v0 (constantI S_ 32 0#32)
  let v2 : IVec S_ 32 := select v1 (constantI S_ 32 1#32) v0
  let v3 : IVec S16384 32 := broadcastInDim S16384 ![] bcast_S_S16384 v2
  let v4 : IVec S16384 32 := Host.remsi x v3
  let v5 : IVec S16384 32 := broadcastInDim S16384 ![] bcast_S_S16384 (constantI S_ 32 0#32)
  let v6 : IVec S16384 1 := cmpi .ne v4 v5
  let v7 : IVec S16384 32 := broadcastInDim S16384 ![] bcast_S_S16384 (constantI S_ 32 0#32)
  let v8 : IVec S16384 1 := cmpi .slt v4 v7
  let v9 : IVec S_ 1 := cmpi .slt v2 (constantI S_ 32 0#32)
  let v10 : IVec S16384 1 := broadcastInDim S16384 ![] bcast_S_S16384 v9
  let v11 : IVec S16384 1 := cmpi .ne v8 v10
  let v12 : IVec S16384 1 := andi v11 v6
  let v13 : IVec S16384 32 := broadcastInDim S16384 ![] bcast_S_S16384 v2
  let v14 : IVec S16384 32 := addi v4 v13
  select v12 v14 v4

/-- The rows the batch is written at: `(cnt + iota) mod 1000000`, a negative one moved up by 1000000. -/
def rowVec (cnt : IVec S_ 32) : IVec S16384 32 :=
  let v2 : IVec S16384 32 := addi (broadcastInDim S16384 ![] bcast_S_S16384 cnt) (iotaInDim S16384 32 0)
  let v3 : IVec S16384 32 := remainderFn v2 (constantI S_ 32 1000000#32)
  let v4 : IVec S16384 32 := broadcastInDim S16384 ![] bcast_S_S16384 (constantI S_ 32 0#32)
  let v5 : IVec S16384 1 := cmpi .slt v3 v4
  let v6 : IVec S16384 32 := broadcastInDim S16384 ![] bcast_S_S16384 (constantI S_ 32 1000000#32)
  let v7 : IVec S16384 32 := addi v3 v6
  select v5 v7 v3

/-- The same rows as the one-column table of start indices the scatters read. -/
def rowsOf (cnt : IVec S_ 32) : IVec S16384x1 32 :=
  broadcastInDim S16384x1 ![0] bcast_S16384_S16384x1_0 (rowVec cnt)

/-- Result 0: the keys' memory with the batch written at those rows. -/
def out0 (a0 : IVec S1000000 32) (cnt : IVec S_ 32) (a4 : IVec S16384 32) : IVec S1000000 32 :=
  Host.scatter scatter_S1000000_S16384x1_S16384_n_0_0_1 (fun _ b => b) a0 (rowsOf cnt) a4
/-- Result 1: the candidates' memory, sixteen words a row. -/
def out1 (a1 : IVec S1000000x16 32) (cnt : IVec S_ 32) (a5 : IVec S16384x16 32) : IVec S1000000x16 32 :=
  Host.scatter scatter_S1000000x16_S16384x1_S16384x16_1_0_0_1 (fun _ b => b) a1 (rowsOf cnt) a5
/-- Result 2: the rewards' memory. -/
def out2 (a2 : FVec F S1000000 .f32) (cnt : IVec S_ 32) (a6 : FVec F S16384 .f32) : FVec F S1000000 .f32 :=
  Host.scatter scatter_S1000000_S16384x1_S16384_n_0_0_1 (fun _ b => b) a2 (rowsOf cnt) a6
/-- Result 3: the counter moved on by the batch size. -/
def out3 (cnt : IVec S_ 32) : IVec S_ 32 := addi cnt (constantI S_ 32 16384#32)

attribute [local irreducible] Host.scatter Host.remsi in
set_option maxRecDepth 8192 in
set_option maxHeartbeats 800000 in
theorem v10_eq (V : Valuation τ sig (Elt F)) :
    after ops V (main_v10 : DevRef τ sig)
      = out0 (V (main_arg0 : DevRef τ sig)) (V (main_arg3 : DevRef τ sig)) (V (main_arg4 : DevRef τ sig)) := by
  after_results_simp
  rfl

attribute [local irreducible] Host.scatter Host.remsi in
set_option maxRecDepth 8192 in
set_option maxHeartbeats 800000 in
theorem v17_eq (V : Valuation τ sig (Elt F)) :
    after ops V (main_v17 : DevRef τ sig)
      = out1 (V (main_arg1 : DevRef τ sig)) (V (main_arg3 : DevRef τ sig)) (V (main_arg5 : DevRef τ sig)) := by
  after_results_simp
  rfl

attribute [local irreducible] Host.scatter Host.remsi in
set_option maxRecDepth 8192 in
set_option maxHeartbeats 800000 in
theorem v24_eq (V : Valuation τ sig (Elt F)) :
    after ops V (main_v24 : DevRef τ sig)
      = out2 (F := F) (V (main_arg2 : DevRef τ sig)) (V (main_arg3 : DevRef τ sig)) (V (main_arg6 : DevRef τ sig)) := by
  after_results_simp
  rfl

attribute [local irreducible] Host.scatter Host.remsi in
set_option maxRecDepth 8192 in
set_option maxHeartbeats 800000 in
theorem v25_eq (V : Valuation τ sig (Elt F)) :
    after ops V (main_v25 : DevRef τ sig)
      = out3 (V (main_arg3 : DevRef τ sig)) := by
  after_results_simp
  rfl

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

set_option maxRecDepth 8192 in
theorem arg3_eq (V : Valuation τ sig (Elt F)) :
    after ops V (main_arg3 : DevRef τ sig) = V (main_arg3 : DevRef τ sig) := by
  after_results_simp

set_option maxRecDepth 8192 in
theorem arg4_eq (V : Valuation τ sig (Elt F)) :
    after ops V (main_arg4 : DevRef τ sig) = V (main_arg4 : DevRef τ sig) := by
  after_results_simp

set_option maxRecDepth 8192 in
theorem arg5_eq (V : Valuation τ sig (Elt F)) :
    after ops V (main_arg5 : DevRef τ sig) = V (main_arg5 : DevRef τ sig) := by
  after_results_simp

set_option maxRecDepth 8192 in
theorem arg6_eq (V : Valuation τ sig (Elt F)) :
    after ops V (main_arg6 : DevRef τ sig) = V (main_arg6 : DevRef τ sig) := by
  after_results_simp

end Cert.ReferenceIdeal.RefRaw

end
-- ==== Proof.LibScatterSet.lean ====
/-
  A scatter whose body returns the update, read at one index of the result.

  `Host.scatter d f x idx upd` is the left fold, over the update indices in row-major order, of the step "if this update's
  result index is inside the operand, replace that one element by `f` of it and the update's element". When `f` returns the
  update (`fun _ b => b`: an overwrite) a result element is decided by the updates that land on it alone:

  * if no update lands on `i`, the result at `i` is the operand's element (`scatter_set_miss`);
  * if update `j` lands on `i` and no other update does, the result at `i` is `upd j` (`scatter_set_hit`).

  Both are instances of two facts about a left fold of pointwise overwrites (`foldl_untouched`, `foldl_written_once`),
  proved by induction on the list. Nothing here evaluates the fold: the update space stays symbolic.
-/
import Idealize.ShloMosaic.PureOps

namespace Cert.LibScatterSet

open Idealize.ShloMosaic

section Fold

variable {ι κ α : Type}

/-- A fold of steps none of which changes the value at `i` leaves the value at `i`. -/
theorem foldl_untouched (φ : (κ → α) → ι → (κ → α)) (i : κ) :
    ∀ (l : List ι) (r : κ → α), (∀ n ∈ l, ∀ r', φ r' n i = r' i) → l.foldl φ r i = r i
  | [], _, _ => rfl
  | a :: t, r, h => by
    rw [List.foldl_cons, foldl_untouched φ i t (φ r a) fun n hn => h n (List.mem_cons_of_mem _ hn)]
    exact h a List.mem_cons_self r

/-- A fold in which the step `n₀` sets the value at `i` to `c`, whatever was there, and no other step of the list changes
    the value at `i`, ends with `c` at `i`. -/
theorem foldl_written_once (φ : (κ → α) → ι → (κ → α)) (i : κ) (n₀ : ι) (c : α) (hset : ∀ r', φ r' n₀ i = c) :
    ∀ (l : List ι) (r : κ → α), n₀ ∈ l → (∀ n ∈ l, n ≠ n₀ → ∀ r', φ r' n i = r' i) → l.foldl φ r i = c
  | [], _, hmem, _ => absurd hmem List.not_mem_nil
  | a :: t, r, hmem, h => by
    rw [List.foldl_cons]
    by_cases ht : n₀ ∈ t
    · exact foldl_written_once φ i n₀ c hset t (φ r a) ht fun n hn => h n (List.mem_cons_of_mem _ hn)
    · have ha : a = n₀ := by
        rcases List.mem_cons.mp hmem with e | e
        · exact e.symm
        · exact absurd e ht
      rw [foldl_untouched φ i t (φ r a) fun n hn => h n (List.mem_cons_of_mem _ hn) (fun e => ht (e ▸ hn)), ha]
      exact hset r

end Fold

section Scatter

variable {s si u : Shape} {α : Type} {w : Nat}

/-- An overwriting scatter at an index no update lands on: the operand's element. -/
theorem scatter_set_miss (d : ScatterDims s si u) (x : s.Idx → α) (idx : IVec si w) (upd : u.Idx → α) (i : s.Idx)
    (hno : ∀ j, d.resultIdx? j idx ≠ some i) :
    Host.scatter d (fun _ b => b) x idx upd i = x i := by
  unfold Host.scatter
  refine foldl_untouched _ i _ x ?_
  intro n _ r'
  dsimp only
  generalize h : d.resultIdx? (u.rowMajor.symm n) idx = o
  cases o with
  | none => rfl
  | some i₀ =>
    have hne : i ≠ i₀ := fun e => hno _ (e ▸ h)
    exact if_neg hne

/-- An overwriting scatter at an index exactly one update lands on: that update's element. -/
theorem scatter_set_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  unfold Host.scatter
  refine foldl_written_once _ i (u.rowMajor j) (upd j) ?_ _ x (List.mem_finRange _) ?_
  · intro r'
    simp only [Equiv.symm_apply_apply, hj, if_true]
  · intro n _ hn r'
    dsimp only
    generalize h : d.resultIdx? (u.rowMajor.symm n) idx = o
    cases o with
    | none => rfl
    | some i₀ =>
      have hne : i ≠ i₀ := by
        intro e
        subst e
        exact hn ((Equiv.symm_apply_eq _).mp (huniq _ h))
      exact if_neg hne

end Scatter

end Cert.LibScatterSet
-- ==== Proof.RefIdx.lean ====
/-
  The reference's results at the zero counter, index by index.

  With the counter word zero the start rows are `0 … 16383` themselves: `0 + r = r`, `r mod 1000000 = r` because
  `r < 16384`, the remainder's sign fix-up and the negative-index fix-up both select the unchanged row because `r` is
  not negative. For the two dimension records of the program the result index of update `j` is then row `j 0` (and, for
  the sixteen-column table, column `j 1`): the start is read at the table's entry `(j 0, 0)`, the window coordinate is
  `0` on the inserted row axis and `j 1` on the column axis. Distinct updates land on distinct elements and every
  update lands inside, so the overwriting scatter is the batch on rows below 16384 and the memory elsewhere.
-/
import proofs.«210822_g55980603736083_cont_9to1_m_1082_22_alg».proof.Proof.RefRaw
import proofs.«210822_g55980603736083_cont_9to1_m_1082_22_alg».proof.Proof.LibScatterSet
import proofs.«210822_g55980603736083_cont_9to1_m_1082_22_alg».proof.Proof.Spec
import Idealize.ShloMosaic.Lib.ValueIdx
import Idealize.ShloMosaic.Lib.Affine

noncomputable section

namespace Cert.ReferenceIdeal.RefIdx

open Cert.ReferenceIdeal Cert.ReferenceIdeal.Gen Idealize.ShloMosaic Idealize.ShloMosaic.ValueIdx
open Cert.ReferenceIdeal.RefRaw Cert.LibScatterSet

/-! ## The start rows at the zero counter -/

/-- The host remainder of a word below 16384 by 1000000 is the word. -/
theorem remsi_small (b : BitVec 32) (hb : b.toNat < 16384) : IntOp.remsi .host b 1000000#32 = b := by
  apply BitVec.eq_of_toNat_eq
  rw [show (1000000#32 : BitVec 32) = BitVec.ofNat 32 1000000 from rfl,
    IntOp.toNat_remsi .host (by omega) 1000000 (by omega) (by omega)]
  exact Nat.mod_eq_of_lt (by omega)

/-- A word below 16384 is not negative. -/
theorem slt_zero_small (b : BitVec 32) (hb : b.toNat < 16384) : IntOp.cmpi .slt b 0#32 = 0#1 := by
  apply eq_zero_of_ne_one
  rw [IntOp.cmpi_slt, BitVec.toInt_eq_toNat_of_lt (by omega)]
  simp

/-- The outlined remainder by 1000000 leaves an element below 16384 as it is. -/
theorem remainderFn_small (x : IVec S16384 32) (i : S16384.Idx) (hx : (x i).toNat < 16384) :
    remainderFn x (constantI S_ 32 1000000#32) i = x i := by
  have hc : Scalar.select (IntOp.cmpi .eq (1000000#32) (0#32)) (1#32) (1000000#32) = 1000000#32 := by decide
  have h9 : IntOp.cmpi .slt (1000000#32) (0#32) = 0#1 := by decide
  have hne : IntOp.cmpi .ne (0#1) (0#1) = 0#1 := by decide
  have hand : ∀ y : BitVec 1, IntOp.andi 0#1 y = 0#1 := by decide
  simp only [remainderFn, select, cmpi, andi, addi, Host.remsi, broadcastInDim, constantI, id]
  rw [hc, remsi_small _ hx, slt_zero_small _ hx, h9, hne, hand, select_zero]

/-- At the zero counter row `i` of the batch is written at row `i`. -/
theorem rowVec_zero (cnt : IVec S_ 32) (hc : cnt ix0 = 0#32) (i : S16384.Idx) :
    rowVec cnt i = BitVec.ofNat 32 (i 0).val := by
  have hi : (i 0).val < 16384 := (i 0).isLt
  have hcq : ∀ q : S_.Idx, cnt q = 0#32 := fun q => by rw [eq_ix0 q]; exact hc
  have hb : (BitVec.ofNat 32 (i 0).val).toNat < 16384 := by
    rw [BitVec.toNat_ofNat, Nat.mod_eq_of_lt (by omega)]; exact hi
  have hx : (addi (broadcastInDim S16384 ![] bcast_S_S16384 cnt) (iotaInDim S16384 32 0)) i = BitVec.ofNat 32 (i 0).val := by
    simp only [addi, broadcastInDim, iotaInDim, IntOp.addi, hcq, BitVec.zero_add]
  have hr := remainderFn_small (addi (broadcastInDim S16384 ![] bcast_S_S16384 cnt) (iotaInDim S16384 32 0)) i (by rw [hx]; exact hb)
  unfold rowVec
  simp only [select, cmpi, addi, broadcastInDim, constantI] at hr hx ⊢
  rw [hr, hx, slt_zero_small _ hb, select_zero]

/-- The table entry the scatters read for batch row `r`, as an integer: `r`. -/
theorem rowsOf_toInt (cnt : IVec S_ 32) (hc : cnt ix0 = 0#32) (r : Fin 16384) :
    ((rowsOf cnt) (ix2 r (0 : Fin 1))).toInt = (r.val : Int) := by
  have hr : r.val < 16384 := r.isLt
  have e : (rowsOf cnt) (ix2 r (0 : Fin 1)) = BitVec.ofNat 32 r.val := by
    unfold rowsOf
    simp only [broadcastInDim]
    rw [rowVec_zero cnt hc]
    rfl
  rw [e, BitVec.toInt_eq_toNat_of_lt (by rw [BitVec.toNat_ofNat, Nat.mod_eq_of_lt (by omega)]; omega),
    BitVec.toNat_ofNat, Nat.mod_eq_of_lt (by omega)]

/-! ## The result index of an update, for the two dimension records -/

abbrev d1 : ScatterDims S1000000 S16384x1 S16384 := scatter_S1000000_S16384x1_S16384_n_0_0_1
abbrev d2 : ScatterDims S1000000x16 S16384x1 S16384x16 := scatter_S1000000x16_S16384x1_S16384x16_1_0_0_1

theorem window1 (j : S16384.Idx) (a : Fin 1) : d1.window j a = 0 := by
  unfold ScatterDims.window
  rw [dif_neg]
  revert a; decide

theorem start1 (j : S16384.Idx) (idx : IVec S16384x1 32) (a : Fin 1) : d1.start j idx a = (idx (ix2 (j 0) 0)).toInt := by
  have ha : a = 0 := Subsingleton.elim _ _
  subst ha
  unfold ScatterDims.start
  rw [dif_pos (by decide)]
  congr 2
  funext b
  apply Fin.ext
  match b with
  | ⟨0, _⟩ => rfl
  | ⟨1, _⟩ => rfl

/-- One word a row: update `j` lands on row `j 0` when the table's entry for it is `j 0`. -/
theorem resultIdx1 (j : S16384.Idx) (idx : IVec S16384x1 32) (ht : (idx (ix2 (j 0) 0)).toInt = ((j 0).val : Int)) :
    d1.resultIdx? j idx = some (ix1 (⟨(j 0).val, lt_trans (j 0).isLt (by decide)⟩ : Fin 1000000)) := by
  have hj : (j 0).val < 16384 := (j 0).isLt
  have H : ∀ a, 0 ≤ d1.start j idx a + d1.window j a ∧ d1.start j idx a + d1.window j a < S1000000.size a := by
    intro a
    have hs : S1000000.size a = 1000000 := by
      have ha : a = 0 := Subsingleton.elim _ _
      subst ha; rfl
    rw [start1, window1, ht, hs]
    omega
  unfold ScatterDims.resultIdx?
  rw [dif_pos H]
  congr 1
  funext a
  apply Fin.ext
  show (d1.start j idx a + d1.window j a).toNat = _
  rw [start1, window1, ht]
  match a with
  | ⟨0, _⟩ => simp

theorem window2_0 (j : S16384x16.Idx) : d2.window j 0 = 0 := by
  unfold ScatterDims.window
  rw [dif_neg (by decide)]

theorem window2_1 (j : S16384x16.Idx) : d2.window j 1 = (j 1).val := by
  unfold ScatterDims.window
  rw [dif_pos (by decide)]
  rfl

theorem start2_0 (j : S16384x16.Idx) (idx : IVec S16384x1 32) : d2.start j idx 0 = (idx (ix2 (j 0) 0)).toInt := by
  unfold ScatterDims.start
  rw [dif_pos (by decide)]
  congr 2
  funext b
  apply Fin.ext
  match b with
  | ⟨0, _⟩ => rfl
  | ⟨1, _⟩ => rfl

theorem start2_1 (j : S16384x16.Idx) (idx : IVec S16384x1 32) : d2.start j idx 1 = 0 := by
  unfold ScatterDims.start
  rw [dif_neg (by decide)]

/-- Sixteen words a row: update `j` lands on row `j 0`, column `j 1`, when the table's entry for its row is `j 0`. -/
theorem resultIdx2 (j : S16384x16.Idx) (idx : IVec S16384x1 32) (ht : (idx (ix2 (j 0) 0)).toInt = ((j 0).val : Int)) :
    d2.resultIdx? j idx = some (ix2 (⟨(j 0).val, lt_trans (j 0).isLt (by decide)⟩ : Fin 1000000) (⟨(j 1).val, (j 1).isLt⟩ : Fin 16)) := by
  have hj0 : (j 0).val < 16384 := (j 0).isLt
  have hj1 : (j 1).val < 16 := (j 1).isLt
  have H : ∀ a, 0 ≤ d2.start j idx a + d2.window j a ∧ d2.start j idx a + d2.window j a < S1000000x16.size a := by
    intro a
    match a with
    | ⟨0, _⟩ =>
      have hs : S1000000x16.size 0 = 1000000 := rfl
      show 0 ≤ d2.start j idx 0 + d2.window j 0 ∧ d2.start j idx 0 + d2.window j 0 < S1000000x16.size 0
      rw [start2_0, window2_0, ht, hs]
      omega
    | ⟨1, _⟩ =>
      have hs : S1000000x16.size 1 = 16 := rfl
      show 0 ≤ d2.start j idx 1 + d2.window j 1 ∧ d2.start j idx 1 + d2.window j 1 < S1000000x16.size 1
      rw [start2_1, window2_1, hs]
      omega
  unfold ScatterDims.resultIdx?
  rw [dif_pos H]
  congr 1
  funext a
  apply Fin.ext
  match a with
  | ⟨0, _⟩ =>
    show (d2.start j idx 0 + d2.window j 0).toNat = (j 0).val
    rw [start2_0, window2_0, ht]; simp
  | ⟨1, _⟩ =>
    show (d2.start j idx 1 + d2.window j 1).toNat = (j 1).val
    rw [start2_1, window2_1]; simp

/-! ## The overwriting scatters at the zero counter -/

/-- One element a row (any element type): the batch on rows below 16384, the memory elsewhere. -/
theorem scatter1_zero {α : Type} (x : S1000000.Idx → α) (cnt : IVec S_ 32) (hc : cnt ix0 = 0#32) (upd : S16384.Idx → α) :
    Host.scatter d1 (fun _ b => b) x (rowsOf cnt) upd = Cert.Spec.over1 x upd := by
  have ht : ∀ j : S16384.Idx, ((rowsOf cnt) (ix2 (j 0) 0)).toInt = ((j 0).val : Int) := fun j => rowsOf_toInt cnt hc (j 0)
  funext i
  by_cases h : (i 0).val < 16384
  · rw [Cert.Spec.over1_lt _ _ _ h]
    refine scatter_set_hit d1 x (rowsOf cnt) upd i (ix1 (⟨(i 0).val, h⟩ : Fin 16384)) ?_ ?_
    · rw [resultIdx1 _ _ (ht _)]
      congr 1
      funext a
      match a with
      | ⟨0, _⟩ => rfl
    · intro j' hj'
      rw [resultIdx1 j' _ (ht j')] at hj'
      have e := Option.some.inj hj'
      have h0 : (j' 0).val = (i 0).val := by rw [← e]
      funext a
      match a with
      | ⟨0, _⟩ => exact Fin.ext h0
  · rw [Cert.Spec.over1_ge _ _ _ h]
    refine scatter_set_miss d1 x (rowsOf cnt) upd i fun j hj => h ?_
    rw [resultIdx1 j _ (ht j)] at hj
    have e := Option.some.inj hj
    rw [← e]
    exact (j 0).isLt

/-- Sixteen elements a row: the batch's rows on rows below 16384, the memory elsewhere. -/
theorem scatter2_zero {α : Type} (x : S1000000x16.Idx → α) (cnt : IVec S_ 32) (hc : cnt ix0 = 0#32) (upd : S16384x16.Idx → α) :
    Host.scatter d2 (fun _ b => b) x (rowsOf cnt) upd = Cert.Spec.over2 x upd := by
  have ht : ∀ j : S16384x16.Idx, ((rowsOf cnt) (ix2 (j 0) 0)).toInt = ((j 0).val : Int) := fun j => rowsOf_toInt cnt hc (j 0)
  funext i
  by_cases h : (i 0).val < 16384
  · rw [Cert.Spec.over2_lt _ _ _ h]
    refine scatter_set_hit d2 x (rowsOf cnt) upd i (ix2 (⟨(i 0).val, h⟩ : Fin 16384) (⟨(i 1).val, (i 1).isLt⟩ : Fin 16)) ?_ ?_
    · rw [resultIdx2 _ _ (ht _)]
      congr 1
      funext a
      match a with
      | ⟨0, _⟩ => rfl
      | ⟨1, _⟩ => rfl
    · intro j' hj'
      rw [resultIdx2 j' _ (ht j')] at hj'
      have e := Option.some.inj hj'
      have h0 : (j' 0).val = (i 0).val := by rw [← e]
      have h1 : (j' 1).val = (i 1).val := by rw [← e]
      funext a
      match a with
      | ⟨0, _⟩ => exact Fin.ext h0
      | ⟨1, _⟩ => exact Fin.ext h1
  · rw [Cert.Spec.over2_ge _ _ _ h]
    refine scatter_set_miss d2 x (rowsOf cnt) upd i fun j hj => h ?_
    rw [resultIdx2 j _ (ht j)] at hj
    have e := Option.some.inj hj
    rw [← e]
    exact (j 0).isLt

end Cert.ReferenceIdeal.RefIdx

end
-- ==== Proof.RefValue.lean ====
/-
  The reference half of the certificate: the reference program runs to the end from any memory with its arguments
  unchanged, and under the precondition its four results are one ring-buffer append at write position 0.

  The run is the straight line's (`RefRun.run_main`): every buffer ends at the fold of the operations' results, which is
  the pure term of `RefRaw` at each result buffer and the launch contents at each argument. The precondition's conjunct
  on the counter (`0 ≤ counter` and `counter ≤ 0`, signed, reduced by `and` over the scalar's one index) makes the counter the zero word, and at the
  zero counter the three overwriting scatters are the specification's `over1` / `over2` (`RefIdx`); the new counter is
  the old one plus 16384 by definition.
-/
import proofs.«210822_g55980603736083_cont_9to1_m_1082_22_alg».proof.Defs
import proofs.«210822_g55980603736083_cont_9to1_m_1082_22_alg».proof.Proof.Gen.ReferenceIdeal
import proofs.«210822_g55980603736083_cont_9to1_m_1082_22_alg».proof.Proof.Gen.Pre_input_domain
import proofs.«210822_g55980603736083_cont_9to1_m_1082_22_alg».proof.Proof.Spec
import proofs.«210822_g55980603736083_cont_9to1_m_1082_22_alg».proof.Proof.RefIdx
import Idealize.ShloMosaic.Lib.ReduceAll

noncomputable section

namespace Cert.ReferenceIdeal.RefValue

open Idealize.ShloMosaic Idealize.SL.Sem Cert.ReferenceIdeal
open Idealize.ShloMosaic.TcCoe Idealize.ShloMosaic.StableHlo Idealize.ShloMosaic.ValueIdx
open Cert.ReferenceIdeal.Gen Cert.Pre_input_domain.Gen

/-- The precondition makes the counter the zero word: its conjunct on the counter is `0 ≤ counter ∧ counter ≤ 0`, signed. -/
theorem counter_zero (a0 : IVec Cert.Pre_input_domain.S1000000 32) (a1 : IVec Cert.Pre_input_domain.S1000000x16 32)
    (a2 : FVec Ideal Cert.Pre_input_domain.S1000000 .f32) (a3 : IVec Cert.Pre_input_domain.S_ 32)
    (a4 : IVec Cert.Pre_input_domain.S16384 32) (a5 : IVec Cert.Pre_input_domain.S16384x16 32)
    (a6 : FVec Ideal Cert.Pre_input_domain.S16384 .f32)
    (h : Cert.Pre_input_domain.fn (F := Ideal) a0 a1 a2 a3 a4 a5 a6 = fun _ => 1#1) : a3 ix0 = 0#32 := by
  have h0 := congrFun h ix0
  dsimp only [Cert.Pre_input_domain.fn, Cert.Pre_input_domain.fn_part1, Cert.Pre_input_domain.fn_part2] at h0
  change IntOp.andi _ _ = 1#1 at h0
  obtain ⟨h34, -⟩ := IntOp.andi_eq_one.1 h0
  change IntOp.andi _ _ = 1#1 at h34
  obtain ⟨h27, -⟩ := IntOp.andi_eq_one.1 h34
  change IntOp.andi _ _ = 1#1 at h27
  obtain ⟨-, h26⟩ := IntOp.andi_eq_one.1 h27
  haveI : Subsingleton Cert.Pre_input_domain.S_.Idx := ⟨fun a b => funext fun d => d.elim0⟩
  have h25 := Host.reduce_andi_all _ _ _ _ _ h26 ix0
  change IntOp.andi _ _ = 1#1 at h25
  obtain ⟨h23, h24⟩ := IntOp.andi_eq_one.1 h25
  change IntOp.cmpi .sge (a3 ix0) 0#32 = 1#1 at h23
  change IntOp.cmpi .sle (a3 ix0) 0#32 = 1#1 at h24
  have g1 := IntOp.cmpi_sge.1 h23
  have g2 := IntOp.cmpi_sle.1 h24
  apply BitVec.eq_of_toInt_eq
  have z : (0#32 : BitVec 32).toInt = 0 := rfl
  rw [z] at g1 g2 ⊢
  omega

/-- The reference runs to the end from any memory, its arguments unchanged (no precondition needed). -/
theorem frame (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.ReferenceIdeal.defs (F := Ideal)) _ _).mono (fun r h c =>
    ⟨(h c main_arg0).trans (RefRaw.arg0_eq _), (h c main_arg1).trans (RefRaw.arg1_eq _), (h c main_arg2).trans (RefRaw.arg2_eq _),
     (h c main_arg3).trans (RefRaw.arg3_eq _), (h c main_arg4).trans (RefRaw.arg4_eq _), (h c main_arg5).trans (RefRaw.arg5_eq _),
     (h c main_arg6).trans (RefRaw.arg6_eq _)⟩)
    (RefRun.run_main (F := Ideal) m ρ)

/-- Under the precondition the reference's four results are the append at position 0. -/
theorem run (m : (ℓ : Loc nD τ sig) → Buf (Elt Ideal) ℓ) (ρ : Dev nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩ (fun r => ∀ c : Dev nD,
      r.2.mem ((c.tc : Thread nD τ).loc main_v10) = Cert.Spec.over1 (m ((c.tc : Thread nD τ).loc main_arg0)) (m ((c.tc : Thread nD τ).loc main_arg4))
      ∧ r.2.mem ((c.tc : Thread nD τ).loc main_v17) = Cert.Spec.over2 (m ((c.tc : Thread nD τ).loc main_arg1)) (m ((c.tc : Thread nD τ).loc main_arg5))
      ∧ r.2.mem ((c.tc : Thread nD τ).loc main_v24) = Cert.Spec.over1 (m ((c.tc : Thread nD τ).loc main_arg2)) (m ((c.tc : Thread nD τ).loc main_arg6))
      ∧ r.2.mem ((c.tc : Thread nD τ).loc main_v25) = Cert.Spec.bump (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.ReferenceIdeal.defs (F := Ideal)) _ _).mono (fun r h c =>
    have hc : (m ((c.tc : Thread nD τ).loc main_arg3) : IVec S_ 32) ix0 = 0#32 := counter_zero _ _ _ _ _ _ _ (hpre c)
    ⟨(h c main_v10).trans ((RefRaw.v10_eq _).trans (RefIdx.scatter1_zero _ _ hc _)),
     (h c main_v17).trans ((RefRaw.v17_eq _).trans (RefIdx.scatter2_zero _ _ hc _)),
     (h c main_v24).trans ((RefRaw.v24_eq _).trans (RefIdx.scatter1_zero _ _ hc _)),
     (h c main_v25).trans (RefRaw.v25_eq _),
     (h c main_arg0).trans (RefRaw.arg0_eq _), (h c main_arg1).trans (RefRaw.arg1_eq _), (h c main_arg2).trans (RefRaw.arg2_eq _),
     (h c main_arg3).trans (RefRaw.arg3_eq _), (h c main_arg4).trans (RefRaw.arg4_eq _), (h c main_arg5).trans (RefRaw.arg5_eq _),
     (h c main_arg6).trans (RefRaw.arg6_eq _)⟩)
    (RefRun.run_main (F := Ideal) m ρ)

end Cert.ReferenceIdeal.RefValue

end
-- ==== Proof.lean ====
/-
  The certificate: the kernel's entry point appends a batch of 16384 experiences to a ring-buffer memory of 1000000 rows
  exactly as the reference does, when the write position (the counter) is 0 — which the stated precondition says.

  The reference computes the write indices (counter + 0 … 16383) mod 1000000; at counter 0 these are 0 … 16383, pairwise
  distinct and inside the memory, so its three overwriting scatters replace rows 0 … 16383 of the keys, the candidate
  table and the rewards by the batch's rows and keep every other row; its fourth result is counter + 16384.
  The kernel copies the keys' and rewards' memory and lets thirty-two SparseCore subcores overwrite rows 512·w … 512·w + 511
  (w = 0 … 31) of the copies by the batch's rows — together rows 0 … 16383 —; it transposes the candidate table, overwrites
  columns 0 … 16383 of the transpose by the transposed batch in one pipelined TensorCore kernel, and transposes back; it
  adds 16384 to the counter. Every result element is one argument element, so the two programs' results are compared by
  position alone: each is the function `Spec.over1` / `Spec.over2` / `Spec.bump` of the arguments. No float is computed
  on: the rewards are only moved.
  The frames need no precondition: every offset is static and in range, each subcore's two copies are issued and waited for
  one at a time on semaphores of their own, and the subcores' row ranges are pairwise disjoint. The precondition is used
  once, for the reference's indices.
-/
import proofs.«210822_g55980603736083_cont_9to1_m_1082_22_alg».proof.Defs
import proofs.«210822_g55980603736083_cont_9to1_m_1082_22_alg».proof.Proof.K.Main
import proofs.«210822_g55980603736083_cont_9to1_m_1082_22_alg».proof.Proof.KI.Main
import proofs.«210822_g55980603736083_cont_9to1_m_1082_22_alg».proof.Proof.RefValue

noncomputable section

namespace Cert.Proof

open Idealize.ShloMosaic Idealize.SL.Sem

/-- The kernel program as printed runs to the end with its arguments unchanged. -/
theorem frame_k : Cert.frame_Kernel := fun m ρ _ =>
  (θ_run Cert.Kernel.defs _ _).mono (fun _ h c => (h c).2.2.2.2) (Cert.Kernel.Hand.run_main (F := Bits) m ρ)

/-- So does its idealization. -/
theorem frame_ki : Cert.frame_KernelIdeal := fun m ρ _ =>
  (θ_run Cert.KernelIdeal.defs _ _).mono (fun _ h c => (h c).2.2.2.2) (Cert.KernelIdeal.Hand.run_main (F := Ideal) m ρ)

/-- So does the reference. -/
theorem frame_ri : Cert.frame_ReferenceIdeal := fun m ρ _ => Cert.ReferenceIdeal.RefValue.frame m ρ

/-- The ideal pass rewrote nothing. -/
theorem preserves : Cert.preserves_Kernel_KernelIdeal := trivial

/-- Both idealized programs end with the four results at the append's functions of the arguments. -/
theorem algebraic : Cert.algebraic_KernelIdeal_ReferenceIdeal := by
  intro m ρ m' ρ' hpre hagree
  have hpre' : Cert.Pre_ReferenceIdeal m' := by
    unfold Cert.Pre_ReferenceIdeal
    intro c
    rw [(hagree c).1, (hagree c).2.1, (hagree c).2.2.1, (hagree c).2.2.2.1, (hagree c).2.2.2.2.1, (hagree c).2.2.2.2.2.1, (hagree c).2.2.2.2.2.2]
    exact hpre c
  refine ⟨fun c => Cert.Spec.over1 (m ((c.tc : Thread Cert.KernelIdeal.nD Cert.KernelIdeal.τ).loc Cert.KernelIdeal.main_arg0)) (m ((c.tc : Thread Cert.KernelIdeal.nD Cert.KernelIdeal.τ).loc Cert.KernelIdeal.main_arg4)),
    fun c => Cert.Spec.over2 (m ((c.tc : Thread Cert.KernelIdeal.nD Cert.KernelIdeal.τ).loc Cert.KernelIdeal.main_arg1)) (m ((c.tc : Thread Cert.KernelIdeal.nD Cert.KernelIdeal.τ).loc Cert.KernelIdeal.main_arg5)),
    fun c => Cert.Spec.over1 (m ((c.tc : Thread Cert.KernelIdeal.nD Cert.KernelIdeal.τ).loc Cert.KernelIdeal.main_arg2)) (m ((c.tc : Thread Cert.KernelIdeal.nD Cert.KernelIdeal.τ).loc Cert.KernelIdeal.main_arg6)),
    fun c => Cert.Spec.bump (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_main (F := Ideal) m ρ)
    obtain ⟨h0, h1, h2, h3, hargs⟩ := h c
    exact ⟨h0, h1.trans (Cert.KernelIdeal.Hand.regOut_transposes _ _), h2, h3, hargs⟩
  · refine (θ_run Cert.ReferenceIdeal.defs _ _).mono (fun r h c => ?_) (Cert.ReferenceIdeal.RefValue.run m' ρ' hpre')
    obtain ⟨h0, h1, h2, h3, hargs⟩ := h c
    rw [(hagree c).1, (hagree c).2.2.2.2.1] at h0
    rw [(hagree c).2.1, (hagree c).2.2.2.2.2.1] at h1
    rw [(hagree c).2.2.1, (hagree c).2.2.2.2.2.2] at h2
    rw [(hagree c).2.2.2.1] at h3
    exact ⟨h0, h1, h2, h3, hargs⟩

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
